-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x128 : Shape := ⟨2, ![30000, 128]⟩
abbrev S2x480000 : Shape := ⟨2, ![2, 480000]⟩
abbrev S3x128x256 : Shape := ⟨3, ![3, 128, 256]⟩
abbrev S256 : Shape := ⟨1, ![256]⟩
abbrev S3x256x128 : Shape := ⟨3, ![3, 256, 128]⟩
abbrev S128 : Shape := ⟨1, ![128]⟩
abbrev S_ : Shape := ⟨0, ![]⟩

class Facts : Prop where
  bcast_S_S30000x128 : S_.BroadcastsInDim S30000x128 (![] : Fin 0 → Fin S30000x128.rank)
  reducesTo_S30000x128_S_d0_1 : S30000x128.ReducesTo [0, 1] S_
  h_S_ : 0 < S_.numel
  bcast_S_S3x128x256 : S_.BroadcastsInDim S3x128x256 (![] : Fin 0 → Fin S3x128x256.rank)
  reducesTo_S3x128x256_S_d0_1_2 : S3x128x256.ReducesTo [0, 1, 2] S_
  bcast_S_S256 : S_.BroadcastsInDim S256 (![] : Fin 0 → Fin S256.rank)
  reducesTo_S256_S_d0 : S256.ReducesTo [0] S_
  bcast_S_S3x256x128 : S_.BroadcastsInDim S3x256x128 (![] : Fin 0 → Fin S3x256x128.rank)
  reducesTo_S3x256x128_S_d0_1_2 : S3x256x128.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S3x256x128 1) : IVec S_ 1 :=
  let main_c_5 : IVec S_ 1 := constantI S_ 1 1#1
  let main_v17 : IVec S_ 1 := (fun x v => Host.reduce IntOp.andi x v reducesTo_S3x256x128_S_d0_1_2 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S30000x128 .f32) (main_arg1 : IVec S2x480000 32) (main_arg2 : FVec F S3x128x256 .f32) (main_arg3 : FVec F S256 .f32) (main_arg4 : FVec F S3x256x128 .f32) (main_arg5 : FVec F S128 .f32) : IVec S_ 1 :=
  let main_v0 : FVec F S30000x128 .f32 := Host.absf main_arg0
  let main_cst : FVec F S_ .f32 := constant S_ .f32 0x7F800000#32
  let main_v1 : FVec F S30000x128 .f32 := broadcastInDim S30000x128 ![] bcast_S_S30000x128 main_cst
  let main_v2 : IVec S30000x128 1 := cmpf .olt main_v0 main_v1
  let main_c : IVec S_ 1 := constantI S_ 1 1#1
  let main_v3 : IVec S_ 1 := (fun x v => Host.reduce IntOp.andi x v reducesTo_S30000x128_S_d0_1 h_S_) main_v2 main_c
  let main_v4 : FVec F S3x128x256 .f32 := Host.absf main_arg2
  let main_cst_0 : FVec F S_ .f32 := constant S_ .f32 0x7F800000#32
  let main_v5 : FVec F S3x128x256 .f32 := broadcastInDim S3x128x256 ![] bcast_S_S3x128x256 main_cst_0
  let main_v6 : IVec S3x128x256 1 := cmpf .olt main_v4 main_v5
  let main_c_1 : IVec S_ 1 := constantI S_ 1 1#1
  let main_v7 : IVec S_ 1 := (fun x v => Host.reduce IntOp.andi x v reducesTo_S3x128x256_S_d0_1_2 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S3x256x128 .f32 := Host.absf main_arg4
  let main_cst_4 : FVec F S_ .f32 := constant S_ .f32 0x7F800000#32
  let main_v15 : FVec F S3x256x128 .f32 := broadcastInDim S3x256x128 ![] bcast_S_S3x256x128 main_cst_4
  let main_v16 : IVec S3x256x128 1 := cmpf .olt main_v14 main_v15
  fn_part1 (F := F) main_arg5 main_v13 main_v16
-- ==== Kernel.lean ====
abbrev S30000x128 : Shape := ⟨2, ![30000, 128]⟩
abbrev S2x480000 : Shape := ⟨2, ![2, 480000]⟩
abbrev S3x128x256 : Shape := ⟨3, ![3, 128, 256]⟩
abbrev S256 : Shape := ⟨1, ![256]⟩
abbrev S3x256x128 : Shape := ⟨3, ![3, 256, 128]⟩
abbrev S128 : Shape := ⟨1, ![128]⟩
abbrev S1x480000 : Shape := ⟨2, ![1, 480000]⟩
abbrev S480000 : Shape := ⟨1, ![480000]⟩
abbrev S_ : Shape := ⟨0, ![]⟩
abbrev S30000 : Shape := ⟨1, ![30000]⟩
abbrev S480000x1 : Shape := ⟨2, ![480000, 1]⟩
abbrev S480000x128 : Shape := ⟨2, ![480000, 128]⟩
abbrev S1x30000x128 : Shape := ⟨3, ![1, 30000, 128]⟩
abbrev S3x30000x128 : Shape := ⟨3, ![3, 30000, 128]⟩
abbrev S1x256 : Shape := ⟨2, ![1, 256]⟩
abbrev S30000x256 : Shape := ⟨2, ![30000, 256]⟩
abbrev S1x2000x128 : Shape := ⟨3, ![1, 2000, 128]⟩
abbrev S1x128x256 : Shape := ⟨3, ![1, 128, 256]⟩
abbrev S2000x256 : Shape := ⟨2, ![2000, 256]⟩
abbrev S2000x128 : Shape := ⟨2, ![2000, 128]⟩
abbrev S128x256 : Shape := ⟨2, ![128, 256]⟩
abbrev S480000x256 : Shape := ⟨2, ![480000, 256]⟩
abbrev S1x30000x256 : Shape := ⟨3, ![1, 30000, 256]⟩
abbrev S3x30000x256 : Shape := ⟨3, ![3, 30000, 256]⟩
abbrev S1x128 : Shape := ⟨2, ![1, 128]⟩
abbrev S1x2000x256 : Shape := ⟨3, ![1, 2000, 256]⟩
abbrev S1x256x128 : Shape := ⟨3, ![1, 256, 128]⟩
abbrev S256x128 : Shape := ⟨2, ![256, 128]⟩

abbrev nBuf : Space → Nat
  | .hbm => 143
  | .vmem => 16
  | .smem => 0
  | _ => 0

abbrev hbmTy0_0 (i : Nat) : BufTy := match i % 128 with
  | 0 => ⟨S30000x128, .f32⟩
  | 1 => ⟨S2x480000, .i32⟩
  | 2 => ⟨S3x128x256, .f32⟩
  | 3 => ⟨S256, .f32⟩
  | 4 => ⟨S3x256x128, .f32⟩
  | 5 => ⟨S128, .f32⟩
  | 6 => ⟨S1x480000, .i32⟩
  | 7 => ⟨S480000, .i32⟩
  | 8 => ⟨S1x480000, .i32⟩
  | 9 => ⟨S480000, .i32⟩
  | 10 => ⟨S480000, .i1⟩
  | 11 => ⟨S_, .f32⟩
  | 12 => ⟨S_, .f32⟩
  | 13 => ⟨S480000, .f32⟩
  | 14 => ⟨S480000, .f32⟩
  | 15 => ⟨S480000, .f32⟩
  | 16 => ⟨S_, .f32⟩
  | 17 => ⟨S30000, .f32⟩
  | 18 => ⟨S480000x1, .i32⟩
  | 19 => ⟨S480000, .f32⟩
  | 20 => ⟨S30000, .f32⟩
  | 21 => ⟨S_, .f32⟩
  | 22 => ⟨S30000, .f32⟩
  | 23 => ⟨S30000, .i1⟩
  | 24 => ⟨S_, .f32⟩
  | 25 => ⟨S30000, .f32⟩
  | 26 => ⟨S30000, .f32⟩
  | 27 => ⟨S_, .f32⟩
  | 28 => ⟨S_, .f32⟩
  | 29 => ⟨S30000, .f32⟩
  | 30 => ⟨S30000, .f32⟩
  | 31 => ⟨S_, .i32⟩
  | 32 => ⟨S480000, .i32⟩
  | 33 => ⟨S480000, .i1⟩
  | 34 => ⟨S_, .i32⟩
  | 35 => ⟨S480000, .i32⟩
  | 36 => ⟨S480000, .i32⟩
  | 37 => ⟨S480000, .i32⟩
  | 38 => ⟨S480000x1, .i32⟩
  | 39 => ⟨S480000, .f32⟩
  | 40 => ⟨S480000, .f32⟩
  | 41 => ⟨S_, .i32⟩
  | 42 => ⟨S480000, .i32⟩
  | 43 => ⟨S480000, .i1⟩
  | 44 => ⟨S_, .i32⟩
  | 45 => ⟨S480000, .i32⟩
  | 46 => ⟨S480000, .i32⟩
  | 47 => ⟨S480000, .i32⟩
  | 48 => ⟨S480000x1, .i32⟩
  | 49 => ⟨S480000, .f32⟩
  | 50 => ⟨S480000, .f32⟩
  | 51 => ⟨S_, .f32⟩
  | 52 => ⟨S_, .f32⟩
  | 53 => ⟨S480000, .f32⟩
  | 54 => ⟨S480000, .f32⟩
  | 55 => ⟨S480000x1, .f32⟩
  | 56 => ⟨S_, .i32⟩
  | 57 => ⟨S480000, .i32⟩
  | 58 => ⟨S480000, .i1⟩
  | 59 => ⟨S_, .i32⟩
  | 60 => ⟨S480000, .i32⟩
  | 61 => ⟨S480000, .i32⟩
  | 62 => ⟨S480000, .i32⟩
  | 63 => ⟨S480000x1, .i32⟩
  | 64 => ⟨S480000x128, .f32⟩
  | 65 => ⟨S480000x128, .f32⟩
  | 66 => ⟨S480000x128, .f32⟩
  | 67 => ⟨S_, .f32⟩
  | 68 => ⟨S30000x128, .f32⟩
  | 69 => ⟨S480000x1, .i32⟩
  | 70 => ⟨S30000x128, .f32⟩
  | 71 => ⟨S480000x1, .f32⟩
  | 72 => ⟨S_, .i32⟩
  | 73 => ⟨S480000, .i32⟩
  | 74 => ⟨S480000, .i1⟩
  | 75 => ⟨S_, .i32⟩
  | 76 => ⟨S480000, .i32⟩
  | 77 => ⟨S480000, .i32⟩
  | 78 => ⟨S480000, .i32⟩
  | 79 => ⟨S480000x1, .i32⟩
  | 80 => ⟨S480000x128, .f32⟩
  | 81 => ⟨S480000x128, .f32⟩
  | 82 => ⟨S480000x128, .f32⟩
  | 83 => ⟨S_, .f32⟩
  | 84 => ⟨S30000x128, .f32⟩
  | 85 => ⟨S480000x1, .i32⟩
  | 86 => ⟨S30000x128, .f32⟩
  | 87 => ⟨S_, .f32⟩
  | 88 => ⟨S30000x128, .f32⟩
  | 89 => ⟨S30000x128, .f32⟩
  | 90 => ⟨S30000x128, .f32⟩
  | 91 => ⟨S1x30000x128, .f32⟩
  | 92 => ⟨S1x30000x128, .f32⟩
  | 93 => ⟨S1x30000x128, .f32⟩
  | 94 => ⟨S3x30000x128, .f32⟩
  | 95 => ⟨S3x30000x128, .bf16⟩
  | 96 => ⟨S3x128x256, .bf16⟩
  | 97 => ⟨S1x256, .f32⟩
  | 98 => ⟨S30000x256, .f32⟩
  | 99 => ⟨S480000x1, .f32⟩
  | 100 => ⟨S_, .i32⟩
  | 101 => ⟨S480000, .i32⟩
  | 102 => ⟨S480000, .i1⟩
  | 103 => ⟨S_, .i32⟩
  | 104 => ⟨S480000, .i32⟩
  | 105 => ⟨S480000, .i32⟩
  | 106 => ⟨S480000, .i32⟩
  | 107 => ⟨S480000x1, .i32⟩
  | 108 => ⟨S480000x256, .f32⟩
  | 109 => ⟨S480000x256, .f32⟩
  | 110 => ⟨S480000x256, .f32⟩
  | 111 => ⟨S_, .f32⟩
  | 112 => ⟨S30000x256, .f32⟩
  | 113 => ⟨S480000x1, .i32⟩
  | 114 => ⟨S30000x256, .f32⟩
  | 115 => ⟨S480000x1, .f32⟩
  | 116 => ⟨S_, .i32⟩
  | 117 => ⟨S480000, .i32⟩
  | 118 => ⟨S480000, .i1⟩
  | 119 => ⟨S_, .i32⟩
  | 120 => ⟨S480000, .i32⟩
  | 121 => ⟨S480000, .i32⟩
  | 122 => ⟨S480000, .i32⟩
  | 123 => ⟨S480000x1, .i32⟩
  | 124 => ⟨S480000x256, .f32⟩
  | 125 => ⟨S480000x256, .f32⟩
  | 126 => ⟨S480000x256, .f32⟩
  | 127 => ⟨S_, .f32⟩
  | _ => ⟨S30000x128, .f32⟩

abbrev hbmTy0_1 (i : Nat) : BufTy := match i % 128 with
  | 0 => ⟨S30000x256, .f32⟩
  | 1 => ⟨S480000x1, .i32⟩
  | 2 => ⟨S30000x256, .f32⟩
  | 3 => ⟨S_, .f32⟩
  | 4 => ⟨S30000x256, .f32⟩
  | 5 => ⟨S30000x256, .f32⟩
  | 6 => ⟨S30000x256, .f32⟩
  | 7 => ⟨S1x30000x256, .f32⟩
  | 8 => ⟨S1x30000x256, .f32⟩
  | 9 => ⟨S1x30000x256, .f32⟩
  | 10 => ⟨S3x30000x256, .f32⟩
  | 11 => ⟨S3x30000x256, .bf16⟩
  | 12 => ⟨S3x256x128, .bf16⟩
  | 13 => ⟨S1x128, .f32⟩
  | 14 => ⟨S30000x128, .f32⟩
  | _ => ⟨S30000x128, .f32⟩

abbrev hbmTy (i : Nat) : BufTy := match i / 128 with
  | 0 => hbmTy0_0 i
  | 1 => hbmTy0_1 i
  | _ => ⟨S30000x128, .f32⟩

abbrev bufTy : (tb : Table) → Fin (tcTables nBuf tb) → BufTy
  | .hbm, ⟨i, _⟩ => hbmTy i
  | .local _ .vmem, ⟨0, _⟩ => ⟨S1x2000x128, .bf16⟩
  | .local _ .vmem, ⟨1, _⟩ => ⟨S1x2000x128, .bf16⟩
  | .local _ .vmem, ⟨2, _⟩ => ⟨S1x128x256, .bf16⟩
  | .local _ .vmem, ⟨3, _⟩ => ⟨S1x128x256, .bf16⟩
  | .local _ .vmem, ⟨4, _⟩ => ⟨S1x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S1x2000x256, .bf16⟩
  | .local _ .vmem, ⟨9, _⟩ => ⟨S1x2000x256, .bf16⟩
  | .local _ .vmem, ⟨10, _⟩ => ⟨S1x256x128, .bf16⟩
  | .local _ .vmem, ⟨11, _⟩ => ⟨S1x256x128, .bf16⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | _, _ => ⟨S30000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_c_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_call2_v0 : Ref sig .tc := ⟨.hbm, 52, rfl⟩
abbrev main_call2_v1 : Ref sig .tc := ⟨.hbm, 53, rfl⟩
abbrev main_v31 : Ref sig .tc := ⟨.hbm, 54, rfl⟩
abbrev main_v32 : Ref sig .tc := ⟨.hbm, 55, rfl⟩
abbrev main_c_9 : Ref sig .tc := ⟨.hbm, 56, rfl⟩
abbrev main_v33 : Ref sig .tc := ⟨.hbm, 57, rfl⟩
abbrev main_v34 : Ref sig .tc := ⟨.hbm, 58, rfl⟩
abbrev main_c_10 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_11 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_c_13 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_14 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_15 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_16 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_18 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_19 : Ref sig .tc := ⟨.hbm, 116, rfl⟩
abbrev main_v83 : Ref sig .tc := ⟨.hbm, 117, rfl⟩
abbrev main_v84 : Ref sig .tc := ⟨.hbm, 118, rfl⟩
abbrev main_c_20 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_21 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_22 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![15, 3], ![false, false]⟩

def k0_cond2 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![15, 3], ![false, false]⟩

def k1_cond2 (i : grid1.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_10 : BitVec 32 := 0#32
  let v15 : BitVec 1 := Scalar.cmpi .ne v14 c0_i32_10
  v15

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  slices_S2x480000_S1x480000_0_0 : S2x480000.Slices ![0, 0] S1x480000
  shapeCasts_S1x480000_S480000 : S1x480000.ShapeCasts S480000
  slices_S2x480000_S1x480000_1_0 : S2x480000.Slices ![1, 0] S1x480000
  bcast_S_S480000 : S_.BroadcastsInDim S480000 (![] : Fin 0 → Fin S480000.rank)
  bcast_S_S30000 : S_.BroadcastsInDim S30000 (![] : Fin 0 → Fin S30000.rank)
  bcast_S480000_S480000x1_0 : S480000.BroadcastsInDim S480000x1 (![0] : Fin 1 → Fin S480000x1.rank)
  bcast_S480000x1_S480000x128_0_1 : S480000x1.BroadcastsInDim S480000x128 (![0, 1] : Fin 2 → Fin S480000x128.rank)
  bcast_S_S30000x128 : S_.BroadcastsInDim S30000x128 (![] : Fin 0 → Fin S30000x128.rank)
  bcast_S30000x128_S1x30000x128_1_2 : S30000x128.BroadcastsInDim S1x30000x128 (![1, 2] : Fin 2 → Fin S1x30000x128.rank)
  concatenates_S1x30000x128_S1x30000x128_S1x30000x128_S3x30000x128_d0 : Shape.Concatenates [S1x30000x128, S1x30000x128, S1x30000x128] S3x30000x128 0
  bitsLt_bf16_f32 : FTy.bits .bf16 < FTy.bits .f32
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S1x2000x128_S1x2000x128_0_0_0 : ∀ a, (![0, 0, 0] : Fin 3 → Nat) a + S1x2000x128.size a ≤ S1x2000x128.size a
  h_S1x2000x128 : 0 < S1x2000x128.numel
  shapeCasts_S1x2000x128_S2000x128 : S1x2000x128.ShapeCasts S2000x128
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S1x256_S1x256_0_0 : ∀ a, (![0, 0] : Fin 2 → Nat) a + S1x256.size a ≤ S1x256.size a
  h_S1x256 : 0 < S1x256.numel
  shapeCasts_S1x256_S256 : S1x256.ShapeCasts S256
  broadcasts_S1x256_S2000x256 : S1x256.Broadcasts S2000x256
  bcast_S480000x1_S480000x256_0_1 : S480000x1.BroadcastsInDim S480000x256 (![0, 1] : Fin 2 → Fin S480000x256.rank)
  bcast_S_S30000x256 : S_.BroadcastsInDim S30000x256 (![] : Fin 0 → Fin S30000x256.rank)
  bcast_S30000x256_S1x30000x256_1_2 : S30000x256.BroadcastsInDim S1x30000x256 (![1, 2] : Fin 2 → Fin S1x30000x256.rank)
  concatenates_S1x30000x256_S1x30000x256_S1x30000x256_S3x30000x256_d0 : Shape.Concatenates [S1x30000x256, S1x30000x256, S1x30000x256] S3x30000x256 0
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x2000x256_S1x2000x256_0_0_0 : ∀ a, (![0, 0, 0] : Fin 3 → Nat) a + S1x2000x256.size a ≤ S1x2000x256.size a
  h_S1x2000x256 : 0 < S1x2000x256.numel
  shapeCasts_S1x2000x256_S2000x256 : S1x2000x256.ShapeCasts S2000x256
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x128_S1x128_0_0 : ∀ a, (![0, 0] : Fin 2 → Nat) a + S1x128.size a ≤ S1x128.size a
  h_S1x128 : 0 < S1x128.numel
  shapeCasts_S1x128_S128 : S1x128.ShapeCasts S128
  broadcasts_S1x128_S2000x128 : S1x128.Broadcasts S2000x128
  scatter_S30000_S480000x1_S480000_n_0_0_1_wf : ScatterDims.WF S30000 S480000x1 S480000 [] [0] [0] 1
  gather_S30000_S480000x1_S480000_n_0_n_n_0_1_1_wf : GatherDims.WF S30000 S480000x1 S480000 [] [0] [] [0] [] 1 ![1]
  gather_S30000x128_S480000x1_S480000x128_1_0_n_n_0_1_1128_wf : GatherDims.WF S30000x128 S480000x1 S480000x128 [1] [0] [] [0] [] 1 ![1, 128]
  scatter_S30000x128_S480000x1_S480000x128_1_0_0_1_wf : ScatterDims.WF S30000x128 S480000x1 S480000x128 [1] [0] [0] 1
  dot_S2000x128_S128x256_S2000x256_1_0_0_1_n_n_wf : DotDims.WF S2000x128 S128x256 S2000x256 [1] [0] [0] [1] [] []
  gather_S30000x256_S480000x1_S480000x256_1_0_n_n_0_1_1256_wf : GatherDims.WF S30000x256 S480000x1 S480000x256 [1] [0] [] [0] [] 1 ![1, 256]
  scatter_S30000x256_S480000x1_S480000x256_1_0_0_1_wf : ScatterDims.WF S30000x256 S480000x1 S480000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x128.size a ≤ S3x30000x128.size a
  hwx0_0 : ∀ i : grid0.Coords, EltTy.bits .bf16 = 32 ∨ (Rect.block (s := S3x30000x128) S1x2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x256.size a ≤ S3x128x256.size a
  hwx0_1 : ∀ i : grid0.Coords, EltTy.bits .bf16 = 32 ∨ (Rect.block (s := S3x128x256) S1x128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S30000x256.size a
  hwx0_3 : ∀ i : grid0.Coords, EltTy.bits .f32 = 32 ∨ (Rect.block (s := S30000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2000x256.size a ≤ S3x30000x256.size a
  hwx1_0 : ∀ i : grid1.Coords, EltTy.bits .bf16 = 32 ∨ (Rect.block (s := S3x30000x256) S1x2000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x128.size a ≤ S3x256x128.size a
  hwx1_1 : ∀ i : grid1.Coords, EltTy.bits .bf16 = 32 ∨ (Rect.block (s := S3x256x128) S1x256x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S30000x128.size a
  hwx1_3 : ∀ i : grid1.Coords, EltTy.bits .f32 = 32 ∨ (Rect.block (s := S30000x128) S2000x128.size (cc1_transform_3 i) (hinb1_3 i)).WholeWords (EltTy.packing .f32)

variable [Facts₀]

def scatter_S30000_S480000x1_S480000_n_0_0_1 : ScatterDims S30000 S480000x1 S480000 where
  updateWindowDims := []
  insertedWindowDims := [0]
  scatterDimsToOperandDims := [0]
  indexVectorDim := 1
  wf := scatter_S30000_S480000x1_S480000_n_0_0_1_wf
def gather_S30000_S480000x1_S480000_n_0_n_n_0_1_1 : GatherDims S30000 S480000x1 S480000 where
  offsetDims := []
  collapsedSliceDims := [0]
  operandBatchingDims := []
  startIndicesBatchingDims := []
  startIndexMap := [0]
  indexVectorDim := 1
  sliceSizes := ![1]
  wf := gather_S30000_S480000x1_S480000_n_0_n_n_0_1_1_wf
def gather_S30000x128_S480000x1_S480000x128_1_0_n_n_0_1_1128 : GatherDims S30000x128 S480000x1 S480000x128 where
  offsetDims := [1]
  collapsedSliceDims := [0]
  operandBatchingDims := []
  startIndicesBatchingDims := []
  startIndexMap := [0]
  indexVectorDim := 1
  sliceSizes := ![1, 128]
  wf := gather_S30000x128_S480000x1_S480000x128_1_0_n_n_0_1_1128_wf
def scatter_S30000x128_S480000x1_S480000x128_1_0_0_1 : ScatterDims S30000x128 S480000x1 S480000x128 where
  updateWindowDims := [1]
  insertedWindowDims := [0]
  scatterDimsToOperandDims := [0]
  indexVectorDim := 1
  wf := scatter_S30000x128_S480000x1_S480000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S30000x256_S480000x1_S480000x256_1_0_n_n_0_1_1256 : GatherDims S30000x256 S480000x1 S480000x256 where
  offsetDims := [1]
  collapsedSliceDims := [0]
  operandBatchingDims := []
  startIndicesBatchingDims := []
  startIndexMap := [0]
  indexVectorDim := 1
  sliceSizes := ![1, 256]
  wf := gather_S30000x256_S480000x1_S480000x256_1_0_n_n_0_1_1256_wf
def scatter_S30000x256_S480000x1_S480000x256_1_0_0_1 : ScatterDims S30000x256 S480000x1 S480000x256 where
  updateWindowDims := [1]
  insertedWindowDims := [0]
  scatterDimsToOperandDims := [0]
  indexVectorDim := 1
  wf := scatter_S30000x256_S480000x1_S480000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v65) S1x2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v66) S1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v67) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v68) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v102) S1x2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v103) S1x256x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v104) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v105) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S30000x128 : Shape := ⟨2, ![30000, 128]⟩
abbrev S2x480000 : Shape := ⟨2, ![2, 480000]⟩
abbrev S3x128x256 : Shape := ⟨3, ![3, 128, 256]⟩
abbrev S256 : Shape := ⟨1, ![256]⟩
abbrev S3x256x128 : Shape := ⟨3, ![3, 256, 128]⟩
abbrev S128 : Shape := ⟨1, ![128]⟩
abbrev S1x480000 : Shape := ⟨2, ![1, 480000]⟩
abbrev S480000 : Shape := ⟨1, ![480000]⟩
abbrev S_ : Shape := ⟨0, ![]⟩
abbrev S30000 : Shape := ⟨1, ![30000]⟩
abbrev S480000x1 : Shape := ⟨2, ![480000, 1]⟩
abbrev S1x128x256 : Shape := ⟨3, ![1, 128, 256]⟩
abbrev S128x256 : Shape := ⟨2, ![128, 256]⟩
abbrev S30000x256 : Shape := ⟨2, ![30000, 256]⟩
abbrev S480000x128 : Shape := ⟨2, ![480000, 128]⟩
abbrev S1x256 : Shape := ⟨2, ![1, 256]⟩
abbrev S1x256x128 : Shape := ⟨3, ![1, 256, 128]⟩
abbrev S256x128 : Shape := ⟨2, ![256, 128]⟩
abbrev S480000x256 : Shape := ⟨2, ![480000, 256]⟩
abbrev S1x128 : Shape := ⟨2, ![1, 128]⟩

abbrev nBuf : Space → Nat
  | .hbm => 158
  | .vmem => 0
  | .smem => 0
  | _ => 0

abbrev hbmTy0_0 (i : Nat) : BufTy := match i % 128 with
  | 0 => ⟨S30000x128, .f32⟩
  | 1 => ⟨S2x480000, .i32⟩
  | 2 => ⟨S3x128x256, .f32⟩
  | 3 => ⟨S256, .f32⟩
  | 4 => ⟨S3x256x128, .f32⟩
  | 5 => ⟨S128, .f32⟩
  | 6 => ⟨S1x480000, .i32⟩
  | 7 => ⟨S480000, .i32⟩
  | 8 => ⟨S1x480000, .i32⟩
  | 9 => ⟨S480000, .i32⟩
  | 10 => ⟨S480000, .i1⟩
  | 11 => ⟨S_, .f32⟩
  | 12 => ⟨S_, .f32⟩
  | 13 => ⟨S480000, .f32⟩
  | 14 => ⟨S480000, .f32⟩
  | 15 => ⟨S480000, .f32⟩
  | 16 => ⟨S_, .f32⟩
  | 17 => ⟨S30000, .f32⟩
  | 18 => ⟨S480000x1, .i32⟩
  | 19 => ⟨S480000, .f32⟩
  | 20 => ⟨S30000, .f32⟩
  | 21 => ⟨S_, .f32⟩
  | 22 => ⟨S30000, .f32⟩
  | 23 => ⟨S30000, .i1⟩
  | 24 => ⟨S_, .f32⟩
  | 25 => ⟨S30000, .f32⟩
  | 26 => ⟨S30000, .f32⟩
  | 27 => ⟨S_, .f32⟩
  | 28 => ⟨S_, .f32⟩
  | 29 => ⟨S30000, .f32⟩
  | 30 => ⟨S30000, .f32⟩
  | 31 => ⟨S_, .i32⟩
  | 32 => ⟨S480000, .i32⟩
  | 33 => ⟨S480000, .i1⟩
  | 34 => ⟨S_, .i32⟩
  | 35 => ⟨S480000, .i32⟩
  | 36 => ⟨S480000, .i32⟩
  | 37 => ⟨S480000, .i32⟩
  | 38 => ⟨S480000x1, .i32⟩
  | 39 => ⟨S480000, .f32⟩
  | 40 => ⟨S480000, .f32⟩
  | 41 => ⟨S_, .i32⟩
  | 42 => ⟨S480000, .i32⟩
  | 43 => ⟨S480000, .i1⟩
  | 44 => ⟨S_, .i32⟩
  | 45 => ⟨S480000, .i32⟩
  | 46 => ⟨S480000, .i32⟩
  | 47 => ⟨S480000, .i32⟩
  | 48 => ⟨S480000x1, .i32⟩
  | 49 => ⟨S480000, .f32⟩
  | 50 => ⟨S480000, .f32⟩
  | 51 => ⟨S_, .f32⟩
  | 52 => ⟨S_, .f32⟩
  | 53 => ⟨S480000, .f32⟩
  | 54 => ⟨S480000, .f32⟩
  | 55 => ⟨S1x128x256, .f32⟩
  | 56 => ⟨S128x256, .f32⟩
  | 57 => ⟨S30000x256, .f32⟩
  | 58 => ⟨S480000x1, .f32⟩
  | 59 => ⟨S_, .i32⟩
  | 60 => ⟨S480000, .i32⟩
  | 61 => ⟨S480000, .i1⟩
  | 62 => ⟨S_, .i32⟩
  | 63 => ⟨S480000, .i32⟩
  | 64 => ⟨S480000, .i32⟩
  | 65 => ⟨S480000, .i32⟩
  | 66 => ⟨S480000x1, .i32⟩
  | 67 => ⟨S480000x128, .f32⟩
  | 68 => ⟨S480000x128, .f32⟩
  | 69 => ⟨S480000x128, .f32⟩
  | 70 => ⟨S_, .f32⟩
  | 71 => ⟨S30000x128, .f32⟩
  | 72 => ⟨S480000x1, .i32⟩
  | 73 => ⟨S30000x128, .f32⟩
  | 74 => ⟨S1x128x256, .f32⟩
  | 75 => ⟨S128x256, .f32⟩
  | 76 => ⟨S30000x256, .f32⟩
  | 77 => ⟨S30000x256, .f32⟩
  | 78 => ⟨S480000x1, .f32⟩
  | 79 => ⟨S_, .i32⟩
  | 80 => ⟨S480000, .i32⟩
  | 81 => ⟨S480000, .i1⟩
  | 82 => ⟨S_, .i32⟩
  | 83 => ⟨S480000, .i32⟩
  | 84 => ⟨S480000, .i32⟩
  | 85 => ⟨S480000, .i32⟩
  | 86 => ⟨S480000x1, .i32⟩
  | 87 => ⟨S480000x128, .f32⟩
  | 88 => ⟨S480000x128, .f32⟩
  | 89 => ⟨S480000x128, .f32⟩
  | 90 => ⟨S_, .f32⟩
  | 91 => ⟨S30000x128, .f32⟩
  | 92 => ⟨S480000x1, .i32⟩
  | 93 => ⟨S30000x128, .f32⟩
  | 94 => ⟨S_, .f32⟩
  | 95 => ⟨S30000x128, .f32⟩
  | 96 => ⟨S30000x128, .f32⟩
  | 97 => ⟨S30000x128, .f32⟩
  | 98 => ⟨S1x128x256, .f32⟩
  | 99 => ⟨S128x256, .f32⟩
  | 100 => ⟨S30000x256, .f32⟩
  | 101 => ⟨S30000x256, .f32⟩
  | 102 => ⟨S1x256, .f32⟩
  | 103 => ⟨S30000x256, .f32⟩
  | 104 => ⟨S30000x256, .f32⟩
  | 105 => ⟨S_, .f32⟩
  | 106 => ⟨S30000x256, .f32⟩
  | 107 => ⟨S30000x256, .f32⟩
  | 108 => ⟨S1x256x128, .f32⟩
  | 109 => ⟨S256x128, .f32⟩
  | 110 => ⟨S30000x128, .f32⟩
  | 111 => ⟨S480000x1, .f32⟩
  | 112 => ⟨S_, .i32⟩
  | 113 => ⟨S480000, .i32⟩
  | 114 => ⟨S480000, .i1⟩
  | 115 => ⟨S_, .i32⟩
  | 116 => ⟨S480000, .i32⟩
  | 117 => ⟨S480000, .i32⟩
  | 118 => ⟨S480000, .i32⟩
  | 119 => ⟨S480000x1, .i32⟩
  | 120 => ⟨S480000x256, .f32⟩
  | 121 => ⟨S480000x256, .f32⟩
  | 122 => ⟨S480000x256, .f32⟩
  | 123 => ⟨S_, .f32⟩
  | 124 => ⟨S30000x256, .f32⟩
  | 125 => ⟨S480000x1, .i32⟩
  | 126 => ⟨S30000x256, .f32⟩
  | 127 => ⟨S1x256x128, .f32⟩
  | _ => ⟨S30000x128, .f32⟩

abbrev hbmTy0_1 (i : Nat) : BufTy := match i % 128 with
  | 0 => ⟨S256x128, .f32⟩
  | 1 => ⟨S30000x128, .f32⟩
  | 2 => ⟨S30000x128, .f32⟩
  | 3 => ⟨S480000x1, .f32⟩
  | 4 => ⟨S_, .i32⟩
  | 5 => ⟨S480000, .i32⟩
  | 6 => ⟨S480000, .i1⟩
  | 7 => ⟨S_, .i32⟩
  | 8 => ⟨S480000, .i32⟩
  | 9 => ⟨S480000, .i32⟩
  | 10 => ⟨S480000, .i32⟩
  | 11 => ⟨S480000x1, .i32⟩
  | 12 => ⟨S480000x256, .f32⟩
  | 13 => ⟨S480000x256, .f32⟩
  | 14 => ⟨S480000x256, .f32⟩
  | 15 => ⟨S_, .f32⟩
  | 16 => ⟨S30000x256, .f32⟩
  | 17 => ⟨S480000x1, .i32⟩
  | 18 => ⟨S30000x256, .f32⟩
  | 19 => ⟨S_, .f32⟩
  | 20 => ⟨S30000x256, .f32⟩
  | 21 => ⟨S30000x256, .f32⟩
  | 22 => ⟨S30000x256, .f32⟩
  | 23 => ⟨S1x256x128, .f32⟩
  | 24 => ⟨S256x128, .f32⟩
  | 25 => ⟨S30000x128, .f32⟩
  | 26 => ⟨S30000x128, .f32⟩
  | 27 => ⟨S1x128, .f32⟩
  | 28 => ⟨S30000x128, .f32⟩
  | 29 => ⟨S30000x128, .f32⟩
  | _ => ⟨S30000x128, .f32⟩

abbrev hbmTy (i : Nat) : BufTy := match i / 128 with
  | 0 => hbmTy0_0 i
  | 1 => hbmTy0_1 i
  | _ => ⟨S30000x128, .f32⟩

abbrev bufTy : (tb : Table) → Fin (tcTables nBuf tb) → BufTy
  | .hbm, ⟨i, _⟩ => hbmTy i
  | _, _ => ⟨S30000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_c_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_call2_v0 : Ref sig .tc := ⟨.hbm, 52, rfl⟩
abbrev main_call2_v1 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_11 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_12 : Ref sig .tc := ⟨.hbm, 79, rfl⟩
abbrev main_v53 : Ref sig .tc := ⟨.hbm, 80, rfl⟩
abbrev main_v54 : Ref sig .tc := ⟨.hbm, 81, rfl⟩
abbrev main_c_13 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_15 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_call3_cst : Ref sig .tc := ⟨.hbm, 105, rfl⟩
abbrev main_call3_v0 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_16 : Ref sig .tc := ⟨.hbm, 112, rfl⟩
abbrev main_v80 : Ref sig .tc := ⟨.hbm, 113, rfl⟩
abbrev main_v81 : Ref sig .tc := ⟨.hbm, 114, rfl⟩
abbrev main_c_17 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_18 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_c_19 : Ref sig .tc := ⟨.hbm, 132, rfl⟩
abbrev main_v97 : Ref sig .tc := ⟨.hbm, 133, rfl⟩
abbrev main_v98 : Ref sig .tc := ⟨.hbm, 134, rfl⟩
abbrev main_c_20 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_21 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_22 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩

abbrev nD : Nat := 1
abbrev τ : Topo := Topo.v7x

variable {F : FTy → Type} [FloatOps F]

class Facts₀ : Prop where
  slices_S2x480000_S1x480000_0_0 : S2x480000.Slices ![0, 0] S1x480000
  shapeCasts_S1x480000_S480000 : S1x480000.ShapeCasts S480000
  slices_S2x480000_S1x480000_1_0 : S2x480000.Slices ![1, 0] S1x480000
  bcast_S_S480000 : S_.BroadcastsInDim S480000 (![] : Fin 0 → Fin S480000.rank)
  bcast_S_S30000 : S_.BroadcastsInDim S30000 (![] : Fin 0 → Fin S30000.rank)
  bcast_S480000_S480000x1_0 : S480000.BroadcastsInDim S480000x1 (![0] : Fin 1 → Fin S480000x1.rank)
  slices_S3x128x256_S1x128x256_0_0_0 : S3x128x256.Slices ![0, 0, 0] S1x128x256
  shapeCasts_S1x128x256_S128x256 : S1x128x256.ShapeCasts S128x256
  bcast_S480000x1_S480000x128_0_1 : S480000x1.BroadcastsInDim S480000x128 (![0, 1] : Fin 2 → Fin S480000x128.rank)
  bcast_S_S30000x128 : S_.BroadcastsInDim S30000x128 (![] : Fin 0 → Fin S30000x128.rank)
  slices_S3x128x256_S1x128x256_1_0_0 : S3x128x256.Slices ![1, 0, 0] S1x128x256
  slices_S3x128x256_S1x128x256_2_0_0 : S3x128x256.Slices ![2, 0, 0] S1x128x256
  bcast_S256_S1x256_1 : S256.BroadcastsInDim S1x256 (![1] : Fin 1 → Fin S1x256.rank)
  bcast_S1x256_S30000x256_0_1 : S1x256.BroadcastsInDim S30000x256 (![0, 1] : Fin 2 → Fin S30000x256.rank)
  bcast_S_S30000x256 : S_.BroadcastsInDim S30000x256 (![] : Fin 0 → Fin S30000x256.rank)
  slices_S3x256x128_S1x256x128_0_0_0 : S3x256x128.Slices ![0, 0, 0] S1x256x128
  shapeCasts_S1x256x128_S256x128 : S1x256x128.ShapeCasts S256x128
  bcast_S480000x1_S480000x256_0_1 : S480000x1.BroadcastsInDim S480000x256 (![0, 1] : Fin 2 → Fin S480000x256.rank)
  slices_S3x256x128_S1x256x128_1_0_0 : S3x256x128.Slices ![1, 0, 0] S1x256x128
  slices_S3x256x128_S1x256x128_2_0_0 : S3x256x128.Slices ![2, 0, 0] S1x256x128
  bcast_S128_S1x128_1 : S128.BroadcastsInDim S1x128 (![1] : Fin 1 → Fin S1x128.rank)
  bcast_S1x128_S30000x128_0_1 : S1x128.BroadcastsInDim S30000x128 (![0, 1] : Fin 2 → Fin S30000x128.rank)
  scatter_S30000_S480000x1_S480000_n_0_0_1_wf : ScatterDims.WF S30000 S480000x1 S480000 [] [0] [0] 1
  gather_S30000_S480000x1_S480000_n_0_n_n_0_1_1_wf : GatherDims.WF S30000 S480000x1 S480000 [] [0] [] [0] [] 1 ![1]
  dot_S30000x128_S128x256_S30000x256_1_0_0_1_n_n_wf : DotDims.WF S30000x128 S128x256 S30000x256 [1] [0] [0] [1] [] []
  gather_S30000x128_S480000x1_S480000x128_1_0_n_n_0_1_1128_wf : GatherDims.WF S30000x128 S480000x1 S480000x128 [1] [0] [] [0] [] 1 ![1, 128]
  scatter_S30000x128_S480000x1_S480000x128_1_0_0_1_wf : ScatterDims.WF S30000x128 S480000x1 S480000x128 [1] [0] [0] 1
  dot_S30000x256_S256x128_S30000x128_1_0_0_1_n_n_wf : DotDims.WF S30000x256 S256x128 S30000x128 [1] [0] [0] [1] [] []
  gather_S30000x256_S480000x1_S480000x256_1_0_n_n_0_1_1256_wf : GatherDims.WF S30000x256 S480000x1 S480000x256 [1] [0] [] [0] [] 1 ![1, 256]
  scatter_S30000x256_S480000x1_S480000x256_1_0_0_1_wf : ScatterDims.WF S30000x256 S480000x1 S480000x256 [1] [0] [0] 1

variable [Facts₀]

def scatter_S30000_S480000x1_S480000_n_0_0_1 : ScatterDims S30000 S480000x1 S480000 where
  updateWindowDims := []
  insertedWindowDims := [0]
  scatterDimsToOperandDims := [0]
  indexVectorDim := 1
  wf := scatter_S30000_S480000x1_S480000_n_0_0_1_wf
def gather_S30000_S480000x1_S480000_n_0_n_n_0_1_1 : GatherDims S30000 S480000x1 S480000 where
  offsetDims := []
  collapsedSliceDims := [0]
  operandBatchingDims := []
  startIndicesBatchingDims := []
  startIndexMap := [0]
  indexVectorDim := 1
  sliceSizes := ![1]
  wf := gather_S30000_S480000x1_S480000_n_0_n_n_0_1_1_wf
def dot_S30000x128_S128x256_S30000x256_1_0_0_1_n_n : DotDims S30000x128 S128x256 S30000x256 where
  lhsContracting := [1]
  rhsContracting := [0]
  lhsNonContracting := [0]
  rhsNonContracting := [1]
  lhsBatch := []
  rhsBatch := []
  wf := dot_S30000x128_S128x256_S30000x256_1_0_0_1_n_n_wf
def gather_S30000x128_S480000x1_S480000x128_1_0_n_n_0_1_1128 : GatherDims S30000x128 S480000x1 S480000x128 where
  offsetDims := [1]
  collapsedSliceDims := [0]
  operandBatchingDims := []
  startIndicesBatchingDims := []
  startIndexMap := [0]
  indexVectorDim := 1
  sliceSizes := ![1, 128]
  wf := gather_S30000x128_S480000x1_S480000x128_1_0_n_n_0_1_1128_wf
def scatter_S30000x128_S480000x1_S480000x128_1_0_0_1 : ScatterDims S30000x128 S480000x1 S480000x128 where
  updateWindowDims := [1]
  insertedWindowDims := [0]
  scatterDimsToOperandDims := [0]
  indexVectorDim := 1
  wf := scatter_S30000x128_S480000x1_S480000x128_1_0_0_1_wf
def dot_S30000x256_S256x128_S30000x128_1_0_0_1_n_n : DotDims S30000x256 S256x128 S30000x128 where
  lhsContracting := [1]
  rhsContracting := [0]
  lhsNonContracting := [0]
  rhsNonContracting := [1]
  lhsBatch := []
  rhsBatch := []
  wf := dot_S30000x256_S256x128_S30000x128_1_0_0_1_n_n_wf
def gather_S30000x256_S480000x1_S480000x256_1_0_n_n_0_1_1256 : GatherDims S30000x256 S480000x1 S480000x256 where
  offsetDims := [1]
  collapsedSliceDims := [0]
  operandBatchingDims := []
  startIndicesBatchingDims := []
  startIndexMap := [0]
  indexVectorDim := 1
  sliceSizes := ![1, 256]
  wf := gather_S30000x256_S480000x1_S480000x256_1_0_n_n_0_1_1256_wf
def scatter_S30000x256_S480000x1_S480000x256_1_0_0_1 : ScatterDims S30000x256 S480000x1 S480000x256 where
  updateWindowDims := [1]
  insertedWindowDims := [0]
  scatterDimsToOperandDims := [0]
  indexVectorDim := 1
  wf := scatter_S30000x256_S480000x1_S480000x256_1_0_0_1_wf

class Facts : Prop extends Facts₀ where

variable [Facts]
-- ==== Proof.K.Body0A.lean ====
import proofs.«147161_j55284819034171_1_alg».proof.Proof.Gen.Kernel.Launch
import proofs.«147161_j55284819034171_1_alg».proof.Proof.Gen.Kernel.Skeleton
import proofs.«147161_j55284819034171_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, in closed form over the grid -/

/-- The first `scf.if`'s condition (the tile's first point: the inner coordinate is zero), from the grid coordinates. -/
abbrev condz0 (i : grid0.Coords) : Prop :=
  (Scalar.cmpi .ne (Scalar.extui (Scalar.cmpi .eq (BitVec.ofNat 32 (i 1).val) 0#32)) 0#32) = 1#1

/-- It holds exactly at the points whose position is a multiple of three. -/
theorem hcondz0 : ∀ t : Fin cfg0.N, condz0 (grid0.coords t) ↔ t.val % 3 = 0 :=
  (by decide +kernel : ∀ t : Fin grid0.N, condz0 (grid0.coords t) ↔ t.val % 3 = 0)

/-- The second `scf.if`'s condition (the tile's last point: the inner coordinate is two). -/
abbrev condl0 (i : grid0.Coords) : Prop := k0_cond2 i = 1#1

/-- It holds exactly at the points whose position is two modulo three. -/
theorem hcondl0 : ∀ t : Fin cfg0.N, condl0 (grid0.coords t) ↔ t.val % 3 = 2 :=
  (by decide +kernel : ∀ t : Fin grid0.N, condl0 (grid0.coords t) ↔ t.val % 3 = 2)

/-- Zero offsets, however spelt. -/
theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The body at a tile's first point -/

set_option maxHeartbeats 1000000 in
/-- On whole memrefs, the three inputs at `x0 x1 x2`, the output at `xo`, the accumulator at anything: at a point
    where the first condition holds and the second does not, the body zeroes the accumulator, adds the product of
    the two blocks, and leaves everything else as it was. -/
theorem run0_A (c : Dev nD) (E : Set ℕ) (i : grid0.Coords) (arg2 : Memref sig .tc .vmem S1x2000x128 .bf16) (harg2 : arg2.IsWhole) (arg3 : Memref sig .tc .vmem S1x128x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S2000x256 .f32) (harg6 : arg6.IsWhole)
    (hz : condz0 i) (hl : ¬ condl0 i)
    (x0 : Vec F S1x2000x128 .bf16) (x1 : Vec F S1x128x256 .bf16) (x2 : Vec F S1x256 .f32) (xo : Vec F S2000x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (k0_pay2 (k0_pay1 (F := F)) x0 x1)) -∗ K ⟨⟩))
      ⊢ wp frame (wpE (defs₀ (F := F)) Variants.none c none) E (cc0__cheb_linear_kernel i arg2 harg2 arg3 harg3 arg4 harg4 arg5 harg5 arg6 harg6) K := by
  simp only [cc0__cheb_linear_kernel_eq_skeleton]; unfold cc0__cheb_linear_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hz | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (fun y => ⟨_, List.mem_cons.mpr (Or.inl rfl), View.mem_set_unit_zero zeros2 inb_S2000x256_S2000x256_0_0 y⟩)]
  rw [View.canon_cons_unit_zero zeros2]
  sl_unfold_words
  rw [View.readCov_unit_zero _ zeros2]
  simp only [View.readAt_eq_ld, View.ld_unit_zero (S := S1x2000x128) zeros3, View.ld_unit_zero (S := S1x128x256) zeros3]

end Cert.Kernel.Hand

end
-- ==== Proof.K.Body0B.lean ====
import proofs.«147161_j55284819034171_1_alg».proof.Proof.K.Body0A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at a tile's middle point -/

set_option maxHeartbeats 1000000 in
/-- On whole memrefs, the three inputs at `x0 x1 x2`, the output at `xo`, the accumulator at `xs`: at a point
    where neither condition holds, the body adds the product of the two blocks to the accumulator and leaves
    everything else as it was. -/
theorem run0_B (c : Dev nD) (E : Set ℕ) (i : grid0.Coords) (arg2 : Memref sig .tc .vmem S1x2000x128 .bf16) (harg2 : arg2.IsWhole) (arg3 : Memref sig .tc .vmem S1x128x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S2000x256 .f32) (harg6 : arg6.IsWhole)
    (hz : ¬ condz0 i) (hl : ¬ condl0 i)
    (x0 : Vec F S1x2000x128 .bf16) (x1 : Vec F S1x128x256 .bf16) (x2 : Vec F S1x256 .f32) (xo : Vec F S2000x256 .f32) (xs : Vec F S2000x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (k0_pay2 xs x0 x1)) -∗ K ⟨⟩))
      ⊢ wp frame (wpE (defs₀ (F := F)) Variants.none c none) E (cc0__cheb_linear_kernel i arg2 harg2 arg3 harg3 arg4 harg4 arg5 harg5 arg6 harg6) K := by
  simp only [cc0__cheb_linear_kernel_eq_skeleton]; unfold cc0__cheb_linear_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hz | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (fun y => ⟨_, List.mem_cons.mpr (Or.inl rfl), View.mem_set_unit_zero zeros2 inb_S2000x256_S2000x256_0_0 y⟩)]
  rw [View.canon_cons_unit_zero zeros2]
  sl_unfold_words
  simp only [View.readAt_eq_ld, View.ld_unit_zero (S := S2000x256) zeros2, View.ld_unit_zero (S := S1x2000x128) zeros3, View.ld_unit_zero (S := S1x128x256) zeros3]

end Cert.Kernel.Hand

end
-- ==== Proof.K.Body0C.lean ====
import proofs.«147161_j55284819034171_1_alg».proof.Proof.K.Body0B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at a tile's last point -/

set_option maxHeartbeats 1000000 in
/-- On whole memrefs, the three inputs at `x0 x1 x2`, the output at anything, the accumulator at `xs`: at a point
    where the first condition fails and the second holds, the body adds the product of the two blocks to the
    accumulator, then stores into the output the accumulator plus the bias row, clamped below at zero. -/
theorem run0_C (c : Dev nD) (E : Set ℕ) (i : grid0.Coords) (arg2 : Memref sig .tc .vmem S1x2000x128 .bf16) (harg2 : arg2.IsWhole) (arg3 : Memref sig .tc .vmem S1x128x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S2000x256 .f32) (harg6 : arg6.IsWhole)
    (hz : ¬ condz0 i) (hl : condl0 i)
    (x0 : Vec F S1x2000x128 .bf16) (x1 : Vec F S1x128x256 .bf16) (x2 : Vec F S1x256 .f32) (xs : Vec F S2000x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 xs x0 x1) x2) ∗ owns (c : Thread nD τ) arg6 fullShare (k0_pay2 xs x0 x1)) -∗ K ⟨⟩))
      ⊢ wp frame (wpE (defs₀ (F := F)) Variants.none c none) E (cc0__cheb_linear_kernel i arg2 harg2 arg3 harg3 arg4 harg4 arg5 harg5 arg6 harg6) K := by
  simp only [cc0__cheb_linear_kernel_eq_skeleton]; unfold cc0__cheb_linear_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hz | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.mem_cons.mpr (Or.inl rfl), View.mem_set_unit_zero zeros2 inb_S2000x256_S2000x256_0_0 y⟩)]
    rw [View.canon_cons_unit_zero zeros2]
    rw [View.readCov_unit_zero _ zeros2]
    simp only [View.readAt_eq_ld, View.ld_unit_zero (S := S2000x256) zeros2, View.ld_unit_zero (S := S1x256) zeros2, View.ld_unit_zero (S := S1x2000x128) zeros3, View.ld_unit_zero (S := S1x128x256) zeros3]
  iexists _; isplitr
  swap; · iexact HS
  ipureintro
  sl_unfold_words
  rw [View.read_writes_eq_canon _ _ _ (fun y => ⟨_, List.mem_cons.mpr (Or.inl rfl), View.mem_set_unit_zero zeros2 inb_S2000x256_S2000x256_0_0 y⟩)]
  rw [View.canon_cons_unit_zero zeros2]
  simp only [View.readAt_eq_ld, View.ld_unit_zero (S := S2000x256) zeros2, View.ld_unit_zero (S := S1x2000x128) zeros3, View.ld_unit_zero (S := S1x128x256) zeros3]

end Cert.Kernel.Hand

end
-- ==== Proof.K.Body0.lean ====
import proofs.«147161_j55284819034171_1_alg».proof.Proof.K.Body0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks, the accumulation, the proof data -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the scratch accumulator holds after the body at point `n`: the running sum of the tile's products,
    started afresh from zero at each tile's first point. -/
def acc0 (c : Dev nD) : (n : ℕ) → n < cfg0.N → Vec F S2000x256 .f32
  | 0, hn => k0_pay2 (k0_pay1 (F := F)) (blk0 V c 0 ⟨0, hn⟩) (blk0 V c 1 ⟨0, hn⟩)
  | n + 1, hn =>
    if (n + 1) % 3 = 0 then k0_pay2 (k0_pay1 (F := F)) (blk0 V c 0 ⟨n + 1, hn⟩) (blk0 V c 1 ⟨n + 1, hn⟩)
    else k0_pay2 (acc0 c n (Nat.lt_of_succ_lt hn)) (blk0 V c 0 ⟨n + 1, hn⟩) (blk0 V c 1 ⟨n + 1, hn⟩)

/-- At a tile's first point the sum starts from zero. -/
theorem acc0_reset (c : Dev nD) (t : Fin cfg0.N) (h : t.val % 3 = 0) :
    acc0 V c t.val t.isLt = k0_pay2 (k0_pay1 (F := F)) (blk0 V c 0 t) (blk0 V c 1 t) := by
  obtain ⟨n, hn⟩ := t
  cases n with
  | zero => rfl
  | succ n => exact (if_pos h).trans rfl

/-- At any other point it continues from what the point before left. -/
theorem acc0_step (c : Dev nD) (t : Fin cfg0.N) (h : ¬ t.val % 3 = 0) :
    acc0 V c t.val t.isLt = k0_pay2 (acc0 V c (t.val - 1) (Nat.lt_of_le_of_lt (Nat.sub_le _ _) t.isLt)) (blk0 V c 0 t) (blk0 V c 1 t) := by
  obtain ⟨n, hn⟩ := t
  cases n with
  | zero => exact absurd (Nat.zero_mod _) h
  | succ n => exact (if_neg h).trans rfl

/-- The output buffer after the body at a point where it is stored (the tile's last point): the accumulated sum
    plus the bias row, clamped below at zero; a placeholder elsewhere (the window is idle there and never consulted). -/
def out0 (c : Dev nD) (t : Fin cfg0.N) : Vec F S2000x256 .f32 := k0_pay3 (acc0 V c t.val t.isLt) (blk0 V c 2 t)

/-- A scoped buffer of the core, whole, at some contents. -/
abbrev anyBuf0 (c : Dev nD) (b : Ref sig .tc) : sProp 𝕄 :=
  iprop(∃ f : Buf (Elt F) ((c : Thread nD τ).loc b), ((c : Thread nD τ).loc b) ↦{fullShare} f)

/-- The region invariant before position `n`: before the first point what the launch hands the region; afterwards
    the accumulator at the sum the point before left, the core's other scoped buffers that are no staging buffer
    of this region at anything, and the generator register at some state. -/
def Phi0 (c : Dev nD) : (n : ℕ) → n ≤ cfg0.N → sProp 𝕄
  | 0, _ => Pipeline.ΦA spec0 c
  | n + 1, hn => iprop(iprop(owns (c : Thread nD τ) (Memref.whole cc0_scratch0) fullShare (acc0 V c n hn) ∗ anyBuf0 (F := F) c cc1_stg0_0 ∗ anyBuf0 (F := F) c cc1_stg0_1 ∗ anyBuf0 (F := F) c cc1_stg1_0 ∗ anyBuf0 (F := F) c cc1_stg1_1 ∗ anyBuf0 (F := F) c cc1_stg2_0 ∗ anyBuf0 (F := F) c cc1_stg3_0 ∗ anyBuf0 (F := F) c cc1_stg3_1 ∗ anyBuf0 (F := F) c cc1_scratch0) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) (Memref.whole cc0_scratch0) fullShare (acc0 V c n hn) ∗ anyBuf0 (F := F) c cc1_stg0_0 ∗ anyBuf0 (F := F) c cc1_stg0_1 ∗ anyBuf0 (F := F) c cc1_stg1_0 ∗ anyBuf0 (F := F) c cc1_stg1_1 ∗ anyBuf0 (F := F) c cc1_stg2_0 ∗ anyBuf0 (F := F) c cc1_stg3_0 ∗ anyBuf0 (F := F) c cc1_stg3_1 ∗ anyBuf0 (F := F) c cc1_scratch0) ∗ (∃ r, prngReg c r)) := rfl

theorem Phi0_pos (c : Dev nD) (n : ℕ) (h : n ≤ cfg0.N) (hz : n ≠ 0) :
    Phi0 V c n h = iprop(iprop(owns (c : Thread nD τ) (Memref.whole cc0_scratch0) fullShare (acc0 V c (n - 1) (by omega)) ∗ anyBuf0 (F := F) c cc1_stg0_0 ∗ anyBuf0 (F := F) c cc1_stg0_1 ∗ anyBuf0 (F := F) c cc1_stg1_0 ∗ anyBuf0 (F := F) c cc1_stg1_1 ∗ anyBuf0 (F := F) c cc1_stg2_0 ∗ anyBuf0 (F := F) c cc1_stg3_0 ∗ anyBuf0 (F := F) c cc1_stg3_1 ∗ anyBuf0 (F := F) c cc1_scratch0) ∗ (∃ r, prngReg c r)) := by
  cases n with
  | zero => exact absurd rfl hz
  | succ n => rfl

/-- What the launch hands the region, with the accumulator as a memref owned at some contents. -/
theorem PhiA0_eq (c : Dev nD) :
    (Pipeline.ΦA spec0 c : sProp 𝕄)
      = iprop(iprop((∃ d, owns (c : Thread nD τ) (Memref.whole cc0_scratch0) fullShare d) ∗ anyBuf0 (F := F) c cc1_stg0_0 ∗ anyBuf0 (F := F) c cc1_stg0_1 ∗ anyBuf0 (F := F) c cc1_stg1_0 ∗ anyBuf0 (F := F) c cc1_stg1_1 ∗ anyBuf0 (F := F) c cc1_stg2_0 ∗ anyBuf0 (F := F) c cc1_stg3_0 ∗ anyBuf0 (F := F) c cc1_stg3_1 ∗ anyBuf0 (F := F) c cc1_scratch0) ∗ (∃ r, prngReg c r)) := by
  unfold Pipeline.ΦA; rw [scopedRest0_eq]; simp only [owns_whole]; try rfl

/-- The proof data of the region on core `c`: the arrays as the region finds them; after the body at a point each
    input's buffer at its block and the output's at `out0`; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => out0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = out0 V c t := by dsimp only [dat0]

/-- The invariant at a point's start, restated at the point's position. -/
theorem Phi0_castSucc (c : Dev nD) (t : Fin cfg0.N) :
    (dat0 V c).Φ t.castSucc = Phi0 V c t.val (Nat.le_of_lt t.isLt) := by
  dsimp only [dat0]; simp only [Fin.coe_castSucc]

/-! ## The input windows' buffers: each holds its block at every point, fetched there or not -/

theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [A_eq0]; try rfl) t d).trans
    (by unfold Dat.fetched Dat.blockOf blk0; rw [A_eq0]; try rfl)

theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [A_eq0]; try rfl) t d).trans
    (by unfold Dat.fetched Dat.blockOf blk0; rw [A_eq0]; try rfl)

theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [A_eq0]; try rfl) t d).trans
    (by unfold Dat.fetched Dat.blockOf blk0; rw [A_eq0]; try rfl)

/-! ## Where the output window is idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- The output window is idle except at a tile's last point, -/
theorem idleAt0_3 : ∀ t : Fin cfg0.N, ¬ t.val % 3 = 2 → cfg0.idle 3 (grid0.coords t) = true := by decide +kernel
theorem liveAt0_3 : ∀ t : Fin cfg0.N, t.val % 3 = 2 → cfg0.idle 3 (grid0.coords t) = false := by decide +kernel
/-- and is written back only there. -/
theorem noFlush0_3 (t : Fin cfg0.N) (h : ¬ t.val % 3 = 2) : (cfg0.win 3).flush t = false :=
  Bool.eq_false_iff.mpr fun hf => h ((flush0_3 t).mp hf)

/-! ## The body obligation, at a generic point -/

/-- Each window's current staging memref at point `t`, spelled as the pipeline passes it. -/
abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point: the inputs' memrefs hold their blocks; the position modulo three says which of the three
    control cases the point is in; the invariant hands the body the accumulator at what the point before left (at
    anything at a tile's first point) and takes it back at this point's sum; at a tile's last point the output's
    buffer is left at `out0`, elsewhere it is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 3 = 0
  · have h2 : ¬ t.val % 3 = 2 := by omega
    rw [Dat.leavesExact_idle (dat0 V c) 3 t (idleAt0_3 t h2) (noFlush0_3 t h2)]
    rw [acc0_reset V c t h0]
    by_cases hz : t.val = 0
    · rw [Phi0_castSucc V c t, Phi0_zero V c _ _ hz, PhiA0_eq]
      iintro ⟨⟨⟨HS, HR⟩, Hg⟩, Ho, ⟨%d0, H0⟩, ⟨%d1, H1⟩, ⟨%d2, H2⟩, ⟨%d3, H3⟩⟩
      iapply (run0_A c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) ((hcondz0 t).mpr h0) (fun h => h2 ((hcondl0 t).mp h)) (blk0 V c 0 t) (blk0 V c 1 t) (blk0 V c 2 t) ((dat0 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]
          · iexact HS
          iexact HR
        iexact Hg
      isplitl [Ho]; · iexact Ho
      isplitl [H0]; · iexact H0
      isplitl [H1]; · iexact H1
      isplitl [H2]; · iexact H2
      iexists d3; iexact H3
    · rw [Phi0_castSucc V c t, Phi0_pos V c _ _ hz]
      iintro ⟨⟨⟨HS, HR⟩, Hg⟩, Ho, ⟨%d0, H0⟩, ⟨%d1, H1⟩, ⟨%d2, H2⟩, ⟨%d3, H3⟩⟩
      iapply (run0_A c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) ((hcondz0 t).mpr h0) (fun h => h2 ((hcondl0 t).mp h)) (blk0 V c 0 t) (blk0 V c 1 t) (blk0 V c 2 t) ((dat0 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]
          · iexact HS
          iexact HR
        iexact Hg
      isplitl [Ho]; · iexact Ho
      isplitl [H0]; · iexact H0
      isplitl [H1]; · iexact H1
      isplitl [H2]; · iexact H2
      iexists d3; iexact H3
  · have hz : t.val ≠ 0 := fun e => h0 (by rw [e])
    by_cases h2 : t.val % 3 = 2
    · rw [show (dat0 V c).leavesExact 3 t = owns (c : Thread nD τ) (ms0_3 t) fullShare ((dat0 V c).after 3 t) from by
        unfold Dat.leavesExact; rw [liveAt0_3 t h2], after0_3]
      unfold out0
      rw [acc0_step V c t h0]
      rw [Phi0_castSucc V c t, Phi0_pos V c _ _ hz]
      iintro ⟨⟨⟨HS, HR⟩, Hg⟩, Ho, ⟨%d0, H0⟩, ⟨%d1, H1⟩, ⟨%d2, H2⟩, ⟨%d3, H3⟩⟩
      iapply (run0_C c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (fun h => h0 ((hcondz0 t).mp h)) ((hcondl0 t).mpr h2) (blk0 V c 0 t) (blk0 V c 1 t) (blk0 V c 2 t) (acc0 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]
          · iexact HS
          iexact HR
        iexact Hg
      isplitl [Ho]; · iexact Ho
      isplitl [H0]; · iexact H0
      isplitl [H1]; · iexact H1
      isplitl [H2]; · iexact H2
      iexact H3
    · rw [Dat.leavesExact_idle (dat0 V c) 3 t (idleAt0_3 t h2) (noFlush0_3 t h2)]
      rw [acc0_step V c t h0]
      rw [Phi0_castSucc V c t, Phi0_pos V c _ _ hz]
      iintro ⟨⟨⟨HS, HR⟩, Hg⟩, Ho, ⟨%d0, H0⟩, ⟨%d1, H1⟩, ⟨%d2, H2⟩, ⟨%d3, H3⟩⟩
      iapply (run0_B c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (fun h => h0 ((hcondz0 t).mp h)) (fun h => h2 ((hcondl0 t).mp h)) (blk0 V c 0 t) (blk0 V c 1 t) (blk0 V c 2 t) ((dat0 V c).before 3 t d3) (acc0 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]
          · iexact HS
          iexact HR
        iexact Hg
      isplitl [Ho]; · iexact Ho
      isplitl [H0]; · iexact H0
      isplitl [H1]; · iexact H1
      isplitl [H2]; · iexact H2
      iexists d3; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After any point the invariant gives back what the launch handed over: the accumulator's named contents are forgotten. -/
theorem Phi0_out (c : Dev nD) (t : Fin (cfg0.N + 1)) (ht : t.val ≠ 0) : (dat0 V c).Φ t ⊢ Pipeline.ΦA spec0 c := by
  rw [show (dat0 V c).Φ t = Phi0 V c t.val (Nat.le_of_lt_succ t.isLt) from rfl, Phi0_pos V c _ _ ht, PhiA0_eq]
  iintro ⟨⟨HS, HR⟩, Hg⟩
  isplitl [HS HR]
  · isplitl [HS]
    · iexists _; iexact HS
    iexact HR
  iexact Hg

/-- The same after the last point. -/
theorem hout0 (c : Dev nD) : (dat0 V c).Φ (Fin.last cfg0.N) ⊢ Pipeline.ΦA spec0 c :=
  Phi0_out V c _ (by rw [Fin.val_last]; have : cfg0.N = 45 := N_0; omega)

end Cert.Kernel.Hand

end
-- ==== Proof.K.Body1A.lean ====
import proofs.«147161_j55284819034171_1_alg».proof.Proof.K.Body0A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, in closed form over the grid -/

/-- The first `scf.if`'s condition (the tile's first point: the inner coordinate is zero), from the grid coordinates. -/
abbrev condz1 (i : grid1.Coords) : Prop :=
  (Scalar.cmpi .ne (Scalar.extui (Scalar.cmpi .eq (BitVec.ofNat 32 (i 1).val) 0#32)) 0#32) = 1#1

/-- It holds exactly at the points whose position is a multiple of three. -/
theorem hcondz1 : ∀ t : Fin cfg1.N, condz1 (grid1.coords t) ↔ t.val % 3 = 0 :=
  (by decide +kernel : ∀ t : Fin grid1.N, condz1 (grid1.coords t) ↔ t.val % 3 = 0)

/-- The second `scf.if`'s condition (the tile's last point: the inner coordinate is two). -/
abbrev condl1 (i : grid1.Coords) : Prop := k1_cond2 i = 1#1

/-- It holds exactly at the points whose position is two modulo three. -/
theorem hcondl1 : ∀ t : Fin cfg1.N, condl1 (grid1.coords t) ↔ t.val % 3 = 2 :=
  (by decide +kernel : ∀ t : Fin grid1.N, condl1 (grid1.coords t) ↔ t.val % 3 = 2)

/-! ## The body at a tile's first point -/

set_option maxHeartbeats 1000000 in
/-- On whole memrefs, the three inputs at `x0 x1 x2`, the output at `xo`, the accumulator at anything: at a point
    where the first condition holds and the second does not, the body zeroes the accumulator, adds the product of
    the two blocks, and leaves everything else as it was. -/
theorem run1_A (c : Dev nD) (E : Set ℕ) (i : grid1.Coords) (arg2 : Memref sig .tc .vmem S1x2000x256 .bf16) (harg2 : arg2.IsWhole) (arg3 : Memref sig .tc .vmem S1x256x128 .bf16) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole)
    (hz : condz1 i) (hl : ¬ condl1 i)
    (x0 : Vec F S1x2000x256 .bf16) (x1 : Vec F S1x256x128 .bf16) (x2 : Vec F S1x128 .f32) (xo : Vec F S2000x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (k1_pay2 (k1_pay1 (F := F)) x0 x1)) -∗ K ⟨⟩))
      ⊢ wp frame (wpE (defs₀ (F := F)) Variants.none c none) E (cc1__cheb_linear_kernel i arg2 harg2 arg3 harg3 arg4 harg4 arg5 harg5 arg6 harg6) K := by
  simp only [cc1__cheb_linear_kernel_eq_skeleton]; unfold cc1__cheb_linear_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hz | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (fun y => ⟨_, List.mem_cons.mpr (Or.inl rfl), View.mem_set_unit_zero zeros2 inb_S2000x128_S2000x128_0_0 y⟩)]
  rw [View.canon_cons_unit_zero zeros2]
  sl_unfold_words
  rw [View.readCov_unit_zero _ zeros2]
  simp only [View.readAt_eq_ld, View.ld_unit_zero (S := S1x2000x256) zeros3, View.ld_unit_zero (S := S1x256x128) zeros3]

end Cert.Kernel.Hand

end
-- ==== Proof.K.Body1B.lean ====
import proofs.«147161_j55284819034171_1_alg».proof.Proof.K.Body1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at a tile's middle point -/

set_option maxHeartbeats 1000000 in
/-- On whole memrefs, the three inputs at `x0 x1 x2`, the output at `xo`, the accumulator at `xs`: at a point
    where neither condition holds, the body adds the product of the two blocks to the accumulator and leaves
    everything else as it was. -/
theorem run1_B (c : Dev nD) (E : Set ℕ) (i : grid1.Coords) (arg2 : Memref sig .tc .vmem S1x2000x256 .bf16) (harg2 : arg2.IsWhole) (arg3 : Memref sig .tc .vmem S1x256x128 .bf16) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole)
    (hz : ¬ condz1 i) (hl : ¬ condl1 i)
    (x0 : Vec F S1x2000x256 .bf16) (x1 : Vec F S1x256x128 .bf16) (x2 : Vec F S1x128 .f32) (xo : Vec F S2000x128 .f32) (xs : Vec F S2000x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (k1_pay2 xs x0 x1)) -∗ K ⟨⟩))
      ⊢ wp frame (wpE (defs₀ (F := F)) Variants.none c none) E (cc1__cheb_linear_kernel i arg2 harg2 arg3 harg3 arg4 harg4 arg5 harg5 arg6 harg6) K := by
  simp only [cc1__cheb_linear_kernel_eq_skeleton]; unfold cc1__cheb_linear_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hz | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (fun y => ⟨_, List.mem_cons.mpr (Or.inl rfl), View.mem_set_unit_zero zeros2 inb_S2000x128_S2000x128_0_0 y⟩)]
  rw [View.canon_cons_unit_zero zeros2]
  sl_unfold_words
  simp only [View.readAt_eq_ld, View.ld_unit_zero (S := S2000x128) zeros2, View.ld_unit_zero (S := S1x2000x256) zeros3, View.ld_unit_zero (S := S1x256x128) zeros3]

end Cert.Kernel.Hand

end
-- ==== Proof.K.Body1C.lean ====
import proofs.«147161_j55284819034171_1_alg».proof.Proof.K.Body1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at a tile's last point -/

set_option maxHeartbeats 1000000 in
/-- On whole memrefs, the three inputs at `x0 x1 x2`, the output at anything, the accumulator at `xs`: at a point
    where the first condition fails and the second holds, the body adds the product of the two blocks to the
    accumulator, then stores into the output the accumulator plus the bias row. -/
theorem run1_C (c : Dev nD) (E : Set ℕ) (i : grid1.Coords) (arg2 : Memref sig .tc .vmem S1x2000x256 .bf16) (harg2 : arg2.IsWhole) (arg3 : Memref sig .tc .vmem S1x256x128 .bf16) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole)
    (hz : ¬ condz1 i) (hl : condl1 i)
    (x0 : Vec F S1x2000x256 .bf16) (x1 : Vec F S1x256x128 .bf16) (x2 : Vec F S1x128 .f32) (xs : Vec F S2000x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 xs x0 x1) x2) ∗ owns (c : Thread nD τ) arg6 fullShare (k1_pay2 xs x0 x1)) -∗ K ⟨⟩))
      ⊢ wp frame (wpE (defs₀ (F := F)) Variants.none c none) E (cc1__cheb_linear_kernel i arg2 harg2 arg3 harg3 arg4 harg4 arg5 harg5 arg6 harg6) K := by
  simp only [cc1__cheb_linear_kernel_eq_skeleton]; unfold cc1__cheb_linear_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hz | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.mem_cons.mpr (Or.inl rfl), View.mem_set_unit_zero zeros2 inb_S2000x128_S2000x128_0_0 y⟩)]
    rw [View.canon_cons_unit_zero zeros2]
    rw [View.readCov_unit_zero _ zeros2]
    simp only [View.readAt_eq_ld, View.ld_unit_zero (S := S2000x128) zeros2, View.ld_unit_zero (S := S1x128) zeros2, View.ld_unit_zero (S := S1x2000x256) zeros3, View.ld_unit_zero (S := S1x256x128) zeros3]
  iexists _; isplitr
  swap; · iexact HS
  ipureintro
  sl_unfold_words
  rw [View.read_writes_eq_canon _ _ _ (fun y => ⟨_, List.mem_cons.mpr (Or.inl rfl), View.mem_set_unit_zero zeros2 inb_S2000x128_S2000x128_0_0 y⟩)]
  rw [View.canon_cons_unit_zero zeros2]
  simp only [View.readAt_eq_ld, View.ld_unit_zero (S := S2000x128) zeros2, View.ld_unit_zero (S := S1x2000x256) zeros3, View.ld_unit_zero (S := S1x256x128) zeros3]

end Cert.Kernel.Hand

end
-- ==== Proof.K.Body1.lean ====
import proofs.«147161_j55284819034171_1_alg».proof.Proof.K.Body1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks, the accumulation, the proof data -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the scratch accumulator holds after the body at point `n`: the running sum of the tile's products,
    started afresh from zero at each tile's first point. -/
def acc1 (c : Dev nD) : (n : ℕ) → n < cfg1.N → Vec F S2000x128 .f32
  | 0, hn => k1_pay2 (k1_pay1 (F := F)) (blk1 V c 0 ⟨0, hn⟩) (blk1 V c 1 ⟨0, hn⟩)
  | n + 1, hn =>
    if (n + 1) % 3 = 0 then k1_pay2 (k1_pay1 (F := F)) (blk1 V c 0 ⟨n + 1, hn⟩) (blk1 V c 1 ⟨n + 1, hn⟩)
    else k1_pay2 (acc1 c n (Nat.lt_of_succ_lt hn)) (blk1 V c 0 ⟨n + 1, hn⟩) (blk1 V c 1 ⟨n + 1, hn⟩)

/-- At a tile's first point the sum starts from zero. -/
theorem acc1_reset (c : Dev nD) (t : Fin cfg1.N) (h : t.val % 3 = 0) :
    acc1 V c t.val t.isLt = k1_pay2 (k1_pay1 (F := F)) (blk1 V c 0 t) (blk1 V c 1 t) := by
  obtain ⟨n, hn⟩ := t
  cases n with
  | zero => rfl
  | succ n => exact (if_pos h).trans rfl

/-- At any other point it continues from what the point before left. -/
theorem acc1_step (c : Dev nD) (t : Fin cfg1.N) (h : ¬ t.val % 3 = 0) :
    acc1 V c t.val t.isLt = k1_pay2 (acc1 V c (t.val - 1) (Nat.lt_of_le_of_lt (Nat.sub_le _ _) t.isLt)) (blk1 V c 0 t) (blk1 V c 1 t) := by
  obtain ⟨n, hn⟩ := t
  cases n with
  | zero => exact absurd (Nat.zero_mod _) h
  | succ n => exact (if_neg h).trans rfl

/-- The output buffer after the body at a point where it is stored (the tile's last point): the accumulated sum
    plus the bias row; a placeholder elsewhere (the window is idle there and never consulted). -/
def out1 (c : Dev nD) (t : Fin cfg1.N) : Vec F S2000x128 .f32 := k1_pay3 (acc1 V c t.val t.isLt) (blk1 V c 2 t)

/-- A scoped buffer of the core, whole, at some contents. -/
abbrev anyBuf1 (c : Dev nD) (b : Ref sig .tc) : sProp 𝕄 :=
  iprop(∃ f : Buf (Elt F) ((c : Thread nD τ).loc b), ((c : Thread nD τ).loc b) ↦{fullShare} f)

/-- The region invariant before position `n`: before the first point what the launch hands the region; afterwards
    the accumulator at the sum the point before left, the core's other scoped buffers that are no staging buffer
    of this region at anything, and the generator register at some state. -/
def Phi1 (c : Dev nD) : (n : ℕ) → n ≤ cfg1.N → sProp 𝕄
  | 0, _ => Pipeline.ΦA spec1 c
  | n + 1, hn => iprop(iprop(anyBuf1 (F := F) c cc0_stg0_0 ∗ anyBuf1 (F := F) c cc0_stg0_1 ∗ anyBuf1 (F := F) c cc0_stg1_0 ∗ anyBuf1 (F := F) c cc0_stg1_1 ∗ anyBuf1 (F := F) c cc0_stg2_0 ∗ anyBuf1 (F := F) c cc0_stg3_0 ∗ anyBuf1 (F := F) c cc0_stg3_1 ∗ anyBuf1 (F := F) c cc0_scratch0 ∗ owns (c : Thread nD τ) (Memref.whole cc1_scratch0) fullShare (acc1 V c n hn)) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(anyBuf1 (F := F) c cc0_stg0_0 ∗ anyBuf1 (F := F) c cc0_stg0_1 ∗ anyBuf1 (F := F) c cc0_stg1_0 ∗ anyBuf1 (F := F) c cc0_stg1_1 ∗ anyBuf1 (F := F) c cc0_stg2_0 ∗ anyBuf1 (F := F) c cc0_stg3_0 ∗ anyBuf1 (F := F) c cc0_stg3_1 ∗ anyBuf1 (F := F) c cc0_scratch0 ∗ owns (c : Thread nD τ) (Memref.whole cc1_scratch0) fullShare (acc1 V c n hn)) ∗ (∃ r, prngReg c r)) := rfl

theorem Phi1_pos (c : Dev nD) (n : ℕ) (h : n ≤ cfg1.N) (hz : n ≠ 0) :
    Phi1 V c n h = iprop(iprop(anyBuf1 (F := F) c cc0_stg0_0 ∗ anyBuf1 (F := F) c cc0_stg0_1 ∗ anyBuf1 (F := F) c cc0_stg1_0 ∗ anyBuf1 (F := F) c cc0_stg1_1 ∗ anyBuf1 (F := F) c cc0_stg2_0 ∗ anyBuf1 (F := F) c cc0_stg3_0 ∗ anyBuf1 (F := F) c cc0_stg3_1 ∗ anyBuf1 (F := F) c cc0_scratch0 ∗ owns (c : Thread nD τ) (Memref.whole cc1_scratch0) fullShare (acc1 V c (n - 1) (by omega))) ∗ (∃ r, prngReg c r)) := by
  cases n with
  | zero => exact absurd rfl hz
  | succ n => rfl

/-- What the launch hands the region, with the accumulator as a memref owned at some contents. -/
theorem PhiA1_eq (c : Dev nD) :
    (Pipeline.ΦA spec1 c : sProp 𝕄)
      = iprop(iprop(anyBuf1 (F := F) c cc0_stg0_0 ∗ anyBuf1 (F := F) c cc0_stg0_1 ∗ anyBuf1 (F := F) c cc0_stg1_0 ∗ anyBuf1 (F := F) c cc0_stg1_1 ∗ anyBuf1 (F := F) c cc0_stg2_0 ∗ anyBuf1 (F := F) c cc0_stg3_0 ∗ anyBuf1 (F := F) c cc0_stg3_1 ∗ anyBuf1 (F := F) c cc0_scratch0 ∗ (∃ d, owns (c : Thread nD τ) (Memref.whole cc1_scratch0) fullShare d)) ∗ (∃ r, prngReg c r)) := by
  unfold Pipeline.ΦA; rw [scopedRest1_eq]; simp only [owns_whole]; try rfl

/-- The proof data of the region on core `c`: the arrays as the region finds them; after the body at a point each
    input's buffer at its block and the output's at `out1`; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => out1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = out1 V c t := by dsimp only [dat1]

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-! ## The input windows' buffers: each holds its block at every point, fetched there or not -/

theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A_eq1]; try rfl) t d).trans
    (by unfold Dat.fetched Dat.blockOf blk1; rw [A_eq1]; try rfl)

theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A_eq1]; try rfl) t d).trans
    (by unfold Dat.fetched Dat.blockOf blk1; rw [A_eq1]; try rfl)

theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [A_eq1]; try rfl) t d).trans
    (by unfold Dat.fetched Dat.blockOf blk1; rw [A_eq1]; try rfl)

/-! ## Where the output window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- The output window is idle except at a tile's last point, -/
theorem idleAt1_3 : ∀ t : Fin cfg1.N, ¬ t.val % 3 = 2 → cfg1.idle 3 (grid1.coords t) = true := by decide +kernel
theorem liveAt1_3 : ∀ t : Fin cfg1.N, t.val % 3 = 2 → cfg1.idle 3 (grid1.coords t) = false := by decide +kernel
/-- and is written back only there. -/
theorem noFlush1_3 (t : Fin cfg1.N) (h : ¬ t.val % 3 = 2) : (cfg1.win 3).flush t = false :=
  Bool.eq_false_iff.mpr fun hf => h ((flush1_3 t).mp hf)

/-! ## The body obligation, at a generic point -/

/-- Each window's current staging memref at point `t`, spelled as the pipeline passes it. -/
abbrev ms1_0 (t : Fin cfg1.N) := win1_0.stage (cfg1.slots t 0)
abbrev ms1_1 (t : Fin cfg1.N) := win1_1.stage (cfg1.slots t 1)
abbrev ms1_2 (t : Fin cfg1.N) := win1_2.stage (cfg1.slots t 2)
abbrev ms1_3 (t : Fin cfg1.N) := win1_3.stage (cfg1.slots t 3)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the inputs' memrefs hold their blocks; the position modulo three says which of the three
    control cases the point is in; the invariant hands the body the accumulator at what the point before left (at
    anything at a tile's first point) and takes it back at this point's sum; at a tile's last point the output's
    buffer is left at `out1`, elsewhere it is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 3 = 0
  · have h2 : ¬ t.val % 3 = 2 := by omega
    rw [Dat.leavesExact_idle (dat1 V c) 3 t (idleAt1_3 t h2) (noFlush1_3 t h2)]
    rw [acc1_reset V c t h0]
    by_cases hz : t.val = 0
    · rw [Phi1_castSucc V c t, Phi1_zero V c _ _ hz, PhiA1_eq]
      iintro ⟨⟨⟨R1, R2, R3, R4, R5, R6, R7, R8, HS⟩, Hg⟩, Ho, ⟨%d0, H0⟩, ⟨%d1, H1⟩, ⟨%d2, H2⟩, ⟨%d3, H3⟩⟩
      iapply (run1_A c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) ((hcondz1 t).mpr h0) (fun h => h2 ((hcondl1 t).mp h)) (blk1 V c 0 t) (blk1 V c 1 t) (blk1 V c 2 t) ((dat1 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [R1 R2 R3 R4 R5 R6 R7 R8 HS Hg]
      · isplitl [R1 R2 R3 R4 R5 R6 R7 R8 HS]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        iexact Hg
      isplitl [Ho]; · iexact Ho
      isplitl [H0]; · iexact H0
      isplitl [H1]; · iexact H1
      isplitl [H2]; · iexact H2
      iexists d3; iexact H3
    · rw [Phi1_castSucc V c t, Phi1_pos V c _ _ hz]
      iintro ⟨⟨⟨R1, R2, R3, R4, R5, R6, R7, R8, HS⟩, Hg⟩, Ho, ⟨%d0, H0⟩, ⟨%d1, H1⟩, ⟨%d2, H2⟩, ⟨%d3, H3⟩⟩
      iapply (run1_A c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) ((hcondz1 t).mpr h0) (fun h => h2 ((hcondl1 t).mp h)) (blk1 V c 0 t) (blk1 V c 1 t) (blk1 V c 2 t) ((dat1 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [R1 R2 R3 R4 R5 R6 R7 R8 HS Hg]
      · isplitl [R1 R2 R3 R4 R5 R6 R7 R8 HS]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        iexact Hg
      isplitl [Ho]; · iexact Ho
      isplitl [H0]; · iexact H0
      isplitl [H1]; · iexact H1
      isplitl [H2]; · iexact H2
      iexists d3; iexact H3
  · have hz : t.val ≠ 0 := fun e => h0 (by rw [e])
    by_cases h2 : t.val % 3 = 2
    · rw [show (dat1 V c).leavesExact 3 t = owns (c : Thread nD τ) (ms1_3 t) fullShare ((dat1 V c).after 3 t) from by
        unfold Dat.leavesExact; rw [liveAt1_3 t h2], after1_3]
      unfold out1
      rw [acc1_step V c t h0]
      rw [Phi1_castSucc V c t, Phi1_pos V c _ _ hz]
      iintro ⟨⟨⟨R1, R2, R3, R4, R5, R6, R7, R8, HS⟩, Hg⟩, Ho, ⟨%d0, H0⟩, ⟨%d1, H1⟩, ⟨%d2, H2⟩, ⟨%d3, H3⟩⟩
      iapply (run1_C c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) (fun h => h0 ((hcondz1 t).mp h)) ((hcondl1 t).mpr h2) (blk1 V c 0 t) (blk1 V c 1 t) (blk1 V c 2 t) (acc1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [R1 R2 R3 R4 R5 R6 R7 R8 HS Hg]
      · isplitl [R1 R2 R3 R4 R5 R6 R7 R8 HS]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t h2) (noFlush1_3 t h2)]
      rw [acc1_step V c t h0]
      rw [Phi1_castSucc V c t, Phi1_pos V c _ _ hz]
      iintro ⟨⟨⟨R1, R2, R3, R4, R5, R6, R7, R8, HS⟩, Hg⟩, Ho, ⟨%d0, H0⟩, ⟨%d1, H1⟩, ⟨%d2, H2⟩, ⟨%d3, H3⟩⟩
      iapply (run1_B c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) (fun h => h0 ((hcondz1 t).mp h)) (fun h => h2 ((hcondl1 t).mp h)) (blk1 V c 0 t) (blk1 V c 1 t) (blk1 V c 2 t) ((dat1 V c).before 3 t d3) (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [R1 R2 R3 R4 R5 R6 R7 R8 HS Hg]
      · isplitl [R1 R2 R3 R4 R5 R6 R7 R8 HS]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        iexact Hg
      isplitl [Ho]; · iexact Ho
      isplitl [H0]; · iexact H0
      isplitl [H1]; · iexact H1
      isplitl [H2]; · iexact H2
      iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After any point the invariant gives back what the launch handed over: the accumulator's named contents are forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨⟨R1, R2, R3, R4, R5, R6, R7, R8, HS⟩, Hg⟩
  isplitl [R1 R2 R3 R4 R5 R6 R7 R8 HS]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexists _; iexact HS
  iexact Hg

/-- The same after the last point. -/
theorem hout1 (c : Dev nD) : (dat1 V c).Φ (Fin.last cfg1.N) ⊢ Pipeline.ΦA spec1 c :=
  Phi1_out V c _ (by rw [Fin.val_last]; have : cfg1.N = 45 := N_1; omega)

end Cert.Kernel.Hand

end
-- ==== Proof.K.Run.lean ====
import proofs.«147161_j55284819034171_1_alg».proof.Proof.K.Body0
import proofs.«147161_j55284819034171_1_alg».proof.Proof.K.Body1
import proofs.«147161_j55284819034171_1_alg».proof.Proof.Gen.Kernel.Regions
import Idealize.ShloMosaic.Lib.Pipeline.RegionsLoop

/-!
# The run of @main and its two frame theorems

@main is seven stretches of host operations, the first layer (pipeline 0), one more stretch, and the second layer
(pipeline 1). Between two items every unscoped buffer of a core is held at a known valuation: the launch contents, then
what each stretch makes of the one before, then the same with `main_v68` set to what the first layer leaves, then with
`main_v105` set to what the second layer leaves. This file names those two results (`res0`, `res1`), gives each layer
as a segment over these valuations, chains the ten segments, and reads the result and the six arguments off the last
valuation.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The contents of the two result arrays -/

/-- What the first layer leaves in `main_v68`: its output window's array after the write-backs of all 45 points, the
    layer entered at the contents the host operations before it leave. -/
def res0 (c : Dev nD) : Buf (Elt F) ((c : Thread nD τ).loc main_v68) :=
  (dat0 (fun c b => Gen.V7 m c b) c).arrAt 3 cfg0.N

/-- The contents the regions leave, with only the first layer's result set: `main_v68` at `res0`, every other
    buffer as the first layer finds it. -/
def outs0 : Gen.Outs (F := F) := fun _ r c => Function.update (Gen.V7 m c) main_v68 (res0 m c) r

/-- What the second layer leaves in `main_v105`: its output window's array after the write-backs of all 45 points,
    the layer entered at the contents the host operations between the layers make of the first layer's result. -/
def res1 (c : Dev nD) : Buf (Elt F) ((c : Thread nD τ).loc main_v105) :=
  (dat1 (fun c b => Gen.V9 m (outs0 m) c b) c).arrAt 3 cfg1.N

/-- The contents the regions leave: after the first layer as `outs0`, after the second `main_v105` at `res1`. -/
def outs : Gen.Outs (F := F) := fun J r c =>
  if J = 8 then outs0 m J r c else Function.update (Gen.V9 m (outs0 m) c) main_v105 (res1 m c) r

theorem outs0_v68 (J : ℕ) (c : Dev nD) : outs0 m J main_v68 c = res0 m c := by
  unfold outs0; exact Function.update_self _ _ _

theorem outs_8 (r : Ref sig .tc) (c : Dev nD) : outs m 8 r c = outs0 m 8 r c := by
  unfold outs; rw [if_pos rfl]

theorem outs_10_v105 (c : Dev nD) : outs m 10 main_v105 c = res1 m c := by
  unfold outs; rw [if_neg (by decide)]; exact Function.update_self _ _ _

/-- After the first layer the buffers are the same whichever of the two families is read: only `main_v68` is. -/
theorem V8_outs (c : Dev nD) : Gen.V8 m (outs m) c = Gen.V8 m (outs0 m) c := by
  unfold Gen.V8; rw [outs_8]

theorem V9_outs (c : Dev nD) : Gen.V9 m (outs m) c = Gen.V9 m (outs0 m) c := by
  unfold Gen.V9; rw [V8_outs]

/-- After the first layer `main_v68` holds its result, -/
theorem V8_v68 (c : Dev nD) : Gen.V8 m (outs0 m) c main_v68 = res0 m c := by
  unfold Gen.V8; rw [Function.update_self, outs0_v68]

/-- and every other buffer what it held before. -/
theorem V8_other (c : Dev nD) (r : Ref sig .tc) (h : r ≠ main_v68) : Gen.V8 m (outs0 m) c r = Gen.V7 m c r :=
  Gen.V8_of m (outs0 m) c r (by simpa using h)

/-- After the second layer `main_v105` holds its result. -/
theorem V10_v105 (c : Dev nD) : Gen.V10 m (outs m) c main_v105 = res1 m c := by
  unfold Gen.V10; rw [Function.update_self, outs_10_v105]

/-! # The proof data of the two layers and what rides beside the buffers -/

/-- The buffers as the first layer finds them, and as the second does. -/
local notation "Vin0" => (fun (c : Dev nD) (b : Ref sig Kind.tc) => Gen.V7 m c b)
local notation "Vin1" => (fun (c : Dev nD) (b : Ref sig Kind.tc) => Gen.V9 m (outs0 m) c b)

/-- Each layer's proof data at the contents it is entered from. -/
def pdats : (p : Fin 2) → (c : Dev nD) → Dat τ (Elt F) Unit ℕ (UR sig nD τ) ℕ (Pipeline.pin (pcfgs (F := F)) Gen.adm p) c
  | ⟨0, _⟩ => fun c => dat0 Vin0 c
  | ⟨1, _⟩ => fun c => dat1 Vin1 c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the core's generator register at some state and the core
    owing nothing. -/
abbrev R (c : Dev nD) : sProp 𝕄 := iprop((∃ r, prngReg c r) ∗ ∃ W, owes (c : Thread nD τ) (0 : CellTallies nD τ sig Unit) W)

/-- The same at each of the three stretches between the layers. -/
abbrev E : Fin 3 → Dev nD → sProp 𝕄 := fun _ c => R (F := F) c

/-! # The first layer as a segment -/

theorem arrRef0_0 : Pipeline.arrRef spec0 0 = main_v65 := rfl
theorem arrRef0_1 : Pipeline.arrRef spec0 1 = main_v66 := rfl
theorem arrRef0_2 : Pipeline.arrRef spec0 2 = main_v67 := rfl
theorem arrRef0_3 : Pipeline.arrRef spec0 3 = main_v68 := rfl

/-- At the first layer's exit each of its arrays holds what the pipeline leaves: an input window's array is never
    written back and is none of the buffers the layer changes; the output window's array is `main_v68`, at `res0`. -/
theorem exit0 (c : Dev nD) : ∀ w : Fin cfg0.W, (dat0 Vin0 c).arrAt w cfg0.N = Gen.V8 m (outs m) c (Pipeline.arrRef spec0 w)
  | 0 => ((dat0 Vin0 c).arrAt_in 0 rfl cfg0.N).trans ((A_eq0 Vin0 c 0).trans
      ((V8_other m c (Pipeline.arrRef spec0 0) (by decide)).symm.trans (congrFun (V8_outs m c).symm _)))
  | 1 => ((dat0 Vin0 c).arrAt_in 1 rfl cfg0.N).trans ((A_eq0 Vin0 c 1).trans
      ((V8_other m c (Pipeline.arrRef spec0 1) (by decide)).symm.trans (congrFun (V8_outs m c).symm _)))
  | 2 => ((dat0 Vin0 c).arrAt_in 2 rfl cfg0.N).trans ((A_eq0 Vin0 c 2).trans
      ((V8_other m c (Pipeline.arrRef spec0 2) (by decide)).symm.trans (congrFun (V8_outs m c).symm _)))
  | 3 => (V8_v68 m c).symm.trans (congrFun (V8_outs m c).symm _)
  | ⟨_ + 4, h⟩ => absurd h (Nat.not_lt.2 (Nat.le_add_left _ _))

/-- and every buffer that is none of its arrays what it held at entry. -/
theorem rest0 (c : Dev nD) : ∀ b, b ∉ Finset.univ.image (Pipeline.arrRef spec0) → Gen.V8 m (outs m) c b = Gen.V7 m c b :=
  fun b hb => (congrFun (V8_outs m c) _).trans
    (V8_other m c b fun e => hb (Finset.mem_image.mpr ⟨3, Finset.mem_univ _, e.symm⟩))

-- the library's lemmas are stated over the pinned configuration of a pipeline; unifying it with the printed one unfolds
-- plain definitions in a metavariable's type
set_option backward.isDefEq.respectTransparency.types false in
/-- Layer 0 as a segment of the run: its arrays are taken out of the unscoped buffers at entry and put back at the
    exit contents; the generator register goes into the invariant and comes back; nothing is owed; the kernel has
    no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 Vin0 c).loose
  hwaits := Pipeline.hwaits_of_owed_zero _ _ _ _ L lv 0 fun _ _ => rfl
  pre c := iprop(StableHlo.held (c : Thread nD τ) (Pipeline.ucRefs τ sig) (Gen.V7 m c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vin0 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 Vin0 c)
    unfold Pipeline.ΦA
    iintro ⟨Hp, -, Hr⟩
    isplitl [Hr]; · iexact Hr
    iexact Hp
  hout c := by
    rw [Pipeline.ownSems0_none]
    refine BIBase.Entails.trans (hout0 Vin0 c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vin0 c) (fun b => Gen.V8 m (outs m) c b) ((pdats m 0 c).arrAt · cfg0.N) (exit0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The second layer as a segment -/

/-- At the second layer's exit each of its arrays holds what the pipeline leaves: an input window's array is never
    written back and is none of the buffers the layer changes; the output window's array is `main_v105`, at `res1`. -/
theorem exit1 (c : Dev nD) : ∀ w : Fin cfg1.W, (dat1 Vin1 c).arrAt w cfg1.N = Gen.V10 m (outs m) c (Pipeline.arrRef spec1 w)
  | 0 => ((dat1 Vin1 c).arrAt_in 0 rfl cfg1.N).trans ((A_eq1 Vin1 c 0).trans
      ((congrFun (V9_outs m c).symm _).trans (Gen.V10_of m (outs m) c (Pipeline.arrRef spec1 0) (by decide)).symm))
  | 1 => ((dat1 Vin1 c).arrAt_in 1 rfl cfg1.N).trans ((A_eq1 Vin1 c 1).trans
      ((congrFun (V9_outs m c).symm _).trans (Gen.V10_of m (outs m) c (Pipeline.arrRef spec1 1) (by decide)).symm))
  | 2 => ((dat1 Vin1 c).arrAt_in 2 rfl cfg1.N).trans ((A_eq1 Vin1 c 2).trans
      ((congrFun (V9_outs m c).symm _).trans (Gen.V10_of m (outs m) c (Pipeline.arrRef spec1 2) (by decide)).symm))
  | 3 => (V10_v105 m c).symm
  | ⟨_ + 4, h⟩ => absurd h (Nat.not_lt.2 (Nat.le_add_left _ _))

/-- and every buffer that is none of its arrays what it held at entry. -/
theorem rest1 (c : Dev nD) : ∀ b, b ∉ Finset.univ.image (Pipeline.arrRef spec1) → Gen.V10 m (outs m) c b = Gen.V9 m (outs0 m) c b :=
  fun b hb => (Gen.V10_of m (outs m) c b
      (by simpa using fun e : b = main_v105 => hb (Finset.mem_image.mpr ⟨3, Finset.mem_univ _, e.symm⟩))).trans
    (congrFun (V9_outs m c) _)

-- the library's lemmas are stated over the pinned configuration of a pipeline; unifying it with the printed one unfolds
-- plain definitions in a metavariable's type
set_option backward.isDefEq.respectTransparency.types false in
/-- Layer 1 as a segment of the run: its arrays are taken out of the unscoped buffers at entry and put back at the
    exit contents; the generator register goes into the invariant and comes back; nothing is owed; the kernel has
    no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 Vin1 c).loose
  hwaits := Pipeline.hwaits_of_owed_zero _ _ _ _ L lv 1 fun _ _ => rfl
  pre c := iprop(StableHlo.held (c : Thread nD τ) (Pipeline.ucRefs τ sig) (Gen.V9 m (outs0 m) c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vin1 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 Vin1 c)
    unfold Pipeline.ΦA
    iintro ⟨Hp, -, Hr⟩
    isplitl [Hr]; · iexact Hr
    iexact Hp
  hout c := by
    rw [Pipeline.ownSems0_none]
    refine BIBase.Entails.trans (hout1 Vin1 c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vin1 c) (fun b => Gen.V10 m (outs m) c b) ((pdats m 1 c).arrAt · cfg1.N) (exit1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The run -/

/-- @main's ten items as segments: the host stretches from the contents each finds, the two layers by `reg0`, `reg1`. -/
abbrev segs (c : Dev nD) : List (Pipeline.Seg (pcfgs (F := F)) Gen.adm (pdats m) () defs₀ 𝒱₀ L lv) :=
  Gen.segs m (outs m) 𝒱₀ L lv E () (pdats m) (reg0 m) (reg1 m) c

-- the launch theorem's implicit arguments are found by unifying its conclusion with this one, which takes unfolding plain
-- definitions in a metavariable's type
set_option backward.isDefEq.respectTransparency.types false in
/-- THE RUN. From any memory with zero counters every weakly fair execution of @main terminates, and every final
    memory holds `main_v105` at `res1` and each argument as launched: the segments chain from the launch contents to
    the last valuation, against which the final state is read. -/
theorem run_all : θ_run defs (onTc (τ := τ) (main (F := F))) ⟨m, fun _ => 0, ρ⟩ (fun r => ∀ c : Dev nD,
      r.2.mem ((c.tc : Thread nD τ).loc main_v105) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) Gen.adm (pdats m) () cellOf_inj emb₁ defs₀ 𝒱₀ L lv m ρ main
    (segs m)
    (fun c Q => by
      rewrite [main_chain c, Pipeline.Seg.run_eq_chain,
        show (segs m c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          Prog.lift (.customCall (Pipeline.entry 1) ()) ] from rfl]
      exact .rfl)
    (fun c => by simp only [segs, Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V10 m (outs m) c))
    (hch := fun c => ⟨.rfl, .rfl, .rfl, .rfl, .rfl, .rfl, .rfl, .rfl, .rfl,
      (show iprop(StableHlo.held (c : Thread nD τ) (Pipeline.ucRefs τ sig) (Gen.V9 m (outs m) c) ∗ R c)
          ⊢ iprop(StableHlo.held (c : Thread nD τ) (Pipeline.ucRefs τ sig) (Gen.V9 m (outs0 m) c) ∗ R c) from by
        rw [V9_outs]; first | done | exact .rfl),
      (show iprop(StableHlo.held (c : Thread nD τ) (Pipeline.ucRefs τ sig) (Gen.V10 m (outs m) c) ∗ R c)
          ⊢ iprop(StableHlo.held (c : Thread nD τ) (Pipeline.ucRefs τ sig) (Gen.V10 m (outs m) c)
              ∗ ∃ W, owes (c : Thread nD τ) (0 : CellTallies nD τ sig Unit) W) from by
        iintro ⟨Hh, -, HO⟩
        isplitl [Hh]; · iexact Hh
        iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v105) = res1 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?_) (hQ := fun _ h => h)
  -- the end: the result's buffer and each argument's read off the last valuation
  unfold StableHlo.held
  iintro ⟨Hh, HSI⟩
  ihave Hr := (pointsTo_read_all (Pipeline.ucRefs τ sig) (fun b => ((c : Thread nD τ).1, b)) (Gen.V10 m (outs m) c) s') $$ [Hh HSI]
  · isplitl [Hh] <;> iassumption
  icases Hr with ⟨%h, HSI⟩
  imodintro
  isplitr
  · ipureintro
    exact ⟨(h (Proc.devRef .tc main_v105) (Finset.mem_filter.mpr ⟨StableHlo.devRef_mem_tcRefs main_v105, by decide⟩)).trans (V10_v105 m c),
      (h (Proc.devRef .tc main_arg0) (Finset.mem_filter.mpr ⟨StableHlo.devRef_mem_tcRefs main_arg0, by decide⟩)).trans (Gen.V10_main_arg0 m (outs m) c),
      (h (Proc.devRef .tc main_arg1) (Finset.mem_filter.mpr ⟨StableHlo.devRef_mem_tcRefs main_arg1, by decide⟩)).trans (Gen.V10_main_arg1 m (outs m) c),
      (h (Proc.devRef .tc main_arg2) (Finset.mem_filter.mpr ⟨StableHlo.devRef_mem_tcRefs main_arg2, by decide⟩)).trans (Gen.V10_main_arg2 m (outs m) c),
      (h (Proc.devRef .tc main_arg3) (Finset.mem_filter.mpr ⟨StableHlo.devRef_mem_tcRefs main_arg3, by decide⟩)).trans (Gen.V10_main_arg3 m (outs m) c),
      (h (Proc.devRef .tc main_arg4) (Finset.mem_filter.mpr ⟨StableHlo.devRef_mem_tcRefs main_arg4, by decide⟩)).trans (Gen.V10_main_arg4 m (outs m) c),
      (h (Proc.devRef .tc main_arg5) (Finset.mem_filter.mpr ⟨StableHlo.devRef_mem_tcRefs main_arg5, by decide⟩)).trans (Gen.V10_main_arg5 m (outs m) c)⟩
  · iexact HSI

/-- THE FRAME: the run, the result's contents forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_all m ρ)

end Cert.Kernel.Hand

end
-- ==== Proof.KI.Body0A.lean ====
import proofs.«147161_j55284819034171_1_alg».proof.Proof.Gen.KernelIdeal.Launch
import proofs.«147161_j55284819034171_1_alg».proof.Proof.Gen.KernelIdeal.Skeleton
import proofs.«147161_j55284819034171_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, in closed form over the grid -/

/-- The first `scf.if`'s condition (the tile's first point: the inner coordinate is zero), from the grid coordinates. -/
abbrev condz0 (i : grid0.Coords) : Prop :=
  (Scalar.cmpi .ne (Scalar.extui (Scalar.cmpi .eq (BitVec.ofNat 32 (i 1).val) 0#32)) 0#32) = 1#1

/-- It holds exactly at the points whose position is a multiple of three. -/
theorem hcondz0 : ∀ t : Fin cfg0.N, condz0 (grid0.coords t) ↔ t.val % 3 = 0 :=
  (by decide +kernel : ∀ t : Fin grid0.N, condz0 (grid0.coords t) ↔ t.val % 3 = 0)

/-- The second `scf.if`'s condition (the tile's last point: the inner coordinate is two). -/
abbrev condl0 (i : grid0.Coords) : Prop := k0_cond2 i = 1#1

/-- It holds exactly at the points whose position is two modulo three. -/
theorem hcondl0 : ∀ t : Fin cfg0.N, condl0 (grid0.coords t) ↔ t.val % 3 = 2 :=
  (by decide +kernel : ∀ t : Fin grid0.N, condl0 (grid0.coords t) ↔ t.val % 3 = 2)

/-- Zero offsets, however spelt. -/
theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The body at a tile's first point -/

set_option maxHeartbeats 1000000 in
/-- On whole memrefs, the three inputs at `x0 x1 x2`, the output at `xo`, the accumulator at anything: at a point
    where the first condition holds and the second does not, the body zeroes the accumulator, adds the product of
    the two blocks, and leaves everything else as it was. -/
theorem run0_A (c : Dev nD) (E : Set ℕ) (i : grid0.Coords) (arg2 : Memref sig .tc .vmem S1x2000x128 .bf16) (harg2 : arg2.IsWhole) (arg3 : Memref sig .tc .vmem S1x128x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S2000x256 .f32) (harg6 : arg6.IsWhole)
    (hz : condz0 i) (hl : ¬ condl0 i)
    (x0 : Vec F S1x2000x128 .bf16) (x1 : Vec F S1x128x256 .bf16) (x2 : Vec F S1x256 .f32) (xo : Vec F S2000x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (k0_pay2 (k0_pay1 (F := F)) x0 x1)) -∗ K ⟨⟩))
      ⊢ wp frame (wpE (defs₀ (F := F)) Variants.none c none) E (cc0__cheb_linear_kernel i arg2 harg2 arg3 harg3 arg4 harg4 arg5 harg5 arg6 harg6) K := by
  simp only [cc0__cheb_linear_kernel_eq_skeleton]; unfold cc0__cheb_linear_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hz | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (fun y => ⟨_, List.mem_cons.mpr (Or.inl rfl), View.mem_set_unit_zero zeros2 inb_S2000x256_S2000x256_0_0 y⟩)]
  rw [View.canon_cons_unit_zero zeros2]
  sl_unfold_words
  rw [View.readCov_unit_zero _ zeros2]
  simp only [View.readAt_eq_ld, View.ld_unit_zero (S := S1x2000x128) zeros3, View.ld_unit_zero (S := S1x128x256) zeros3]

end Cert.KernelIdeal.Hand

end
-- ==== Proof.KI.Body0B.lean ====
import proofs.«147161_j55284819034171_1_alg».proof.Proof.KI.Body0A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at a tile's middle point -/

set_option maxHeartbeats 1000000 in
/-- On whole memrefs, the three inputs at `x0 x1 x2`, the output at `xo`, the accumulator at `xs`: at a point
    where neither condition holds, the body adds the product of the two blocks to the accumulator and leaves
    everything else as it was. -/
theorem run0_B (c : Dev nD) (E : Set ℕ) (i : grid0.Coords) (arg2 : Memref sig .tc .vmem S1x2000x128 .bf16) (harg2 : arg2.IsWhole) (arg3 : Memref sig .tc .vmem S1x128x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S2000x256 .f32) (harg6 : arg6.IsWhole)
    (hz : ¬ condz0 i) (hl : ¬ condl0 i)
    (x0 : Vec F S1x2000x128 .bf16) (x1 : Vec F S1x128x256 .bf16) (x2 : Vec F S1x256 .f32) (xo : Vec F S2000x256 .f32) (xs : Vec F S2000x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (k0_pay2 xs x0 x1)) -∗ K ⟨⟩))
      ⊢ wp frame (wpE (defs₀ (F := F)) Variants.none c none) E (cc0__cheb_linear_kernel i arg2 harg2 arg3 harg3 arg4 harg4 arg5 harg5 arg6 harg6) K := by
  simp only [cc0__cheb_linear_kernel_eq_skeleton]; unfold cc0__cheb_linear_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hz | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (fun y => ⟨_, List.mem_cons.mpr (Or.inl rfl), View.mem_set_unit_zero zeros2 inb_S2000x256_S2000x256_0_0 y⟩)]
  rw [View.canon_cons_unit_zero zeros2]
  sl_unfold_words
  simp only [View.readAt_eq_ld, View.ld_unit_zero (S := S2000x256) zeros2, View.ld_unit_zero (S := S1x2000x128) zeros3, View.ld_unit_zero (S := S1x128x256) zeros3]

end Cert.KernelIdeal.Hand

end
-- ==== Proof.KI.Body0C.lean ====
import proofs.«147161_j55284819034171_1_alg».proof.Proof.KI.Body0B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at a tile's last point -/

set_option maxHeartbeats 1000000 in
/-- On whole memrefs, the three inputs at `x0 x1 x2`, the output at anything, the accumulator at `xs`: at a point
    where the first condition fails and the second holds, the body adds the product of the two blocks to the
    accumulator, then stores into the output the accumulator plus the bias row, clamped below at zero. -/
theorem run0_C (c : Dev nD) (E : Set ℕ) (i : grid0.Coords) (arg2 : Memref sig .tc .vmem S1x2000x128 .bf16) (harg2 : arg2.IsWhole) (arg3 : Memref sig .tc .vmem S1x128x256 .bf16) (harg3 : arg3.IsWhole) (arg4 : Memref sig .tc .vmem S1x256 .f32) (harg4 : arg4.IsWhole) (arg5 : Memref sig .tc .vmem S2000x256 .f32) (harg5 : arg5.IsWhole) (arg6 : Memref sig .tc .vmem S2000x256 .f32) (harg6 : arg6.IsWhole)
    (hz : ¬ condz0 i) (hl : condl0 i)
    (x0 : Vec F S1x2000x128 .bf16) (x1 : Vec F S1x128x256 .bf16) (x2 : Vec F S1x256 .f32) (xs : Vec F S2000x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 xs x0 x1) x2) ∗ owns (c : Thread nD τ) arg6 fullShare (k0_pay2 xs x0 x1)) -∗ K ⟨⟩))
      ⊢ wp frame (wpE (defs₀ (F := F)) Variants.none c none) E (cc0__cheb_linear_kernel i arg2 harg2 arg3 harg3 arg4 harg4 arg5 harg5 arg6 harg6) K := by
  simp only [cc0__cheb_linear_kernel_eq_skeleton]; unfold cc0__cheb_linear_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hz | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.mem_cons.mpr (Or.inl rfl), View.mem_set_unit_zero zeros2 inb_S2000x256_S2000x256_0_0 y⟩)]
    rw [View.canon_cons_unit_zero zeros2]
    rw [View.readCov_unit_zero _ zeros2]
    simp only [View.readAt_eq_ld, View.ld_unit_zero (S := S2000x256) zeros2, View.ld_unit_zero (S := S1x256) zeros2, View.ld_unit_zero (S := S1x2000x128) zeros3, View.ld_unit_zero (S := S1x128x256) zeros3]
  iexists _; isplitr
  swap; · iexact HS
  ipureintro
  sl_unfold_words
  rw [View.read_writes_eq_canon _ _ _ (fun y => ⟨_, List.mem_cons.mpr (Or.inl rfl), View.mem_set_unit_zero zeros2 inb_S2000x256_S2000x256_0_0 y⟩)]
  rw [View.canon_cons_unit_zero zeros2]
  simp only [View.readAt_eq_ld, View.ld_unit_zero (S := S2000x256) zeros2, View.ld_unit_zero (S := S1x2000x128) zeros3, View.ld_unit_zero (S := S1x128x256) zeros3]

end Cert.KernelIdeal.Hand

end
-- ==== Proof.KI.Body0.lean ====
import proofs.«147161_j55284819034171_1_alg».proof.Proof.KI.Body0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks, the accumulation, the proof data -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the scratch accumulator holds after the body at point `n`: the running sum of the tile's products,
    started afresh from zero at each tile's first point. -/
def acc0 (c : Dev nD) : (n : ℕ) → n < cfg0.N → Vec F S2000x256 .f32
  | 0, hn => k0_pay2 (k0_pay1 (F := F)) (blk0 V c 0 ⟨0, hn⟩) (blk0 V c 1 ⟨0, hn⟩)
  | n + 1, hn =>
    if (n + 1) % 3 = 0 then k0_pay2 (k0_pay1 (F := F)) (blk0 V c 0 ⟨n + 1, hn⟩) (blk0 V c 1 ⟨n + 1, hn⟩)
    else k0_pay2 (acc0 c n (Nat.lt_of_succ_lt hn)) (blk0 V c 0 ⟨n + 1, hn⟩) (blk0 V c 1 ⟨n + 1, hn⟩)

/-- At a tile's first point the sum starts from zero. -/
theorem acc0_reset (c : Dev nD) (t : Fin cfg0.N) (h : t.val % 3 = 0) :
    acc0 V c t.val t.isLt = k0_pay2 (k0_pay1 (F := F)) (blk0 V c 0 t) (blk0 V c 1 t) := by
  obtain ⟨n, hn⟩ := t
  cases n with
  | zero => rfl
  | succ n => exact (if_pos h).trans rfl

/-- At any other point it continues from what the point before left. -/
theorem acc0_step (c : Dev nD) (t : Fin cfg0.N) (h : ¬ t.val % 3 = 0) :
    acc0 V c t.val t.isLt = k0_pay2 (acc0 V c (t.val - 1) (Nat.lt_of_le_of_lt (Nat.sub_le _ _) t.isLt)) (blk0 V c 0 t) (blk0 V c 1 t) := by
  obtain ⟨n, hn⟩ := t
  cases n with
  | zero => exact absurd (Nat.zero_mod _) h
  | succ n => exact (if_neg h).trans rfl

/-- The output buffer after the body at a point where it is stored (the tile's last point): the accumulated sum
    plus the bias row, clamped below at zero; a placeholder elsewhere (the window is idle there and never consulted). -/
def out0 (c : Dev nD) (t : Fin cfg0.N) : Vec F S2000x256 .f32 := k0_pay3 (acc0 V c t.val t.isLt) (blk0 V c 2 t)

/-- A scoped buffer of the core, whole, at some contents. -/
abbrev anyBuf0 (c : Dev nD) (b : Ref sig .tc) : sProp 𝕄 :=
  iprop(∃ f : Buf (Elt F) ((c : Thread nD τ).loc b), ((c : Thread nD τ).loc b) ↦{fullShare} f)

/-- The region invariant before position `n`: before the first point what the launch hands the region; afterwards
    the accumulator at the sum the point before left, the core's other scoped buffers that are no staging buffer
    of this region at anything, and the generator register at some state. -/
def Phi0 (c : Dev nD) : (n : ℕ) → n ≤ cfg0.N → sProp 𝕄
  | 0, _ => Pipeline.ΦA spec0 c
  | n + 1, hn => iprop(iprop(owns (c : Thread nD τ) (Memref.whole cc0_scratch0) fullShare (acc0 V c n hn) ∗ anyBuf0 (F := F) c cc1_stg0_0 ∗ anyBuf0 (F := F) c cc1_stg0_1 ∗ anyBuf0 (F := F) c cc1_stg1_0 ∗ anyBuf0 (F := F) c cc1_stg1_1 ∗ anyBuf0 (F := F) c cc1_stg2_0 ∗ anyBuf0 (F := F) c cc1_stg3_0 ∗ anyBuf0 (F := F) c cc1_stg3_1 ∗ anyBuf0 (F := F) c cc1_scratch0) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) (Memref.whole cc0_scratch0) fullShare (acc0 V c n hn) ∗ anyBuf0 (F := F) c cc1_stg0_0 ∗ anyBuf0 (F := F) c cc1_stg0_1 ∗ anyBuf0 (F := F) c cc1_stg1_0 ∗ anyBuf0 (F := F) c cc1_stg1_1 ∗ anyBuf0 (F := F) c cc1_stg2_0 ∗ anyBuf0 (F := F) c cc1_stg3_0 ∗ anyBuf0 (F := F) c cc1_stg3_1 ∗ anyBuf0 (F := F) c cc1_scratch0) ∗ (∃ r, prngReg c r)) := rfl

theorem Phi0_pos (c : Dev nD) (n : ℕ) (h : n ≤ cfg0.N) (hz : n ≠ 0) :
    Phi0 V c n h = iprop(iprop(owns (c : Thread nD τ) (Memref.whole cc0_scratch0) fullShare (acc0 V c (n - 1) (by omega)) ∗ anyBuf0 (F := F) c cc1_stg0_0 ∗ anyBuf0 (F := F) c cc1_stg0_1 ∗ anyBuf0 (F := F) c cc1_stg1_0 ∗ anyBuf0 (F := F) c cc1_stg1_1 ∗ anyBuf0 (F := F) c cc1_stg2_0 ∗ anyBuf0 (F := F) c cc1_stg3_0 ∗ anyBuf0 (F := F) c cc1_stg3_1 ∗ anyBuf0 (F := F) c cc1_scratch0) ∗ (∃ r, prngReg c r)) := by
  cases n with
  | zero => exact absurd rfl hz
  | succ n => rfl

/-- What the launch hands the region, with the accumulator as a memref owned at some contents. -/
theorem PhiA0_eq (c : Dev nD) :
    (Pipeline.ΦA spec0 c : sProp 𝕄)
      = iprop(iprop((∃ d, owns (c : Thread nD τ) (Memref.whole cc0_scratch0) fullShare d) ∗ anyBuf0 (F := F) c cc1_stg0_0 ∗ anyBuf0 (F := F) c cc1_stg0_1 ∗ anyBuf0 (F := F) c cc1_stg1_0 ∗ anyBuf0 (F := F) c cc1_stg1_1 ∗ anyBuf0 (F := F) c cc1_stg2_0 ∗ anyBuf0 (F := F) c cc1_stg3_0 ∗ anyBuf0 (F := F) c cc1_stg3_1 ∗ anyBuf0 (F := F) c cc1_scratch0) ∗ (∃ r, prngReg c r)) := by
  unfold Pipeline.ΦA; rw [scopedRest0_eq]; simp only [owns_whole]; try rfl

/-- The proof data of the region on core `c`: the arrays as the region finds them; after the body at a point each
    input's buffer at its block and the output's at `out0`; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => out0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = out0 V c t := by dsimp only [dat0]

/-- The invariant at a point's start, restated at the point's position. -/
theorem Phi0_castSucc (c : Dev nD) (t : Fin cfg0.N) :
    (dat0 V c).Φ t.castSucc = Phi0 V c t.val (Nat.le_of_lt t.isLt) := by
  dsimp only [dat0]; simp only [Fin.coe_castSucc]

/-! ## The input windows' buffers: each holds its block at every point, fetched there or not -/

theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [A_eq0]; try rfl) t d).trans
    (by unfold Dat.fetched Dat.blockOf blk0; rw [A_eq0]; try rfl)

theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [A_eq0]; try rfl) t d).trans
    (by unfold Dat.fetched Dat.blockOf blk0; rw [A_eq0]; try rfl)

theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [A_eq0]; try rfl) t d).trans
    (by unfold Dat.fetched Dat.blockOf blk0; rw [A_eq0]; try rfl)

/-! ## Where the output window is idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- The output window is idle except at a tile's last point, -/
theorem idleAt0_3 : ∀ t : Fin cfg0.N, ¬ t.val % 3 = 2 → cfg0.idle 3 (grid0.coords t) = true := by decide +kernel
theorem liveAt0_3 : ∀ t : Fin cfg0.N, t.val % 3 = 2 → cfg0.idle 3 (grid0.coords t) = false := by decide +kernel
/-- and is written back only there. -/
theorem noFlush0_3 (t : Fin cfg0.N) (h : ¬ t.val % 3 = 2) : (cfg0.win 3).flush t = false :=
  Bool.eq_false_iff.mpr fun hf => h ((flush0_3 t).mp hf)

/-! ## The body obligation, at a generic point -/

/-- Each window's current staging memref at point `t`, spelled as the pipeline passes it. -/
abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point: the inputs' memrefs hold their blocks; the position modulo three says which of the three
    control cases the point is in; the invariant hands the body the accumulator at what the point before left (at
    anything at a tile's first point) and takes it back at this point's sum; at a tile's last point the output's
    buffer is left at `out0`, elsewhere it is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 3 = 0
  · have h2 : ¬ t.val % 3 = 2 := by omega
    rw [Dat.leavesExact_idle (dat0 V c) 3 t (idleAt0_3 t h2) (noFlush0_3 t h2)]
    rw [acc0_reset V c t h0]
    by_cases hz : t.val = 0
    · rw [Phi0_castSucc V c t, Phi0_zero V c _ _ hz, PhiA0_eq]
      iintro ⟨⟨⟨HS, HR⟩, Hg⟩, Ho, ⟨%d0, H0⟩, ⟨%d1, H1⟩, ⟨%d2, H2⟩, ⟨%d3, H3⟩⟩
      iapply (run0_A c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) ((hcondz0 t).mpr h0) (fun h => h2 ((hcondl0 t).mp h)) (blk0 V c 0 t) (blk0 V c 1 t) (blk0 V c 2 t) ((dat0 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]
          · iexact HS
          iexact HR
        iexact Hg
      isplitl [Ho]; · iexact Ho
      isplitl [H0]; · iexact H0
      isplitl [H1]; · iexact H1
      isplitl [H2]; · iexact H2
      iexists d3; iexact H3
    · rw [Phi0_castSucc V c t, Phi0_pos V c _ _ hz]
      iintro ⟨⟨⟨HS, HR⟩, Hg⟩, Ho, ⟨%d0, H0⟩, ⟨%d1, H1⟩, ⟨%d2, H2⟩, ⟨%d3, H3⟩⟩
      iapply (run0_A c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) ((hcondz0 t).mpr h0) (fun h => h2 ((hcondl0 t).mp h)) (blk0 V c 0 t) (blk0 V c 1 t) (blk0 V c 2 t) ((dat0 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]
          · iexact HS
          iexact HR
        iexact Hg
      isplitl [Ho]; · iexact Ho
      isplitl [H0]; · iexact H0
      isplitl [H1]; · iexact H1
      isplitl [H2]; · iexact H2
      iexists d3; iexact H3
  · have hz : t.val ≠ 0 := fun e => h0 (by rw [e])
    by_cases h2 : t.val % 3 = 2
    · rw [show (dat0 V c).leavesExact 3 t = owns (c : Thread nD τ) (ms0_3 t) fullShare ((dat0 V c).after 3 t) from by
        unfold Dat.leavesExact; rw [liveAt0_3 t h2], after0_3]
      unfold out0
      rw [acc0_step V c t h0]
      rw [Phi0_castSucc V c t, Phi0_pos V c _ _ hz]
      iintro ⟨⟨⟨HS, HR⟩, Hg⟩, Ho, ⟨%d0, H0⟩, ⟨%d1, H1⟩, ⟨%d2, H2⟩, ⟨%d3, H3⟩⟩
      iapply (run0_C c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (fun h => h0 ((hcondz0 t).mp h)) ((hcondl0 t).mpr h2) (blk0 V c 0 t) (blk0 V c 1 t) (blk0 V c 2 t) (acc0 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]
          · iexact HS
          iexact HR
        iexact Hg
      isplitl [Ho]; · iexact Ho
      isplitl [H0]; · iexact H0
      isplitl [H1]; · iexact H1
      isplitl [H2]; · iexact H2
      iexact H3
    · rw [Dat.leavesExact_idle (dat0 V c) 3 t (idleAt0_3 t h2) (noFlush0_3 t h2)]
      rw [acc0_step V c t h0]
      rw [Phi0_castSucc V c t, Phi0_pos V c _ _ hz]
      iintro ⟨⟨⟨HS, HR⟩, Hg⟩, Ho, ⟨%d0, H0⟩, ⟨%d1, H1⟩, ⟨%d2, H2⟩, ⟨%d3, H3⟩⟩
      iapply (run0_B c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (fun h => h0 ((hcondz0 t).mp h)) (fun h => h2 ((hcondl0 t).mp h)) (blk0 V c 0 t) (blk0 V c 1 t) (blk0 V c 2 t) ((dat0 V c).before 3 t d3) (acc0 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]
          · iexact HS
          iexact HR
        iexact Hg
      isplitl [Ho]; · iexact Ho
      isplitl [H0]; · iexact H0
      isplitl [H1]; · iexact H1
      isplitl [H2]; · iexact H2
      iexists d3; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After any point the invariant gives back what the launch handed over: the accumulator's named contents are forgotten. -/
theorem Phi0_out (c : Dev nD) (t : Fin (cfg0.N + 1)) (ht : t.val ≠ 0) : (dat0 V c).Φ t ⊢ Pipeline.ΦA spec0 c := by
  rw [show (dat0 V c).Φ t = Phi0 V c t.val (Nat.le_of_lt_succ t.isLt) from rfl, Phi0_pos V c _ _ ht, PhiA0_eq]
  iintro ⟨⟨HS, HR⟩, Hg⟩
  isplitl [HS HR]
  · isplitl [HS]
    · iexists _; iexact HS
    iexact HR
  iexact Hg

/-- The same after the last point. -/
theorem hout0 (c : Dev nD) : (dat0 V c).Φ (Fin.last cfg0.N) ⊢ Pipeline.ΦA spec0 c :=
  Phi0_out V c _ (by rw [Fin.val_last]; have : cfg0.N = 45 := N_0; omega)

end Cert.KernelIdeal.Hand

end
-- ==== Proof.KI.Body1A.lean ====
import proofs.«147161_j55284819034171_1_alg».proof.Proof.KI.Body0A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, in closed form over the grid -/

/-- The first `scf.if`'s condition (the tile's first point: the inner coordinate is zero), from the grid coordinates. -/
abbrev condz1 (i : grid1.Coords) : Prop :=
  (Scalar.cmpi .ne (Scalar.extui (Scalar.cmpi .eq (BitVec.ofNat 32 (i 1).val) 0#32)) 0#32) = 1#1

/-- It holds exactly at the points whose position is a multiple of three. -/
theorem hcondz1 : ∀ t : Fin cfg1.N, condz1 (grid1.coords t) ↔ t.val % 3 = 0 :=
  (by decide +kernel : ∀ t : Fin grid1.N, condz1 (grid1.coords t) ↔ t.val % 3 = 0)

/-- The second `scf.if`'s condition (the tile's last point: the inner coordinate is two). -/
abbrev condl1 (i : grid1.Coords) : Prop := k1_cond2 i = 1#1

/-- It holds exactly at the points whose position is two modulo three. -/
theorem hcondl1 : ∀ t : Fin cfg1.N, condl1 (grid1.coords t) ↔ t.val % 3 = 2 :=
  (by decide +kernel : ∀ t : Fin grid1.N, condl1 (grid1.coords t) ↔ t.val % 3 = 2)

/-! ## The body at a tile's first point -/

set_option maxHeartbeats 1000000 in
/-- On whole memrefs, the three inputs at `x0 x1 x2`, the output at `xo`, the accumulator at anything: at a point
    where the first condition holds and the second does not, the body zeroes the accumulator, adds the product of
    the two blocks, and leaves everything else as it was. -/
theorem run1_A (c : Dev nD) (E : Set ℕ) (i : grid1.Coords) (arg2 : Memref sig .tc .vmem S1x2000x256 .bf16) (harg2 : arg2.IsWhole) (arg3 : Memref sig .tc .vmem S1x256x128 .bf16) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole)
    (hz : condz1 i) (hl : ¬ condl1 i)
    (x0 : Vec F S1x2000x256 .bf16) (x1 : Vec F S1x256x128 .bf16) (x2 : Vec F S1x128 .f32) (xo : Vec F S2000x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (k1_pay2 (k1_pay1 (F := F)) x0 x1)) -∗ K ⟨⟩))
      ⊢ wp frame (wpE (defs₀ (F := F)) Variants.none c none) E (cc1__cheb_linear_kernel i arg2 harg2 arg3 harg3 arg4 harg4 arg5 harg5 arg6 harg6) K := by
  simp only [cc1__cheb_linear_kernel_eq_skeleton]; unfold cc1__cheb_linear_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hz | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (fun y => ⟨_, List.mem_cons.mpr (Or.inl rfl), View.mem_set_unit_zero zeros2 inb_S2000x128_S2000x128_0_0 y⟩)]
  rw [View.canon_cons_unit_zero zeros2]
  sl_unfold_words
  rw [View.readCov_unit_zero _ zeros2]
  simp only [View.readAt_eq_ld, View.ld_unit_zero (S := S1x2000x256) zeros3, View.ld_unit_zero (S := S1x256x128) zeros3]

end Cert.KernelIdeal.Hand

end
-- ==== Proof.KI.Body1B.lean ====
import proofs.«147161_j55284819034171_1_alg».proof.Proof.KI.Body1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at a tile's middle point -/

set_option maxHeartbeats 1000000 in
/-- On whole memrefs, the three inputs at `x0 x1 x2`, the output at `xo`, the accumulator at `xs`: at a point
    where neither condition holds, the body adds the product of the two blocks to the accumulator and leaves
    everything else as it was. -/
theorem run1_B (c : Dev nD) (E : Set ℕ) (i : grid1.Coords) (arg2 : Memref sig .tc .vmem S1x2000x256 .bf16) (harg2 : arg2.IsWhole) (arg3 : Memref sig .tc .vmem S1x256x128 .bf16) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole)
    (hz : ¬ condz1 i) (hl : ¬ condl1 i)
    (x0 : Vec F S1x2000x256 .bf16) (x1 : Vec F S1x256x128 .bf16) (x2 : Vec F S1x128 .f32) (xo : Vec F S2000x128 .f32) (xs : Vec F S2000x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (k1_pay2 xs x0 x1)) -∗ K ⟨⟩))
      ⊢ wp frame (wpE (defs₀ (F := F)) Variants.none c none) E (cc1__cheb_linear_kernel i arg2 harg2 arg3 harg3 arg4 harg4 arg5 harg5 arg6 harg6) K := by
  simp only [cc1__cheb_linear_kernel_eq_skeleton]; unfold cc1__cheb_linear_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hz | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_eq_canon _ _ _ (fun y => ⟨_, List.mem_cons.mpr (Or.inl rfl), View.mem_set_unit_zero zeros2 inb_S2000x128_S2000x128_0_0 y⟩)]
  rw [View.canon_cons_unit_zero zeros2]
  sl_unfold_words
  simp only [View.readAt_eq_ld, View.ld_unit_zero (S := S2000x128) zeros2, View.ld_unit_zero (S := S1x2000x256) zeros3, View.ld_unit_zero (S := S1x256x128) zeros3]

end Cert.KernelIdeal.Hand

end
-- ==== Proof.KI.Body1C.lean ====
import proofs.«147161_j55284819034171_1_alg».proof.Proof.KI.Body1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at a tile's last point -/

set_option maxHeartbeats 1000000 in
/-- On whole memrefs, the three inputs at `x0 x1 x2`, the output at anything, the accumulator at `xs`: at a point
    where the first condition fails and the second holds, the body adds the product of the two blocks to the
    accumulator, then stores into the output the accumulator plus the bias row. -/
theorem run1_C (c : Dev nD) (E : Set ℕ) (i : grid1.Coords) (arg2 : Memref sig .tc .vmem S1x2000x256 .bf16) (harg2 : arg2.IsWhole) (arg3 : Memref sig .tc .vmem S1x256x128 .bf16) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole)
    (hz : ¬ condz1 i) (hl : condl1 i)
    (x0 : Vec F S1x2000x256 .bf16) (x1 : Vec F S1x256x128 .bf16) (x2 : Vec F S1x128 .f32) (xs : Vec F S2000x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 xs x0 x1) x2) ∗ owns (c : Thread nD τ) arg6 fullShare (k1_pay2 xs x0 x1)) -∗ K ⟨⟩))
      ⊢ wp frame (wpE (defs₀ (F := F)) Variants.none c none) E (cc1__cheb_linear_kernel i arg2 harg2 arg3 harg3 arg4 harg4 arg5 harg5 arg6 harg6) K := by
  simp only [cc1__cheb_linear_kernel_eq_skeleton]; unfold cc1__cheb_linear_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hz | exact hl)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.mem_cons.mpr (Or.inl rfl), View.mem_set_unit_zero zeros2 inb_S2000x128_S2000x128_0_0 y⟩)]
    rw [View.canon_cons_unit_zero zeros2]
    rw [View.readCov_unit_zero _ zeros2]
    simp only [View.readAt_eq_ld, View.ld_unit_zero (S := S2000x128) zeros2, View.ld_unit_zero (S := S1x128) zeros2, View.ld_unit_zero (S := S1x2000x256) zeros3, View.ld_unit_zero (S := S1x256x128) zeros3]
  iexists _; isplitr
  swap; · iexact HS
  ipureintro
  sl_unfold_words
  rw [View.read_writes_eq_canon _ _ _ (fun y => ⟨_, List.mem_cons.mpr (Or.inl rfl), View.mem_set_unit_zero zeros2 inb_S2000x128_S2000x128_0_0 y⟩)]
  rw [View.canon_cons_unit_zero zeros2]
  simp only [View.readAt_eq_ld, View.ld_unit_zero (S := S2000x128) zeros2, View.ld_unit_zero (S := S1x2000x256) zeros3, View.ld_unit_zero (S := S1x256x128) zeros3]

end Cert.KernelIdeal.Hand

end
-- ==== Proof.KI.Body1.lean ====
import proofs.«147161_j55284819034171_1_alg».proof.Proof.KI.Body1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks, the accumulation, the proof data -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the scratch accumulator holds after the body at point `n`: the running sum of the tile's products,
    started afresh from zero at each tile's first point. -/
def acc1 (c : Dev nD) : (n : ℕ) → n < cfg1.N → Vec F S2000x128 .f32
  | 0, hn => k1_pay2 (k1_pay1 (F := F)) (blk1 V c 0 ⟨0, hn⟩) (blk1 V c 1 ⟨0, hn⟩)
  | n + 1, hn =>
    if (n + 1) % 3 = 0 then k1_pay2 (k1_pay1 (F := F)) (blk1 V c 0 ⟨n + 1, hn⟩) (blk1 V c 1 ⟨n + 1, hn⟩)
    else k1_pay2 (acc1 c n (Nat.lt_of_succ_lt hn)) (blk1 V c 0 ⟨n + 1, hn⟩) (blk1 V c 1 ⟨n + 1, hn⟩)

/-- At a tile's first point the sum starts from zero. -/
theorem acc1_reset (c : Dev nD) (t : Fin cfg1.N) (h : t.val % 3 = 0) :
    acc1 V c t.val t.isLt = k1_pay2 (k1_pay1 (F := F)) (blk1 V c 0 t) (blk1 V c 1 t) := by
  obtain ⟨n, hn⟩ := t
  cases n with
  | zero => rfl
  | succ n => exact (if_pos h).trans rfl

/-- At any other point it continues from what the point before left. -/
theorem acc1_step (c : Dev nD) (t : Fin cfg1.N) (h : ¬ t.val % 3 = 0) :
    acc1 V c t.val t.isLt = k1_pay2 (acc1 V c (t.val - 1) (Nat.lt_of_le_of_lt (Nat.sub_le _ _) t.isLt)) (blk1 V c 0 t) (blk1 V c 1 t) := by
  obtain ⟨n, hn⟩ := t
  cases n with
  | zero => exact absurd (Nat.zero_mod _) h
  | succ n => exact (if_neg h).trans rfl

/-- The output buffer after the body at a point where it is stored (the tile's last point): the accumulated sum
    plus the bias row; a placeholder elsewhere (the window is idle there and never consulted). -/
def out1 (c : Dev nD) (t : Fin cfg1.N) : Vec F S2000x128 .f32 := k1_pay3 (acc1 V c t.val t.isLt) (blk1 V c 2 t)

/-- A scoped buffer of the core, whole, at some contents. -/
abbrev anyBuf1 (c : Dev nD) (b : Ref sig .tc) : sProp 𝕄 :=
  iprop(∃ f : Buf (Elt F) ((c : Thread nD τ).loc b), ((c : Thread nD τ).loc b) ↦{fullShare} f)

/-- The region invariant before position `n`: before the first point what the launch hands the region; afterwards
    the accumulator at the sum the point before left, the core's other scoped buffers that are no staging buffer
    of this region at anything, and the generator register at some state. -/
def Phi1 (c : Dev nD) : (n : ℕ) → n ≤ cfg1.N → sProp 𝕄
  | 0, _ => Pipeline.ΦA spec1 c
  | n + 1, hn => iprop(iprop(anyBuf1 (F := F) c cc0_stg0_0 ∗ anyBuf1 (F := F) c cc0_stg0_1 ∗ anyBuf1 (F := F) c cc0_stg1_0 ∗ anyBuf1 (F := F) c cc0_stg1_1 ∗ anyBuf1 (F := F) c cc0_stg2_0 ∗ anyBuf1 (F := F) c cc0_stg3_0 ∗ anyBuf1 (F := F) c cc0_stg3_1 ∗ anyBuf1 (F := F) c cc0_scratch0 ∗ owns (c : Thread nD τ) (Memref.whole cc1_scratch0) fullShare (acc1 V c n hn)) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(anyBuf1 (F := F) c cc0_stg0_0 ∗ anyBuf1 (F := F) c cc0_stg0_1 ∗ anyBuf1 (F := F) c cc0_stg1_0 ∗ anyBuf1 (F := F) c cc0_stg1_1 ∗ anyBuf1 (F := F) c cc0_stg2_0 ∗ anyBuf1 (F := F) c cc0_stg3_0 ∗ anyBuf1 (F := F) c cc0_stg3_1 ∗ anyBuf1 (F := F) c cc0_scratch0 ∗ owns (c : Thread nD τ) (Memref.whole cc1_scratch0) fullShare (acc1 V c n hn)) ∗ (∃ r, prngReg c r)) := rfl

theorem Phi1_pos (c : Dev nD) (n : ℕ) (h : n ≤ cfg1.N) (hz : n ≠ 0) :
    Phi1 V c n h = iprop(iprop(anyBuf1 (F := F) c cc0_stg0_0 ∗ anyBuf1 (F := F) c cc0_stg0_1 ∗ anyBuf1 (F := F) c cc0_stg1_0 ∗ anyBuf1 (F := F) c cc0_stg1_1 ∗ anyBuf1 (F := F) c cc0_stg2_0 ∗ anyBuf1 (F := F) c cc0_stg3_0 ∗ anyBuf1 (F := F) c cc0_stg3_1 ∗ anyBuf1 (F := F) c cc0_scratch0 ∗ owns (c : Thread nD τ) (Memref.whole cc1_scratch0) fullShare (acc1 V c (n - 1) (by omega))) ∗ (∃ r, prngReg c r)) := by
  cases n with
  | zero => exact absurd rfl hz
  | succ n => rfl

/-- What the launch hands the region, with the accumulator as a memref owned at some contents. -/
theorem PhiA1_eq (c : Dev nD) :
    (Pipeline.ΦA spec1 c : sProp 𝕄)
      = iprop(iprop(anyBuf1 (F := F) c cc0_stg0_0 ∗ anyBuf1 (F := F) c cc0_stg0_1 ∗ anyBuf1 (F := F) c cc0_stg1_0 ∗ anyBuf1 (F := F) c cc0_stg1_1 ∗ anyBuf1 (F := F) c cc0_stg2_0 ∗ anyBuf1 (F := F) c cc0_stg3_0 ∗ anyBuf1 (F := F) c cc0_stg3_1 ∗ anyBuf1 (F := F) c cc0_scratch0 ∗ (∃ d, owns (c : Thread nD τ) (Memref.whole cc1_scratch0) fullShare d)) ∗ (∃ r, prngReg c r)) := by
  unfold Pipeline.ΦA; rw [scopedRest1_eq]; simp only [owns_whole]; try rfl

/-- The proof data of the region on core `c`: the arrays as the region finds them; after the body at a point each
    input's buffer at its block and the output's at `out1`; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => out1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = out1 V c t := by dsimp only [dat1]

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-! ## The input windows' buffers: each holds its block at every point, fetched there or not -/

theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A_eq1]; try rfl) t d).trans
    (by unfold Dat.fetched Dat.blockOf blk1; rw [A_eq1]; try rfl)

theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A_eq1]; try rfl) t d).trans
    (by unfold Dat.fetched Dat.blockOf blk1; rw [A_eq1]; try rfl)

theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [A_eq1]; try rfl) t d).trans
    (by unfold Dat.fetched Dat.blockOf blk1; rw [A_eq1]; try rfl)

/-! ## Where the output window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- The output window is idle except at a tile's last point, -/
theorem idleAt1_3 : ∀ t : Fin cfg1.N, ¬ t.val % 3 = 2 → cfg1.idle 3 (grid1.coords t) = true := by decide +kernel
theorem liveAt1_3 : ∀ t : Fin cfg1.N, t.val % 3 = 2 → cfg1.idle 3 (grid1.coords t) = false := by decide +kernel
/-- and is written back only there. -/
theorem noFlush1_3 (t : Fin cfg1.N) (h : ¬ t.val % 3 = 2) : (cfg1.win 3).flush t = false :=
  Bool.eq_false_iff.mpr fun hf => h ((flush1_3 t).mp hf)

/-! ## The body obligation, at a generic point -/

/-- Each window's current staging memref at point `t`, spelled as the pipeline passes it. -/
abbrev ms1_0 (t : Fin cfg1.N) := win1_0.stage (cfg1.slots t 0)
abbrev ms1_1 (t : Fin cfg1.N) := win1_1.stage (cfg1.slots t 1)
abbrev ms1_2 (t : Fin cfg1.N) := win1_2.stage (cfg1.slots t 2)
abbrev ms1_3 (t : Fin cfg1.N) := win1_3.stage (cfg1.slots t 3)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the inputs' memrefs hold their blocks; the position modulo three says which of the three
    control cases the point is in; the invariant hands the body the accumulator at what the point before left (at
    anything at a tile's first point) and takes it back at this point's sum; at a tile's last point the output's
    buffer is left at `out1`, elsewhere it is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 3 = 0
  · have h2 : ¬ t.val % 3 = 2 := by omega
    rw [Dat.leavesExact_idle (dat1 V c) 3 t (idleAt1_3 t h2) (noFlush1_3 t h2)]
    rw [acc1_reset V c t h0]
    by_cases hz : t.val = 0
    · rw [Phi1_castSucc V c t, Phi1_zero V c _ _ hz, PhiA1_eq]
      iintro ⟨⟨⟨R1, R2, R3, R4, R5, R6, R7, R8, HS⟩, Hg⟩, Ho, ⟨%d0, H0⟩, ⟨%d1, H1⟩, ⟨%d2, H2⟩, ⟨%d3, H3⟩⟩
      iapply (run1_A c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) ((hcondz1 t).mpr h0) (fun h => h2 ((hcondl1 t).mp h)) (blk1 V c 0 t) (blk1 V c 1 t) (blk1 V c 2 t) ((dat1 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [R1 R2 R3 R4 R5 R6 R7 R8 HS Hg]
      · isplitl [R1 R2 R3 R4 R5 R6 R7 R8 HS]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        iexact Hg
      isplitl [Ho]; · iexact Ho
      isplitl [H0]; · iexact H0
      isplitl [H1]; · iexact H1
      isplitl [H2]; · iexact H2
      iexists d3; iexact H3
    · rw [Phi1_castSucc V c t, Phi1_pos V c _ _ hz]
      iintro ⟨⟨⟨R1, R2, R3, R4, R5, R6, R7, R8, HS⟩, Hg⟩, Ho, ⟨%d0, H0⟩, ⟨%d1, H1⟩, ⟨%d2, H2⟩, ⟨%d3, H3⟩⟩
      iapply (run1_A c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) ((hcondz1 t).mpr h0) (fun h => h2 ((hcondl1 t).mp h)) (blk1 V c 0 t) (blk1 V c 1 t) (blk1 V c 2 t) ((dat1 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [R1 R2 R3 R4 R5 R6 R7 R8 HS Hg]
      · isplitl [R1 R2 R3 R4 R5 R6 R7 R8 HS]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        iexact Hg
      isplitl [Ho]; · iexact Ho
      isplitl [H0]; · iexact H0
      isplitl [H1]; · iexact H1
      isplitl [H2]; · iexact H2
      iexists d3; iexact H3
  · have hz : t.val ≠ 0 := fun e => h0 (by rw [e])
    by_cases h2 : t.val % 3 = 2
    · rw [show (dat1 V c).leavesExact 3 t = owns (c : Thread nD τ) (ms1_3 t) fullShare ((dat1 V c).after 3 t) from by
        unfold Dat.leavesExact; rw [liveAt1_3 t h2], after1_3]
      unfold out1
      rw [acc1_step V c t h0]
      rw [Phi1_castSucc V c t, Phi1_pos V c _ _ hz]
      iintro ⟨⟨⟨R1, R2, R3, R4, R5, R6, R7, R8, HS⟩, Hg⟩, Ho, ⟨%d0, H0⟩, ⟨%d1, H1⟩, ⟨%d2, H2⟩, ⟨%d3, H3⟩⟩
      iapply (run1_C c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) (fun h => h0 ((hcondz1 t).mp h)) ((hcondl1 t).mpr h2) (blk1 V c 0 t) (blk1 V c 1 t) (blk1 V c 2 t) (acc1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [R1 R2 R3 R4 R5 R6 R7 R8 HS Hg]
      · isplitl [R1 R2 R3 R4 R5 R6 R7 R8 HS]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t h2) (noFlush1_3 t h2)]
      rw [acc1_step V c t h0]
      rw [Phi1_castSucc V c t, Phi1_pos V c _ _ hz]
      iintro ⟨⟨⟨R1, R2, R3, R4, R5, R6, R7, R8, HS⟩, Hg⟩, Ho, ⟨%d0, H0⟩, ⟨%d1, H1⟩, ⟨%d2, H2⟩, ⟨%d3, H3⟩⟩
      iapply (run1_B c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _) (fun h => h0 ((hcondz1 t).mp h)) (fun h => h2 ((hcondl1 t).mp h)) (blk1 V c 0 t) (blk1 V c 1 t) (blk1 V c 2 t) ((dat1 V c).before 3 t d3) (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [R1 R2 R3 R4 R5 R6 R7 R8 HS Hg]
      · isplitl [R1 R2 R3 R4 R5 R6 R7 R8 HS]
        · isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          iexact HS
        iexact Hg
      isplitl [Ho]; · iexact Ho
      isplitl [H0]; · iexact H0
      isplitl [H1]; · iexact H1
      isplitl [H2]; · iexact H2
      iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After any point the invariant gives back what the launch handed over: the accumulator's named contents are forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨⟨R1, R2, R3, R4, R5, R6, R7, R8, HS⟩, Hg⟩
  isplitl [R1 R2 R3 R4 R5 R6 R7 R8 HS]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexists _; iexact HS
  iexact Hg

/-- The same after the last point. -/
theorem hout1 (c : Dev nD) : (dat1 V c).Φ (Fin.last cfg1.N) ⊢ Pipeline.ΦA spec1 c :=
  Phi1_out V c _ (by rw [Fin.val_last]; have : cfg1.N = 45 := N_1; omega)

end Cert.KernelIdeal.Hand

end
-- ==== Proof.KI.Run.lean ====
import proofs.«147161_j55284819034171_1_alg».proof.Proof.KI.Body0
import proofs.«147161_j55284819034171_1_alg».proof.Proof.KI.Body1
import proofs.«147161_j55284819034171_1_alg».proof.Proof.Gen.KernelIdeal.Regions
import Idealize.ShloMosaic.Lib.Pipeline.RegionsLoop

/-!
# The run of @main and its two frame theorems

@main is seven stretches of host operations, the first layer (pipeline 0), one more stretch, and the second layer
(pipeline 1). Between two items every unscoped buffer of a core is held at a known valuation: the launch contents, then
what each stretch makes of the one before, then the same with `main_v68` set to what the first layer leaves, then with
`main_v105` set to what the second layer leaves. This file names those two results (`res0`, `res1`), gives each layer
as a segment over these valuations, chains the ten segments, and reads the result and the six arguments off the last
valuation.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The contents of the two result arrays -/

/-- What the first layer leaves in `main_v68`: its output window's array after the write-backs of all 45 points, the
    layer entered at the contents the host operations before it leave. -/
def res0 (c : Dev nD) : Buf (Elt F) ((c : Thread nD τ).loc main_v68) :=
  (dat0 (fun c b => Gen.V7 m c b) c).arrAt 3 cfg0.N

/-- The contents the regions leave, with only the first layer's result set: `main_v68` at `res0`, every other
    buffer as the first layer finds it. -/
def outs0 : Gen.Outs (F := F) := fun _ r c => Function.update (Gen.V7 m c) main_v68 (res0 m c) r

/-- What the second layer leaves in `main_v105`: its output window's array after the write-backs of all 45 points,
    the layer entered at the contents the host operations between the layers make of the first layer's result. -/
def res1 (c : Dev nD) : Buf (Elt F) ((c : Thread nD τ).loc main_v105) :=
  (dat1 (fun c b => Gen.V9 m (outs0 m) c b) c).arrAt 3 cfg1.N

/-- The contents the regions leave: after the first layer as `outs0`, after the second `main_v105` at `res1`. -/
def outs : Gen.Outs (F := F) := fun J r c =>
  if J = 8 then outs0 m J r c else Function.update (Gen.V9 m (outs0 m) c) main_v105 (res1 m c) r

theorem outs0_v68 (J : ℕ) (c : Dev nD) : outs0 m J main_v68 c = res0 m c := by
  unfold outs0; exact Function.update_self _ _ _

theorem outs_8 (r : Ref sig .tc) (c : Dev nD) : outs m 8 r c = outs0 m 8 r c := by
  unfold outs; rw [if_pos rfl]

theorem outs_10_v105 (c : Dev nD) : outs m 10 main_v105 c = res1 m c := by
  unfold outs; rw [if_neg (by decide)]; exact Function.update_self _ _ _

/-- After the first layer the buffers are the same whichever of the two families is read: only `main_v68` is. -/
theorem V8_outs (c : Dev nD) : Gen.V8 m (outs m) c = Gen.V8 m (outs0 m) c := by
  unfold Gen.V8; rw [outs_8]

theorem V9_outs (c : Dev nD) : Gen.V9 m (outs m) c = Gen.V9 m (outs0 m) c := by
  unfold Gen.V9; rw [V8_outs]

/-- After the first layer `main_v68` holds its result, -/
theorem V8_v68 (c : Dev nD) : Gen.V8 m (outs0 m) c main_v68 = res0 m c := by
  unfold Gen.V8; rw [Function.update_self, outs0_v68]

/-- and every other buffer what it held before. -/
theorem V8_other (c : Dev nD) (r : Ref sig .tc) (h : r ≠ main_v68) : Gen.V8 m (outs0 m) c r = Gen.V7 m c r :=
  Gen.V8_of m (outs0 m) c r (by simpa using h)

/-- After the second layer `main_v105` holds its result. -/
theorem V10_v105 (c : Dev nD) : Gen.V10 m (outs m) c main_v105 = res1 m c := by
  unfold Gen.V10; rw [Function.update_self, outs_10_v105]

/-! # The proof data of the two layers and what rides beside the buffers -/

/-- The buffers as the first layer finds them, and as the second does. -/
local notation "Vin0" => (fun (c : Dev nD) (b : Ref sig Kind.tc) => Gen.V7 m c b)
local notation "Vin1" => (fun (c : Dev nD) (b : Ref sig Kind.tc) => Gen.V9 m (outs0 m) c b)

/-- Each layer's proof data at the contents it is entered from. -/
def pdats : (p : Fin 2) → (c : Dev nD) → Dat τ (Elt F) Unit ℕ (UR sig nD τ) ℕ (Pipeline.pin (pcfgs (F := F)) Gen.adm p) c
  | ⟨0, _⟩ => fun c => dat0 Vin0 c
  | ⟨1, _⟩ => fun c => dat1 Vin1 c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the core's generator register at some state and the core
    owing nothing. -/
abbrev R (c : Dev nD) : sProp 𝕄 := iprop((∃ r, prngReg c r) ∗ ∃ W, owes (c : Thread nD τ) (0 : CellTallies nD τ sig Unit) W)

/-- The same at each of the three stretches between the layers. -/
abbrev E : Fin 3 → Dev nD → sProp 𝕄 := fun _ c => R (F := F) c

/-! # The first layer as a segment -/

theorem arrRef0_0 : Pipeline.arrRef spec0 0 = main_v65 := rfl
theorem arrRef0_1 : Pipeline.arrRef spec0 1 = main_v66 := rfl
theorem arrRef0_2 : Pipeline.arrRef spec0 2 = main_v67 := rfl
theorem arrRef0_3 : Pipeline.arrRef spec0 3 = main_v68 := rfl

/-- At the first layer's exit each of its arrays holds what the pipeline leaves: an input window's array is never
    written back and is none of the buffers the layer changes; the output window's array is `main_v68`, at `res0`. -/
theorem exit0 (c : Dev nD) : ∀ w : Fin cfg0.W, (dat0 Vin0 c).arrAt w cfg0.N = Gen.V8 m (outs m) c (Pipeline.arrRef spec0 w)
  | 0 => ((dat0 Vin0 c).arrAt_in 0 rfl cfg0.N).trans ((A_eq0 Vin0 c 0).trans
      ((V8_other m c (Pipeline.arrRef spec0 0) (by decide)).symm.trans (congrFun (V8_outs m c).symm _)))
  | 1 => ((dat0 Vin0 c).arrAt_in 1 rfl cfg0.N).trans ((A_eq0 Vin0 c 1).trans
      ((V8_other m c (Pipeline.arrRef spec0 1) (by decide)).symm.trans (congrFun (V8_outs m c).symm _)))
  | 2 => ((dat0 Vin0 c).arrAt_in 2 rfl cfg0.N).trans ((A_eq0 Vin0 c 2).trans
      ((V8_other m c (Pipeline.arrRef spec0 2) (by decide)).symm.trans (congrFun (V8_outs m c).symm _)))
  | 3 => (V8_v68 m c).symm.trans (congrFun (V8_outs m c).symm _)
  | ⟨_ + 4, h⟩ => absurd h (Nat.not_lt.2 (Nat.le_add_left _ _))

/-- and every buffer that is none of its arrays what it held at entry. -/
theorem rest0 (c : Dev nD) : ∀ b, b ∉ Finset.univ.image (Pipeline.arrRef spec0) → Gen.V8 m (outs m) c b = Gen.V7 m c b :=
  fun b hb => (congrFun (V8_outs m c) _).trans
    (V8_other m c b fun e => hb (Finset.mem_image.mpr ⟨3, Finset.mem_univ _, e.symm⟩))

-- the library's lemmas are stated over the pinned configuration of a pipeline; unifying it with the printed one unfolds
-- plain definitions in a metavariable's type
set_option backward.isDefEq.respectTransparency.types false in
/-- Layer 0 as a segment of the run: its arrays are taken out of the unscoped buffers at entry and put back at the
    exit contents; the generator register goes into the invariant and comes back; nothing is owed; the kernel has
    no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 Vin0 c).loose
  hwaits := Pipeline.hwaits_of_owed_zero _ _ _ _ L lv 0 fun _ _ => rfl
  pre c := iprop(StableHlo.held (c : Thread nD τ) (Pipeline.ucRefs τ sig) (Gen.V7 m c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vin0 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 Vin0 c)
    unfold Pipeline.ΦA
    iintro ⟨Hp, -, Hr⟩
    isplitl [Hr]; · iexact Hr
    iexact Hp
  hout c := by
    rw [Pipeline.ownSems0_none]
    refine BIBase.Entails.trans (hout0 Vin0 c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vin0 c) (fun b => Gen.V8 m (outs m) c b) ((pdats m 0 c).arrAt · cfg0.N) (exit0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The second layer as a segment -/

/-- At the second layer's exit each of its arrays holds what the pipeline leaves: an input window's array is never
    written back and is none of the buffers the layer changes; the output window's array is `main_v105`, at `res1`. -/
theorem exit1 (c : Dev nD) : ∀ w : Fin cfg1.W, (dat1 Vin1 c).arrAt w cfg1.N = Gen.V10 m (outs m) c (Pipeline.arrRef spec1 w)
  | 0 => ((dat1 Vin1 c).arrAt_in 0 rfl cfg1.N).trans ((A_eq1 Vin1 c 0).trans
      ((congrFun (V9_outs m c).symm _).trans (Gen.V10_of m (outs m) c (Pipeline.arrRef spec1 0) (by decide)).symm))
  | 1 => ((dat1 Vin1 c).arrAt_in 1 rfl cfg1.N).trans ((A_eq1 Vin1 c 1).trans
      ((congrFun (V9_outs m c).symm _).trans (Gen.V10_of m (outs m) c (Pipeline.arrRef spec1 1) (by decide)).symm))
  | 2 => ((dat1 Vin1 c).arrAt_in 2 rfl cfg1.N).trans ((A_eq1 Vin1 c 2).trans
      ((congrFun (V9_outs m c).symm _).trans (Gen.V10_of m (outs m) c (Pipeline.arrRef spec1 2) (by decide)).symm))
  | 3 => (V10_v105 m c).symm
  | ⟨_ + 4, h⟩ => absurd h (Nat.not_lt.2 (Nat.le_add_left _ _))

/-- and every buffer that is none of its arrays what it held at entry. -/
theorem rest1 (c : Dev nD) : ∀ b, b ∉ Finset.univ.image (Pipeline.arrRef spec1) → Gen.V10 m (outs m) c b = Gen.V9 m (outs0 m) c b :=
  fun b hb => (Gen.V10_of m (outs m) c b
      (by simpa using fun e : b = main_v105 => hb (Finset.mem_image.mpr ⟨3, Finset.mem_univ _, e.symm⟩))).trans
    (congrFun (V9_outs m c) _)

-- the library's lemmas are stated over the pinned configuration of a pipeline; unifying it with the printed one unfolds
-- plain definitions in a metavariable's type
set_option backward.isDefEq.respectTransparency.types false in
/-- Layer 1 as a segment of the run: its arrays are taken out of the unscoped buffers at entry and put back at the
    exit contents; the generator register goes into the invariant and comes back; nothing is owed; the kernel has
    no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 Vin1 c).loose
  hwaits := Pipeline.hwaits_of_owed_zero _ _ _ _ L lv 1 fun _ _ => rfl
  pre c := iprop(StableHlo.held (c : Thread nD τ) (Pipeline.ucRefs τ sig) (Gen.V9 m (outs0 m) c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vin1 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 Vin1 c)
    unfold Pipeline.ΦA
    iintro ⟨Hp, -, Hr⟩
    isplitl [Hr]; · iexact Hr
    iexact Hp
  hout c := by
    rw [Pipeline.ownSems0_none]
    refine BIBase.Entails.trans (hout1 Vin1 c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vin1 c) (fun b => Gen.V10 m (outs m) c b) ((pdats m 1 c).arrAt · cfg1.N) (exit1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The run -/

/-- @main's ten items as segments: the host stretches from the contents each finds, the two layers by `reg0`, `reg1`. -/
abbrev segs (c : Dev nD) : List (Pipeline.Seg (pcfgs (F := F)) Gen.adm (pdats m) () defs₀ 𝒱₀ L lv) :=
  Gen.segs m (outs m) 𝒱₀ L lv E () (pdats m) (reg0 m) (reg1 m) c

-- the launch theorem's implicit arguments are found by unifying its conclusion with this one, which takes unfolding plain
-- definitions in a metavariable's type
set_option backward.isDefEq.respectTransparency.types false in
/-- THE RUN. From any memory with zero counters every weakly fair execution of @main terminates, and every final
    memory holds `main_v105` at `res1` and each argument as launched: the segments chain from the launch contents to
    the last valuation, against which the final state is read. -/
theorem run_all : θ_run defs (onTc (τ := τ) (main (F := F))) ⟨m, fun _ => 0, ρ⟩ (fun r => ∀ c : Dev nD,
      r.2.mem ((c.tc : Thread nD τ).loc main_v105) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) Gen.adm (pdats m) () cellOf_inj emb₁ defs₀ 𝒱₀ L lv m ρ main
    (segs m)
    (fun c Q => by
      rewrite [main_chain c, Pipeline.Seg.run_eq_chain,
        show (segs m c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          Prog.lift (.customCall (Pipeline.entry 1) ()) ] from rfl]
      exact .rfl)
    (fun c => by simp only [segs, Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V10 m (outs m) c))
    (hch := fun c => ⟨.rfl, .rfl, .rfl, .rfl, .rfl, .rfl, .rfl, .rfl, .rfl,
      (show iprop(StableHlo.held (c : Thread nD τ) (Pipeline.ucRefs τ sig) (Gen.V9 m (outs m) c) ∗ R c)
          ⊢ iprop(StableHlo.held (c : Thread nD τ) (Pipeline.ucRefs τ sig) (Gen.V9 m (outs0 m) c) ∗ R c) from by
        rw [V9_outs]; first | done | exact .rfl),
      (show iprop(StableHlo.held (c : Thread nD τ) (Pipeline.ucRefs τ sig) (Gen.V10 m (outs m) c) ∗ R c)
          ⊢ iprop(StableHlo.held (c : Thread nD τ) (Pipeline.ucRefs τ sig) (Gen.V10 m (outs m) c)
              ∗ ∃ W, owes (c : Thread nD τ) (0 : CellTallies nD τ sig Unit) W) from by
        iintro ⟨Hh, -, HO⟩
        isplitl [Hh]; · iexact Hh
        iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v105) = res1 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?_) (hQ := fun _ h => h)
  -- the end: the result's buffer and each argument's read off the last valuation
  unfold StableHlo.held
  iintro ⟨Hh, HSI⟩
  ihave Hr := (pointsTo_read_all (Pipeline.ucRefs τ sig) (fun b => ((c : Thread nD τ).1, b)) (Gen.V10 m (outs m) c) s') $$ [Hh HSI]
  · isplitl [Hh] <;> iassumption
  icases Hr with ⟨%h, HSI⟩
  imodintro
  isplitr
  · ipureintro
    exact ⟨(h (Proc.devRef .tc main_v105) (Finset.mem_filter.mpr ⟨StableHlo.devRef_mem_tcRefs main_v105, by decide⟩)).trans (V10_v105 m c),
      (h (Proc.devRef .tc main_arg0) (Finset.mem_filter.mpr ⟨StableHlo.devRef_mem_tcRefs main_arg0, by decide⟩)).trans (Gen.V10_main_arg0 m (outs m) c),
      (h (Proc.devRef .tc main_arg1) (Finset.mem_filter.mpr ⟨StableHlo.devRef_mem_tcRefs main_arg1, by decide⟩)).trans (Gen.V10_main_arg1 m (outs m) c),
      (h (Proc.devRef .tc main_arg2) (Finset.mem_filter.mpr ⟨StableHlo.devRef_mem_tcRefs main_arg2, by decide⟩)).trans (Gen.V10_main_arg2 m (outs m) c),
      (h (Proc.devRef .tc main_arg3) (Finset.mem_filter.mpr ⟨StableHlo.devRef_mem_tcRefs main_arg3, by decide⟩)).trans (Gen.V10_main_arg3 m (outs m) c),
      (h (Proc.devRef .tc main_arg4) (Finset.mem_filter.mpr ⟨StableHlo.devRef_mem_tcRefs main_arg4, by decide⟩)).trans (Gen.V10_main_arg4 m (outs m) c),
      (h (Proc.devRef .tc main_arg5) (Finset.mem_filter.mpr ⟨StableHlo.devRef_mem_tcRefs main_arg5, by decide⟩)).trans (Gen.V10_main_arg5 m (outs m) c)⟩
  · iexact HSI

/-- THE FRAME: the run, the result's contents forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_all m ρ)

end Cert.KernelIdeal.Hand

end
-- ==== Proof.HostK.lean ====
/-
  The host operations of the kernel's program before its first region, read stretch by stretch: every array that
  crosses a stretch boundary and feeds the first layer — the two index rows of the edge list, the self-loop mask,
  the edge weights, the image of the features under the graph operator and twice its second application minus the
  features — is the SAME function of the program's arguments that the reference program computes at the
  corresponding operation (the two programs spell the normalisation and the operator with the same operations, in
  the same order). The operator (a gather along the source row, a product with the edge weight, a scatter-add along
  the destination row) is never opened: both sides apply it to equal arguments.
-/
import proofs.«147161_j55284819034171_1_alg».proof.Proof.Gen.KernelIdeal.Regions
import proofs.«147161_j55284819034171_1_alg».proof.Proof.ReadP
import Idealize.ShloMosaic.Lib.StableHlo.Run
import Idealize.ShloMosaic.Lib.Pipeline.Frame

noncomputable section

namespace Cert.KernelIdeal.HostK

open Cert.KernelIdeal Cert.KernelIdeal.Gen Idealize.ShloMosaic Idealize.ShloMosaic.TcCoe Idealize.SL.Sem Idealize.ShloMosaic.StableHlo
open Cert.ReferenceIdeal.ReadP (val_main_v1 val_main_v3 val_main_v4 val_main_cst val_main_cst_0 val_main_v5 val_main_v9 val_main_v11
  val_main_v13 val_main_cst_4 val_main_v14 val_main_v30 val_main_cst_8 val_main_v31 val_main_v47 val_main_v67)

variable {F : FTy → Type} [FloatOps F]
variable (m : (ℓ : Loc nD τ sig) → Buf (Elt F) ℓ)

/-- The program's arguments on core `c`: node features, edge list, the two layers' weights and biases. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)

/-! ## After the first stretch: the source row, the destination row, the mask of edges that are no self-loops -/

theorem V1_v1 (c : Dev nD) : Gen.V1 m c main_v1 = val_main_v1 (F := F) (a1 m c) := by
  show StableHlo.after hostOps0 _ _ = _; after_results; rfl
theorem V1_v3 (c : Dev nD) : Gen.V1 m c main_v3 = val_main_v3 (F := F) (a1 m c) := by
  show StableHlo.after hostOps0 _ _ = _; after_results; rfl
theorem V1_v4 (c : Dev nD) : Gen.V1 m c main_v4 = val_main_v4 (F := F) (a1 m c) := by
  show StableHlo.after hostOps0 _ _ = _; after_results; rfl
theorem V1_cst (c : Dev nD) : Gen.V1 m c main_cst = val_main_cst (F := F) := by
  show StableHlo.after hostOps0 _ _ = _; after_results; rfl
theorem V1_cst_0 (c : Dev nD) : Gen.V1 m c main_cst_0 = val_main_cst_0 (F := F) := by
  show StableHlo.after hostOps0 _ _ = _; after_results; rfl

/-- The launch contents at an argument are the argument. -/
theorem V0_arg (c : Dev nD) (r : Ref sig .tc) : Gen.V0 m c r = m ((c.tc : Thread nD τ).loc r) := rfl

/-! ## After the second: one for an edge that is no self-loop, zero otherwise -/

theorem V2_v5 (c : Dev nD) : Gen.V2 m c main_v5 = val_main_v5 (F := F) (a1 m c) := by
  have h4 := V1_v4 m c; have hc := V1_cst m c; have hc0 := V1_cst_0 m c
  show StableHlo.after hostOps0_1 (Gen.V1 m c) _ = _
  generalize Gen.V1 m c = W at h4 hc hc0 ⊢
  after_results_simp
  rw [h4, hc, hc0]; rfl

theorem V2_v1 (c : Dev nD) : Gen.V2 m c main_v1 = val_main_v1 (F := F) (a1 m c) := by
  rw [Gen.V2_of m c _ (by decide), V1_v1]
theorem V2_v3 (c : Dev nD) : Gen.V2 m c main_v3 = val_main_v3 (F := F) (a1 m c) := by
  rw [Gen.V2_of m c _ (by decide), V1_v3]
theorem V2_v4 (c : Dev nD) : Gen.V2 m c main_v4 = val_main_v4 (F := F) (a1 m c) := by
  rw [Gen.V2_of m c _ (by decide), V1_v4]

/-! ## After the third: the out-degrees (a scatter-add of those ones along the source row), whether each is positive, and
    each to the power −1/2 -/

theorem V3_v11 (c : Dev nD) : Gen.V3 m c main_v11 = val_main_v11 (F := F) (a1 m c) := by
  have h5 := V2_v5 m c; have h1 := V2_v1 m c
  show StableHlo.after hostOps0_2 (Gen.V2 m c) _ = _
  generalize Gen.V2 m c = W at h5 h1 ⊢
  after_results_simp
  rw [h5, h1]; rfl
theorem V3_v13 (c : Dev nD) : Gen.V3 m c main_v13 = val_main_v13 (F := F) (a1 m c) := by
  have h5 := V2_v5 m c; have h1 := V2_v1 m c
  show StableHlo.after hostOps0_2 (Gen.V2 m c) _ = _
  generalize Gen.V2 m c = W at h5 h1 ⊢
  after_results_simp
  rw [h5, h1]; rfl
theorem V3_cst_4 (c : Dev nD) : Gen.V3 m c main_cst_4 = val_main_cst_4 (F := F) := by
  show StableHlo.after hostOps0_2 (Gen.V2 m c) _ = _
  generalize Gen.V2 m c = W
  after_results_simp; rfl
theorem V3_v1 (c : Dev nD) : Gen.V3 m c main_v1 = val_main_v1 (F := F) (a1 m c) := by
  rw [Gen.V3_of m c _ (by decide), V2_v1]
theorem V3_v3 (c : Dev nD) : Gen.V3 m c main_v3 = val_main_v3 (F := F) (a1 m c) := by
  rw [Gen.V3_of m c _ (by decide), V2_v3]
theorem V3_v4 (c : Dev nD) : Gen.V3 m c main_v4 = val_main_v4 (F := F) (a1 m c) := by
  rw [Gen.V3_of m c _ (by decide), V2_v4]

/-! ## After the fourth: the inverse square roots of the positive degrees, zero elsewhere -/

theorem V4_v14 (c : Dev nD) : Gen.V4 m c main_v14 = val_main_v14 (F := F) (a1 m c) := by
  have h11 := V3_v11 m c; have h13 := V3_v13 m c; have hc := V3_cst_4 m c
  show StableHlo.after hostOps0_3 (Gen.V3 m c) _ = _
  generalize Gen.V3 m c = W at h11 h13 hc ⊢
  after_results_simp
  rw [h11, h13, hc]; rfl
theorem V4_v1 (c : Dev nD) : Gen.V4 m c main_v1 = val_main_v1 (F := F) (a1 m c) := by
  rw [Gen.V4_of m c _ (by decide), V3_v1]
theorem V4_v3 (c : Dev nD) : Gen.V4 m c main_v3 = val_main_v3 (F := F) (a1 m c) := by
  rw [Gen.V4_of m c _ (by decide), V3_v3]
theorem V4_v4 (c : Dev nD) : Gen.V4 m c main_v4 = val_main_v4 (F := F) (a1 m c) := by
  rw [Gen.V4_of m c _ (by decide), V3_v4]

/-! ## After the fifth: minus the product of the two endpoints' inverse square roots, edge by edge -/

theorem V5_v30 (c : Dev nD) : Gen.V5 m c main_v30 = val_main_v30 (F := F) (a1 m c) := by
  have h14 := V4_v14 m c; have h1 := V4_v1 m c; have h3 := V4_v3 m c
  show StableHlo.after hostOps0_4 (Gen.V4 m c) _ = _
  generalize Gen.V4 m c = W at h14 h1 h3 ⊢
  after_results_simp
  rw [h14, h1, h3]; rfl
theorem V5_cst_8 (c : Dev nD) : Gen.V5 m c main_cst_8 = val_main_cst_8 (F := F) := by
  show StableHlo.after hostOps0_4 (Gen.V4 m c) _ = _
  generalize Gen.V4 m c = W
  after_results_simp; rfl
theorem V5_v1 (c : Dev nD) : Gen.V5 m c main_v1 = val_main_v1 (F := F) (a1 m c) := by
  rw [Gen.V5_of m c _ (by decide), V4_v1]
theorem V5_v3 (c : Dev nD) : Gen.V5 m c main_v3 = val_main_v3 (F := F) (a1 m c) := by
  rw [Gen.V5_of m c _ (by decide), V4_v3]
theorem V5_v4 (c : Dev nD) : Gen.V5 m c main_v4 = val_main_v4 (F := F) (a1 m c) := by
  rw [Gen.V5_of m c _ (by decide), V4_v4]

/-! ## After the sixth: the edge weights (that product on the edges that are no self-loops, zero on the others) -/

theorem V6_v31 (c : Dev nD) : Gen.V6 m c main_v31 = val_main_v31 (F := F) (a1 m c) := by
  have h4 := V5_v4 m c; have h30 := V5_v30 m c; have hc := V5_cst_8 m c
  show StableHlo.after hostOps0_5 (Gen.V5 m c) _ = _
  generalize Gen.V5 m c = W at h4 h30 hc ⊢
  after_results_simp
  rw [h4, h30, hc]; rfl
theorem V6_v1 (c : Dev nD) : Gen.V6 m c main_v1 = val_main_v1 (F := F) (a1 m c) := by
  rw [Gen.V6_of m c _ (by decide), V5_v1]
theorem V6_v3 (c : Dev nD) : Gen.V6 m c main_v3 = val_main_v3 (F := F) (a1 m c) := by
  rw [Gen.V6_of m c _ (by decide), V5_v3]
/-- No stretch before the first region writes an argument. -/
theorem V6_arg (c : Dev nD) (r : Ref sig .tc) (h1 : r ∉ hostOps0_W) (h2 : r ∉ hostOps0_1_W) (h3 : r ∉ hostOps0_2_W) (h4 : r ∉ hostOps0_3_W)
    (h5 : r ∉ hostOps0_4_W) (h6 : r ∉ hostOps0_5_W) : Gen.V6 m c r = m ((c.tc : Thread nD τ).loc r) := by
  rw [Gen.V6_of m c _ h6, Gen.V5_of m c _ h5, Gen.V4_of m c _ h4, Gen.V3_of m c _ h3, Gen.V2_of m c _ h2, Gen.V1_of m c _ h1]

theorem V6_a0 (c : Dev nD) : Gen.V6 m c main_arg0 = a0 m c :=
  V6_arg m c _ (by decide) (by decide) (by decide) (by decide) (by decide) (by decide)
theorem V6_a2 (c : Dev nD) : Gen.V6 m c main_arg2 = a2 m c :=
  V6_arg m c _ (by decide) (by decide) (by decide) (by decide) (by decide) (by decide)
theorem V6_a3 (c : Dev nD) : Gen.V6 m c main_arg3 = a3 m c :=
  V6_arg m c _ (by decide) (by decide) (by decide) (by decide) (by decide) (by decide)

/-! ## After the seventh, at the first region's entry: the features' image under the graph operator, twice the operator
    applied again minus the features, and the region's three input arrays -/

theorem V7_v44 (c : Dev nD) : Gen.V7 m c main_v44 = val_main_v47 (F := F) (a0 m c) (a1 m c) := by
  have h31 := V6_v31 m c; have h1 := V6_v1 m c; have h3 := V6_v3 m c; have h0 := V6_a0 m c
  show StableHlo.after hostOps0_6 (Gen.V6 m c) _ = _
  generalize Gen.V6 m c = W at h31 h1 h3 h0 ⊢
  after_results_simp
  rw [h31, h1, h3, h0]; rfl

theorem V7_v60 (c : Dev nD) : Gen.V7 m c main_v60 = val_main_v67 (F := F) (a0 m c) (a1 m c) := by
  have h31 := V6_v31 m c; have h1 := V6_v1 m c; have h3 := V6_v3 m c; have h0 := V6_a0 m c
  show StableHlo.after hostOps0_6 (Gen.V6 m c) _ = _
  generalize Gen.V6 m c = W at h31 h1 h3 h0 ⊢
  after_results_simp
  rw [h31, h1, h3, h0]; rfl

/-- Three arrays of shape [1, 30000, 128] stacked along the leading axis and narrowed to the region's input format. -/
def stack128 (x y z : (⟨S1x30000x128, .f32⟩ : BufTy).Contents (Elt F)) : (⟨S3x30000x128, .bf16⟩ : BufTy).Contents (Elt F) :=
  truncf .bf16 (concatenate S3x30000x128 0 [⟨S1x30000x128, x⟩, ⟨S1x30000x128, y⟩, ⟨S1x30000x128, z⟩]
    concatenates_S1x30000x128_S1x30000x128_S1x30000x128_S3x30000x128_d0) bitsLt_bf16_f32

/-- A node-feature array with a leading axis of extent one put in front. -/
abbrev lead128 (x : (⟨S30000x128, .f32⟩ : BufTy).Contents (Elt F)) : (⟨S1x30000x128, .f32⟩ : BufTy).Contents (Elt F) :=
  broadcastInDim S1x30000x128 ![1, 2] bcast_S30000x128_S1x30000x128_1_2 x

/-- The stretch's last four operations: the stacking, its narrowing, the narrowing of the weights, the bias as a row. -/
abbrev tail6 : List (HloOp τ sig (Elt F)) :=
  [ StableHlo.nary ![main_v61, main_v62, main_v63] main_v64 (fun u => concatenate S3x30000x128 0 [⟨S1x30000x128, u 0⟩, ⟨S1x30000x128, u 1⟩, ⟨S1x30000x128, u 2⟩] concatenates_S1x30000x128_S1x30000x128_S1x30000x128_S3x30000x128_d0),
    StableHlo.unary main_v64 main_v65 ((truncf .bf16 · bitsLt_bf16_f32) : (⟨S3x30000x128, .f32⟩ : BufTy).Contents (Elt F) → (⟨S3x30000x128, .bf16⟩ : BufTy).Contents (Elt F)),
    StableHlo.unary main_arg2 main_v66 ((truncf .bf16 · bitsLt_bf16_f32) : (⟨S3x128x256, .f32⟩ : BufTy).Contents (Elt F) → (⟨S3x128x256, .bf16⟩ : BufTy).Contents (Elt F)),
    StableHlo.reshape main_arg3 main_v67 rfl shapeCasts_S256_S1x256 ]

/-- The stretch is its first 39 operations followed by those four. -/
theorem split6 : (hostOps0_6 : List (HloOp τ sig (Elt F))) = hostOps0_6.take 39 ++ tail6 := rfl

/-- Over any contents, the last four operations leave in the stacked buffer the stack of the three buffers they read. -/
theorem tail6_v65 (P : Valuation τ sig (Elt F)) :
    StableHlo.after tail6 P main_v65 = stack128 (P main_v61) (P main_v62) (P main_v63) := by
  simp only [after_cons, after_nil]
  rw [reshape_result_ne]; rotate_left; decide
  rw [unary_result_ne]; rotate_left; decide
  rw [unary_result, nary_result]
  rfl

/-- and change none of the three. -/
theorem tail6_keep (P : Valuation τ sig (Elt F)) (r : Ref sig .tc) (h64 : r ≠ main_v64) (h65 : r ≠ main_v65) (h66 : r ≠ main_v66)
    (h67 : r ≠ main_v67) : StableHlo.after tail6 P r = P r := by
  simp only [after_cons, after_nil]
  rw [reshape_result_ne]; rotate_left; exact h67
  rw [unary_result_ne]; rotate_left; exact h66
  rw [unary_result_ne]; rotate_left; exact h65
  rw [nary_result_ne]; exact h64

theorem V7_v61 (c : Dev nD) : Gen.V7 m c main_v61 = lead128 (a0 m c) := by
  have h0 := V6_a0 m c
  show StableHlo.after hostOps0_6 (Gen.V6 m c) _ = _
  generalize Gen.V6 m c = W at h0 ⊢
  after_results_simp
  rw [h0]

theorem V7_v62 (c : Dev nD) : Gen.V7 m c main_v62 = lead128 (val_main_v47 (F := F) (a0 m c) (a1 m c)) := by
  have h31 := V6_v31 m c; have h1 := V6_v1 m c; have h3 := V6_v3 m c; have h0 := V6_a0 m c
  show StableHlo.after hostOps0_6 (Gen.V6 m c) _ = _
  generalize Gen.V6 m c = W at h31 h1 h3 h0 ⊢
  after_results_simp
  rw [h31, h1, h3, h0]; rfl

theorem V7_v63 (c : Dev nD) : Gen.V7 m c main_v63 = lead128 (val_main_v67 (F := F) (a0 m c) (a1 m c)) := by
  have h31 := V6_v31 m c; have h1 := V6_v1 m c; have h3 := V6_v3 m c; have h0 := V6_a0 m c
  show StableHlo.after hostOps0_6 (Gen.V6 m c) _ = _
  generalize Gen.V6 m c = W at h31 h1 h3 h0 ⊢
  after_results_simp
  rw [h31, h1, h3, h0]; rfl

/-- The first region's feature input: the features, their image under the graph operator, and twice the operator applied
    again minus the features, stacked. -/
theorem V7_v65 (c : Dev nD) : Gen.V7 m c main_v65 =
    stack128 (lead128 (a0 m c)) (lead128 (val_main_v47 (F := F) (a0 m c) (a1 m c))) (lead128 (val_main_v67 (F := F) (a0 m c) (a1 m c))) := by
  have e : Gen.V7 m c = StableHlo.after tail6 (StableHlo.after (hostOps0_6.take 39) (Gen.V6 m c)) := by
    show StableHlo.after hostOps0_6 _ = _
    rw [← StableHlo.after_append (hostOps0_6.take 39) tail6 (Gen.V6 m c), ← split6]
  have k61 := V7_v61 m c; have k62 := V7_v62 m c; have k63 := V7_v63 m c
  rw [e] at k61 k62 k63 ⊢
  generalize StableHlo.after (hostOps0_6.take 39) (Gen.V6 m c) = P at k61 k62 k63 ⊢
  rw [tail6_keep P _ (by decide) (by decide) (by decide) (by decide)] at k61 k62 k63
  rw [tail6_v65, k61, k62, k63]

theorem V7_v66 (c : Dev nD) : Gen.V7 m c main_v66 = (truncf .bf16 (a2 m c) bitsLt_bf16_f32 : (⟨S3x128x256, .bf16⟩ : BufTy).Contents (Elt F)) := by
  have h2 := V6_a2 m c
  show StableHlo.after hostOps0_6 (Gen.V6 m c) _ = _
  generalize Gen.V6 m c = W at h2 ⊢
  after_results_simp
  rw [h2]

theorem V7_v67 (c : Dev nD) : Gen.V7 m c main_v67 = (shapeCast S1x256 (a3 m c) shapeCasts_S256_S1x256 : (⟨S1x256, .f32⟩ : BufTy).Contents (Elt F)) := by
  have h3 := V6_a3 m c
  show StableHlo.after hostOps0_6 (Gen.V6 m c) _ = _
  generalize Gen.V6 m c = W at h3 ⊢
  after_results_simp
  rw [h3]; rfl

end Cert.KernelIdeal.HostK

end
-- ==== Proof.HostK2.lean ====
/-
  The host operations between the kernel program's two regions. From the contents the first region leaves — its output
  array, everything else as at its entry — the stretch applies the graph operator to that output once and twice, stacks
  the three arrays and narrows them, narrows the second layer's weights and reshapes its bias. Whenever the first
  region's output is the array the reference computes at its corresponding operation, the three stacked arrays are the
  reference's too: both programs apply the same operations to equal arguments, and the operator itself (a gather, a
  product with the edge weight, a scatter-add) is never opened.
-/
import proofs.«147161_j55284819034171_1_alg».proof.Proof.HostK
import proofs.«147161_j55284819034171_1_alg».proof.Proof.KI.Run

noncomputable section

namespace Cert.KernelIdeal.HostK

open Cert.KernelIdeal Cert.KernelIdeal.Gen Idealize.ShloMosaic Idealize.ShloMosaic.TcCoe Idealize.SL.Sem Idealize.ShloMosaic.StableHlo
open Cert.KernelIdeal.Hand (outs0 res0 V8_v68 V8_other)
open Cert.ReferenceIdeal.ReadP (val_main_v1 val_main_v3 val_main_v31 val_main_v75 val_main_v91 val_main_v111)

variable {F : FTy → Type} [FloatOps F]
variable (m : (ℓ : Loc nD τ sig) → Buf (Elt F) ℓ)

/-! ## What the first region leaves untouched -/

theorem V8_v31 (c : Dev nD) : Gen.V8 m (outs0 m) c main_v31 = val_main_v31 (F := F) (a1 m c) := by
  rw [V8_other m c _ (by decide), Gen.V7_of m c _ (by decide), V6_v31]
theorem V8_v1 (c : Dev nD) : Gen.V8 m (outs0 m) c main_v1 = val_main_v1 (F := F) (a1 m c) := by
  rw [V8_other m c _ (by decide), Gen.V7_of m c _ (by decide), V6_v1]
theorem V8_v3 (c : Dev nD) : Gen.V8 m (outs0 m) c main_v3 = val_main_v3 (F := F) (a1 m c) := by
  rw [V8_other m c _ (by decide), Gen.V7_of m c _ (by decide), V6_v3]
theorem V8_a4 (c : Dev nD) : Gen.V8 m (outs0 m) c main_arg4 = a4 m c := by
  rw [V8_other m c _ (by decide), Gen.V7_of m c _ (by decide)]
  exact V6_arg m c _ (by decide) (by decide) (by decide) (by decide) (by decide) (by decide)
theorem V8_a5 (c : Dev nD) : Gen.V8 m (outs0 m) c main_arg5 = a5 m c := by
  rw [V8_other m c _ (by decide), Gen.V7_of m c _ (by decide)]
  exact V6_arg m c _ (by decide) (by decide) (by decide) (by decide) (by decide) (by decide)

/-! ## The stretch between the regions -/

/-- Three arrays of shape [1, 30000, 256] stacked along the leading axis and narrowed to the region's input format. -/
def stack256 (x y z : (⟨S1x30000x256, .f32⟩ : BufTy).Contents (Elt F)) : (⟨S3x30000x256, .bf16⟩ : BufTy).Contents (Elt F) :=
  truncf .bf16 (concatenate S3x30000x256 0 [⟨S1x30000x256, x⟩, ⟨S1x30000x256, y⟩, ⟨S1x30000x256, z⟩]
    concatenates_S1x30000x256_S1x30000x256_S1x30000x256_S3x30000x256_d0) bitsLt_bf16_f32

/-- A node-feature array of 256 columns with a leading axis of extent one put in front. -/
abbrev lead256 (x : (⟨S30000x256, .f32⟩ : BufTy).Contents (Elt F)) : (⟨S1x30000x256, .f32⟩ : BufTy).Contents (Elt F) :=
  broadcastInDim S1x30000x256 ![1, 2] bcast_S30000x256_S1x30000x256_1_2 x

/-- The stretch's last four operations: the stacking, its narrowing, the narrowing of the weights, the bias as a row. -/
abbrev tail1 : List (HloOp τ sig (Elt F)) :=
  [ StableHlo.nary ![main_v98, main_v99, main_v100] main_v101 (fun u => concatenate S3x30000x256 0 [⟨S1x30000x256, u 0⟩, ⟨S1x30000x256, u 1⟩, ⟨S1x30000x256, u 2⟩] concatenates_S1x30000x256_S1x30000x256_S1x30000x256_S3x30000x256_d0),
    StableHlo.unary main_v101 main_v102 ((truncf .bf16 · bitsLt_bf16_f32) : (⟨S3x30000x256, .f32⟩ : BufTy).Contents (Elt F) → (⟨S3x30000x256, .bf16⟩ : BufTy).Contents (Elt F)),
    StableHlo.unary main_arg4 main_v103 ((truncf .bf16 · bitsLt_bf16_f32) : (⟨S3x256x128, .f32⟩ : BufTy).Contents (Elt F) → (⟨S3x256x128, .bf16⟩ : BufTy).Contents (Elt F)),
    StableHlo.reshape main_arg5 main_v104 rfl shapeCasts_S128_S1x128 ]

theorem split1 : (hostOps1 : List (HloOp τ sig (Elt F))) = hostOps1.take 39 ++ tail1 := rfl

theorem tail1_v102 (P : Valuation τ sig (Elt F)) :
    StableHlo.after tail1 P main_v102 = stack256 (P main_v98) (P main_v99) (P main_v100) := by
  simp only [after_cons, after_nil]
  rw [reshape_result_ne]; rotate_left; decide
  rw [unary_result_ne]; rotate_left; decide
  rw [unary_result, nary_result]
  rfl

theorem tail1_keep (P : Valuation τ sig (Elt F)) (r : Ref sig .tc) (h101 : r ≠ main_v101) (h102 : r ≠ main_v102) (h103 : r ≠ main_v103)
    (h104 : r ≠ main_v104) : StableHlo.after tail1 P r = P r := by
  simp only [after_cons, after_nil]
  rw [reshape_result_ne]; rotate_left; exact h104
  rw [unary_result_ne]; rotate_left; exact h103
  rw [unary_result_ne]; rotate_left; exact h102
  rw [nary_result_ne]; exact h101

theorem V9_v98 (c : Dev nD) (h68 : Gen.V8 m (outs0 m) c main_v68 = val_main_v75 (F := F) (a0 m c) (a1 m c) (a2 m c) (a3 m c)) :
    Gen.V9 m (outs0 m) c main_v98 = lead256 (val_main_v75 (F := F) (a0 m c) (a1 m c) (a2 m c) (a3 m c)) := by
  show StableHlo.after hostOps1 (Gen.V8 m (outs0 m) c) _ = _
  generalize Gen.V8 m (outs0 m) c = W at h68 ⊢
  after_results_simp
  rw [h68]

theorem V9_v99 (c : Dev nD) (h68 : Gen.V8 m (outs0 m) c main_v68 = val_main_v75 (F := F) (a0 m c) (a1 m c) (a2 m c) (a3 m c)) :
    Gen.V9 m (outs0 m) c main_v99 = lead256 (val_main_v91 (F := F) (a0 m c) (a1 m c) (a2 m c) (a3 m c)) := by
  have h31 := V8_v31 m c; have h1 := V8_v1 m c; have h3 := V8_v3 m c
  show StableHlo.after hostOps1 (Gen.V8 m (outs0 m) c) _ = _
  generalize Gen.V8 m (outs0 m) c = W at h68 h31 h1 h3 ⊢
  after_results_simp
  rw [h68, h31, h1, h3]; rfl

theorem V9_v100 (c : Dev nD) (h68 : Gen.V8 m (outs0 m) c main_v68 = val_main_v75 (F := F) (a0 m c) (a1 m c) (a2 m c) (a3 m c)) :
    Gen.V9 m (outs0 m) c main_v100 = lead256 (val_main_v111 (F := F) (a0 m c) (a1 m c) (a2 m c) (a3 m c)) := by
  have h31 := V8_v31 m c; have h1 := V8_v1 m c; have h3 := V8_v3 m c
  show StableHlo.after hostOps1 (Gen.V8 m (outs0 m) c) _ = _
  generalize Gen.V8 m (outs0 m) c = W at h68 h31 h1 h3 ⊢
  after_results_simp
  rw [h68, h31, h1, h3]; rfl

/-- The second region's feature input: the first layer's output, its image under the graph operator, and twice the
    operator applied again minus that output, stacked. -/
theorem V9_v102 (c : Dev nD) (h68 : Gen.V8 m (outs0 m) c main_v68 = val_main_v75 (F := F) (a0 m c) (a1 m c) (a2 m c) (a3 m c)) :
    Gen.V9 m (outs0 m) c main_v102 =
    stack256 (lead256 (val_main_v75 (F := F) (a0 m c) (a1 m c) (a2 m c) (a3 m c)))
      (lead256 (val_main_v91 (F := F) (a0 m c) (a1 m c) (a2 m c) (a3 m c)))
      (lead256 (val_main_v111 (F := F) (a0 m c) (a1 m c) (a2 m c) (a3 m c))) := by
  have e : Gen.V9 m (outs0 m) c = StableHlo.after tail1 (StableHlo.after (hostOps1.take 39) (Gen.V8 m (outs0 m) c)) := by
    show StableHlo.after hostOps1 _ = _
    rw [← StableHlo.after_append (hostOps1.take 39) tail1 (Gen.V8 m (outs0 m) c), ← split1]
  have k98 := V9_v98 m c h68; have k99 := V9_v99 m c h68; have k100 := V9_v100 m c h68
  rw [e] at k98 k99 k100 ⊢
  generalize StableHlo.after (hostOps1.take 39) (Gen.V8 m (outs0 m) c) = P at k98 k99 k100 ⊢
  rw [tail1_keep P _ (by decide) (by decide) (by decide) (by decide)] at k98 k99 k100
  rw [tail1_v102, k98, k99, k100]

theorem V9_v103 (c : Dev nD) : Gen.V9 m (outs0 m) c main_v103 = (truncf .bf16 (a4 m c) bitsLt_bf16_f32 : (⟨S3x256x128, .bf16⟩ : BufTy).Contents (Elt F)) := by
  have h4 := V8_a4 m c
  show StableHlo.after hostOps1 (Gen.V8 m (outs0 m) c) _ = _
  generalize Gen.V8 m (outs0 m) c = W at h4 ⊢
  after_results_simp
  rw [h4]

theorem V9_v104 (c : Dev nD) : Gen.V9 m (outs0 m) c main_v104 = (shapeCast S1x128 (a5 m c) shapeCasts_S128_S1x128 : (⟨S1x128, .f32⟩ : BufTy).Contents (Elt F)) := by
  have h5 := V8_a5 m c
  show StableHlo.after hostOps1 (Gen.V8 m (outs0 m) c) _ = _
  generalize Gen.V8 m (outs0 m) c = W at h5 ⊢
  after_results_simp
  rw [h5]; rfl

end Cert.KernelIdeal.HostK

end
-- ==== Proof.StackIdx.lean ====
/-
  The two regions' input arrays read at plain coordinates, at the ideal instance (a change of float format is the
  identity there): entry (t, r, k) of a stack of three node-feature arrays is entry (r, k) of the t-th; entry (t, k, q)
  of the narrowed weights is the weights' own; entry (0, q) of a bias reshaped to one row is the bias's q-th entry.
-/
import proofs.«147161_j55284819034171_1_alg».proof.Proof.HostK2
import Idealize.ShloMosaic.Lib.Pipeline.Value
import Idealize.ShloMosaic.Lib.ValueIdx

noncomputable section

namespace Cert.KernelIdeal.HostK

open Cert.KernelIdeal Cert.KernelIdeal.Gen Idealize.ShloMosaic Idealize.ShloMosaic.TcCoe Idealize.ShloMosaic.ValueIdx

theorem lead128_apply (w : (⟨S30000x128, .f32⟩ : BufTy).Contents (Elt Ideal)) (r : Fin 30000) (k : Fin 128) :
    lead128 (F := Ideal) w (ix3 (0 : Fin 1) r k) = w (ix2 r k) :=
  broadcastInDim_apply _ bcast_S30000x128_S1x30000x128_1_2 w (ix3 0 r k) (ix2 r k) (fun a => match a with
    | ⟨0, _⟩ => by show r.val = if (30000 : Nat) = 1 then 0 else r.val; rw [if_neg (by decide)]
    | ⟨1, _⟩ => by show k.val = if (128 : Nat) = 1 then 0 else k.val; rw [if_neg (by decide)])

theorem lead256_apply (w : (⟨S30000x256, .f32⟩ : BufTy).Contents (Elt Ideal)) (r : Fin 30000) (k : Fin 256) :
    lead256 (F := Ideal) w (ix3 (0 : Fin 1) r k) = w (ix2 r k) :=
  broadcastInDim_apply _ bcast_S30000x256_S1x30000x256_1_2 w (ix3 0 r k) (ix2 r k) (fun a => match a with
    | ⟨0, _⟩ => by show r.val = if (30000 : Nat) = 1 then 0 else r.val; rw [if_neg (by decide)]
    | ⟨1, _⟩ => by show k.val = if (256 : Nat) = 1 then 0 else k.val; rw [if_neg (by decide)])

/-- Off the stacking axis a piece's index (0, r, k) has the coordinates of the stack's index (t, r, k). -/
theorem off_axis128 (t : Fin 3) (r : Fin 30000) (k : Fin 128) :
    ∀ b : Fin S1x30000x128.rank, b.cast (rfl : S1x30000x128.rank = S3x30000x128.rank) ≠ (0 : Fin S3x30000x128.rank) →
      ((ix3 (0 : Fin 1) r k : S1x30000x128.Idx) b).val = ((ix3 t r k : S3x30000x128.Idx) (b.cast rfl)).val := fun b hb =>
  match b, hb with
  | ⟨0, _⟩, hb => absurd rfl hb
  | ⟨1, _⟩, _ => rfl
  | ⟨2, _⟩, _ => rfl

theorem off_axis256 (t : Fin 3) (r : Fin 30000) (k : Fin 256) :
    ∀ b : Fin S1x30000x256.rank, b.cast (rfl : S1x30000x256.rank = S3x30000x256.rank) ≠ (0 : Fin S3x30000x256.rank) →
      ((ix3 (0 : Fin 1) r k : S1x30000x256.Idx) b).val = ((ix3 t r k : S3x30000x256.Idx) (b.cast rfl)).val := fun b hb =>
  match b, hb with
  | ⟨0, _⟩, hb => absurd rfl hb
  | ⟨1, _⟩, _ => rfl
  | ⟨2, _⟩, _ => rfl

theorem stack128_apply (x y z : (⟨S30000x128, .f32⟩ : BufTy).Contents (Elt Ideal)) (t : Fin 3) (r : Fin 30000) (k : Fin 128) :
    stack128 (F := Ideal) (lead128 x) (lead128 y) (lead128 z) (ix3 t r k) = (![x, y, z] : Fin 3 → _) t (ix2 r k) := by
  show concatenate S3x30000x128 0 [⟨S1x30000x128, lead128 x⟩, ⟨S1x30000x128, lead128 y⟩, ⟨S1x30000x128, lead128 z⟩]
    concatenates_S1x30000x128_S1x30000x128_S1x30000x128_S3x30000x128_d0 (ix3 t r k) = _
  match t with
  | ⟨0, _⟩ => exact (concatenate_apply_piece 0 [⟨S1x30000x128, lead128 x⟩, ⟨S1x30000x128, lead128 y⟩, ⟨S1x30000x128, lead128 z⟩] concatenates_S1x30000x128_S1x30000x128_S1x30000x128_S3x30000x128_d0 _ 0 (by simp) S1x30000x128 (lead128 x) rfl rfl 0 rfl (ix3 0 r k) (off_axis128 _ r k) rfl).trans (lead128_apply x r k)
  | ⟨1, _⟩ => exact (concatenate_apply_piece 0 [⟨S1x30000x128, lead128 x⟩, ⟨S1x30000x128, lead128 y⟩, ⟨S1x30000x128, lead128 z⟩] concatenates_S1x30000x128_S1x30000x128_S1x30000x128_S3x30000x128_d0 _ 1 (by simp) S1x30000x128 (lead128 y) rfl rfl 1 rfl (ix3 0 r k) (off_axis128 _ r k) rfl).trans (lead128_apply y r k)
  | ⟨2, _⟩ => exact (concatenate_apply_piece 0 [⟨S1x30000x128, lead128 x⟩, ⟨S1x30000x128, lead128 y⟩, ⟨S1x30000x128, lead128 z⟩] concatenates_S1x30000x128_S1x30000x128_S1x30000x128_S3x30000x128_d0 _ 2 (by simp) S1x30000x128 (lead128 z) rfl rfl 2 rfl (ix3 0 r k) (off_axis128 _ r k) rfl).trans (lead128_apply z r k)

theorem stack256_apply (x y z : (⟨S30000x256, .f32⟩ : BufTy).Contents (Elt Ideal)) (t : Fin 3) (r : Fin 30000) (k : Fin 256) :
    stack256 (F := Ideal) (lead256 x) (lead256 y) (lead256 z) (ix3 t r k) = (![x, y, z] : Fin 3 → _) t (ix2 r k) := by
  show concatenate S3x30000x256 0 [⟨S1x30000x256, lead256 x⟩, ⟨S1x30000x256, lead256 y⟩, ⟨S1x30000x256, lead256 z⟩]
    concatenates_S1x30000x256_S1x30000x256_S1x30000x256_S3x30000x256_d0 (ix3 t r k) = _
  match t with
  | ⟨0, _⟩ => exact (concatenate_apply_piece 0 [⟨S1x30000x256, lead256 x⟩, ⟨S1x30000x256, lead256 y⟩, ⟨S1x30000x256, lead256 z⟩] concatenates_S1x30000x256_S1x30000x256_S1x30000x256_S3x30000x256_d0 _ 0 (by simp) S1x30000x256 (lead256 x) rfl rfl 0 rfl (ix3 0 r k) (off_axis256 _ r k) rfl).trans (lead256_apply x r k)
  | ⟨1, _⟩ => exact (concatenate_apply_piece 0 [⟨S1x30000x256, lead256 x⟩, ⟨S1x30000x256, lead256 y⟩, ⟨S1x30000x256, lead256 z⟩] concatenates_S1x30000x256_S1x30000x256_S1x30000x256_S3x30000x256_d0 _ 1 (by simp) S1x30000x256 (lead256 y) rfl rfl 1 rfl (ix3 0 r k) (off_axis256 _ r k) rfl).trans (lead256_apply y r k)
  | ⟨2, _⟩ => exact (concatenate_apply_piece 0 [⟨S1x30000x256, lead256 x⟩, ⟨S1x30000x256, lead256 y⟩, ⟨S1x30000x256, lead256 z⟩] concatenates_S1x30000x256_S1x30000x256_S1x30000x256_S3x30000x256_d0 _ 2 (by simp) S1x30000x256 (lead256 z) rfl rfl 2 rfl (ix3 0 r k) (off_axis256 _ r k) rfl).trans (lead256_apply z r k)

theorem bias256_apply (b : (⟨S256, .f32⟩ : BufTy).Contents (Elt Ideal)) (q : Fin 256) :
    (shapeCast S1x256 b shapeCasts_S256_S1x256 : S1x256.Idx → EReal) (ix2 (0 : Fin 1) q) = b (ix1 q) :=
  shapeCast_apply b shapeCasts_S256_S1x256 (ix2 0 q) (ix1 q)
    (by rewrite [Shape.rowMajor_val_one, Shape.rowMajor_val_two]; show q.val = 0 * 256 + q.val; omega)

theorem bias128_apply (b : (⟨S128, .f32⟩ : BufTy).Contents (Elt Ideal)) (q : Fin 128) :
    (shapeCast S1x128 b shapeCasts_S128_S1x128 : S1x128.Idx → EReal) (ix2 (0 : Fin 1) q) = b (ix1 q) :=
  shapeCast_apply b shapeCasts_S128_S1x128 (ix2 0 q) (ix1 q)
    (by rewrite [Shape.rowMajor_val_one, Shape.rowMajor_val_two]; show q.val = 0 * 128 + q.val; omega)

end Cert.KernelIdeal.HostK

end
-- ==== Proof.ChebSpec.lean ====
/-
  One Chebyshev layer as a function of plain indices over the extended reals.

  A layer of order three takes three node-feature matrices x 0, x 1, x 2 (n rows, cin columns), three weight
  matrices w 0, w 1, w 2 (cin rows, cout columns) and a bias row b, and returns at row r and column q

      ((x 0 · w 0 + x 1 · w 1) + x 2 · w 2) (r, q) + b q,

  each product the plain sum over the contracted index. Sums and products on the extended reals are
  commutative and associative, and 0 is neutral for the sum; nothing below needs an entry to be finite.
-/
import Idealize.ShloMosaic.PureOps.Ideal

noncomputable section

namespace Cert.Cheb

/-- Entry (r, q) of the matrix product x · w: the sum over the contracted index k of x r k · w k q. -/
def term {n cin cout : ℕ} (x : Fin n → Fin cin → EReal) (w : Fin cin → Fin cout → EReal) (r : Fin n) (q : Fin cout) : EReal :=
  ∑ k : Fin cin, x r k * w k q

/-- Entry (r, q) of the layer before any nonlinearity: the three products added left to right, then the bias. -/
def lin {n cin cout : ℕ} (x : Fin 3 → Fin n → Fin cin → EReal) (w : Fin 3 → Fin cin → Fin cout → EReal)
    (b : Fin cout → EReal) (r : Fin n) (q : Fin cout) : EReal :=
  ((term (x 0) (w 0) r q + term (x 1) (w 1) r q) + term (x 2) (w 2) r q) + b q

/-- The same entry when the running sum starts from 0 and the products are added one at a time, as an
    accumulator that is cleared and then added to three times computes it. -/
theorem lin_eq_acc {n cin cout : ℕ} (x : Fin 3 → Fin n → Fin cin → EReal) (w : Fin 3 → Fin cin → Fin cout → EReal)
    (b : Fin cout → EReal) (r : Fin n) (q : Fin cout) :
    (((0 + term (x 0) (w 0) r q) + term (x 1) (w 1) r q) + term (x 2) (w 2) r q) + b q = lin x w b r q := by
  unfold lin; rw [zero_add]

end Cert.Cheb

end
-- ==== Proof.RefValue.lean ====
/-
  The reference program's result, read one operation at a time: each of its two layers, at a row r and a column q, is
  the layer function of ChebSpec applied to three node-feature arrays (the layer's input, its image under the graph
  operator, and twice the operator applied again minus the input), the three weight slabs and the bias; the first
  layer is followed by the maximum with zero.
-/
import proofs.«147161_j55284819034171_1_alg».proof.Proof.ReadP
import proofs.«147161_j55284819034171_1_alg».proof.Proof.ChebSpec

noncomputable section

namespace Cert.ReferenceIdeal.RefValue

open Cert.ReferenceIdeal Cert.ReferenceIdeal.ReadP Idealize.ShloMosaic Idealize.ShloMosaic.ValueIdx

variable (x0 : (⟨S30000x128, .f32⟩ : BufTy).Contents (Elt Ideal)) (x1 : (⟨S2x480000, .i32⟩ : BufTy).Contents (Elt Ideal))
  (x2 : (⟨S3x128x256, .f32⟩ : BufTy).Contents (Elt Ideal)) (x3 : (⟨S256, .f32⟩ : BufTy).Contents (Elt Ideal))
  (x4 : (⟨S3x256x128, .f32⟩ : BufTy).Contents (Elt Ideal)) (x5 : (⟨S128, .f32⟩ : BufTy).Contents (Elt Ideal))

/-- The first layer's three feature arrays: the features, their image under the graph operator, and twice the operator
    applied again minus the features. -/
def feat1 : Fin 3 → (⟨S30000x128, .f32⟩ : BufTy).Contents (Elt Ideal) :=
  ![x0, val_main_v47 (F := Ideal) x0 x1, val_main_v67 (F := Ideal) x0 x1]

/-- The second layer's: the same three of the first layer's output. -/
def feat2 : Fin 3 → (⟨S30000x256, .f32⟩ : BufTy).Contents (Elt Ideal) :=
  ![val_main_v75 (F := Ideal) x0 x1 x2 x3, val_main_v91 (F := Ideal) x0 x1 x2 x3, val_main_v111 (F := Ideal) x0 x1 x2 x3]

/-! ## The composed index maps of the reference's slices, reshapes and broadcasts, as plain coordinates -/

theorem lhs1 (r : Fin 30000) (q : Fin 256) (k : Fin 128) : lidx_main_v34 (ix2 r q) k = ix2 r k := by
  funext a; apply Fin.ext; match a with | ⟨0, _⟩ => rfl | ⟨1, _⟩ => rfl
theorem lhs1' (r : Fin 30000) (q : Fin 256) (k : Fin 128) : lidx_main_v50 (ix2 r q) k = ix2 r k := by
  funext a; apply Fin.ext; match a with | ⟨0, _⟩ => rfl | ⟨1, _⟩ => rfl
theorem lhs1'' (r : Fin 30000) (q : Fin 256) (k : Fin 128) : lidx_main_v70 (ix2 r q) k = ix2 r k := by
  funext a; apply Fin.ext; match a with | ⟨0, _⟩ => rfl | ⟨1, _⟩ => rfl
/-- Slab 0 of the first layer's weights: row k, column q. -/
theorem rhs1 (r : Fin 30000) (q : Fin 256) (k : Fin 128) : idx_main_v32 (idx_main_v33 (ridx_main_v34 (ix2 r q) k)) = ix3 0 k q := by
  have hk := k.isLt; have hq := q.isLt
  funext a; apply Fin.ext
  match a with
  | ⟨0, _⟩ => rfl
  | ⟨1, _⟩ => show (k.val * 256 + q.val) / 256 % 128 = k.val; omega
  | ⟨2, _⟩ => show (k.val * 256 + q.val) % 256 = q.val; omega
theorem rhs1' (r : Fin 30000) (q : Fin 256) (k : Fin 128) : idx_main_v48 (idx_main_v49 (ridx_main_v50 (ix2 r q) k)) = ix3 1 k q := by
  have hk := k.isLt; have hq := q.isLt
  funext a; apply Fin.ext
  match a with
  | ⟨0, _⟩ => rfl
  | ⟨1, _⟩ => show (k.val * 256 + q.val) / 256 % 128 = k.val; omega
  | ⟨2, _⟩ => show (k.val * 256 + q.val) % 256 = q.val; omega
theorem rhs1'' (r : Fin 30000) (q : Fin 256) (k : Fin 128) : idx_main_v68 (idx_main_v69 (ridx_main_v70 (ix2 r q) k)) = ix3 2 k q := by
  have hk := k.isLt; have hq := q.isLt
  funext a; apply Fin.ext
  match a with
  | ⟨0, _⟩ => rfl
  | ⟨1, _⟩ => show (k.val * 256 + q.val) / 256 % 128 = k.val; omega
  | ⟨2, _⟩ => show (k.val * 256 + q.val) % 256 = q.val; omega
theorem bias1 (r : Fin 30000) (q : Fin 256) : idx_main_v72 (idx_main_v73 (ix2 r q)) = ix1 q := by
  funext a; apply Fin.ext; match a with | ⟨0, _⟩ => rfl

theorem lhs2 (r : Fin 30000) (q : Fin 128) (k : Fin 256) : lidx_main_v78 (ix2 r q) k = ix2 r k := by
  funext a; apply Fin.ext; match a with | ⟨0, _⟩ => rfl | ⟨1, _⟩ => rfl
theorem lhs2' (r : Fin 30000) (q : Fin 128) (k : Fin 256) : lidx_main_v94 (ix2 r q) k = ix2 r k := by
  funext a; apply Fin.ext; match a with | ⟨0, _⟩ => rfl | ⟨1, _⟩ => rfl
theorem lhs2'' (r : Fin 30000) (q : Fin 128) (k : Fin 256) : lidx_main_v114 (ix2 r q) k = ix2 r k := by
  funext a; apply Fin.ext; match a with | ⟨0, _⟩ => rfl | ⟨1, _⟩ => rfl
theorem rhs2 (r : Fin 30000) (q : Fin 128) (k : Fin 256) : idx_main_v76 (idx_main_v77 (ridx_main_v78 (ix2 r q) k)) = ix3 0 k q := by
  have hk := k.isLt; have hq := q.isLt
  funext a; apply Fin.ext
  match a with
  | ⟨0, _⟩ => rfl
  | ⟨1, _⟩ => show (k.val * 128 + q.val) / 128 % 256 = k.val; omega
  | ⟨2, _⟩ => show (k.val * 128 + q.val) % 128 = q.val; omega
theorem rhs2' (r : Fin 30000) (q : Fin 128) (k : Fin 256) : idx_main_v92 (idx_main_v93 (ridx_main_v94 (ix2 r q) k)) = ix3 1 k q := by
  have hk := k.isLt; have hq := q.isLt
  funext a; apply Fin.ext
  match a with
  | ⟨0, _⟩ => rfl
  | ⟨1, _⟩ => show (k.val * 128 + q.val) / 128 % 256 = k.val; omega
  | ⟨2, _⟩ => show (k.val * 128 + q.val) % 128 = q.val; omega
theorem rhs2'' (r : Fin 30000) (q : Fin 128) (k : Fin 256) : idx_main_v112 (idx_main_v113 (ridx_main_v114 (ix2 r q) k)) = ix3 2 k q := by
  have hk := k.isLt; have hq := q.isLt
  funext a; apply Fin.ext
  match a with
  | ⟨0, _⟩ => rfl
  | ⟨1, _⟩ => show (k.val * 128 + q.val) / 128 % 256 = k.val; omega
  | ⟨2, _⟩ => show (k.val * 128 + q.val) % 128 = q.val; omega
theorem bias2 (r : Fin 30000) (q : Fin 128) : idx_main_v116 (idx_main_v117 (ix2 r q)) = ix1 q := by
  funext a; apply Fin.ext; match a with | ⟨0, _⟩ => rfl

/-! ## The two layers -/

/-- The first layer's output (after the maximum with zero) at row r, column q. -/
theorem layer1 (r : Fin 30000) (q : Fin 256) :
    val_main_v75 (F := Ideal) x0 x1 x2 x3 (ix2 r q) =
      max (Cert.Cheb.lin (fun t r k => feat1 x0 x1 t (ix2 r k)) (fun t k q => x2 (ix3 t k q)) (fun q => x3 (ix1 q)) r q) 0 := by
  rw [val_main_v75_apply, val_main_v74_apply, val_main_v71_apply, val_main_v51_apply, val_main_v34_apply, val_main_v50_apply,
    val_main_v70_apply, val_main_v73_apply, val_main_v72_apply, val_main_call3_v0_apply, val_main_call3_cst_apply]
  simp only [val_main_v33_apply, val_main_v32_apply, val_main_v49_apply, val_main_v48_apply, val_main_v69_apply, val_main_v68_apply,
    lhs1, lhs1', lhs1'', rhs1, rhs1', rhs1'', bias1]
  unfold Cert.Cheb.lin Cert.Cheb.term feat1
  simp only [Matrix.cons_val_zero, Matrix.cons_val_one, Matrix.cons_val_two, Matrix.head_cons, Matrix.tail_cons, Ideal.addf_def,
    Ideal.maximumf_def, Ideal.ofBits_def, Ideal.ofBits_zero_f32]

/-- The second layer's output at row r, column q. -/
theorem layer2 (r : Fin 30000) (q : Fin 128) :
    val_main_v118 (F := Ideal) x0 x1 x2 x3 x4 x5 (ix2 r q) =
      Cert.Cheb.lin (fun t r k => feat2 x0 x1 x2 x3 t (ix2 r k)) (fun t k q => x4 (ix3 t k q)) (fun q => x5 (ix1 q)) r q := by
  rw [val_main_v118_apply, val_main_v115_apply, val_main_v95_apply, val_main_v78_apply, val_main_v94_apply, val_main_v114_apply,
    val_main_v117_apply, val_main_v116_apply]
  simp only [val_main_v77_apply, val_main_v76_apply, val_main_v93_apply, val_main_v92_apply, val_main_v113_apply, val_main_v112_apply,
    lhs2, lhs2', lhs2'', rhs2, rhs2', rhs2'', bias2]
  unfold Cert.Cheb.lin Cert.Cheb.term feat2
  simp only [Matrix.cons_val_zero, Matrix.cons_val_one, Matrix.cons_val_two, Matrix.head_cons, Matrix.tail_cons, Ideal.addf_def]

end Cert.ReferenceIdeal.RefValue

end
-- ==== Proof.KI.Blocks0.lean ====
import proofs.«147161_j55284819034171_1_alg».proof.Proof.KI.Body0
import Idealize.ShloMosaic.Lib.ValueIdx
import Idealize.ShloMosaic.Lib.Pipeline.Value

/-!
  The blocks the first layer's body reads, as pieces of the arrays the region finds.

  Point t of the 15 × 3 grid is tile i = t / 3 at order k = t % 3. Its feature block is rows
  2000·i … 2000·i + 1999 of slab k of the feature array, its weight block is slab k of the weight
  array whole, its bias block is the bias row whole, and its output block is rows
  2000·i … 2000·i + 1999 of the output array.
-/

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable {F : FTy → Type} [FloatOps F]
variable (V : (c : Dev nD) → (b : Ref sig .tc) → Buf (Elt F) ((c : Thread nD τ).loc b))

/-- The four index maps at point t, decided once over the 45 points: the feature window sits at
    (t % 3, t / 3, 0), the weight window at (t % 3, 0, 0), the bias window at (0, 0), the output
    window at (t / 3, 0). -/
theorem index_maps0 : ∀ t : Fin cfg0.N,
    win0_0.index t (0 : Fin 3) = t.val % 3 ∧ win0_0.index t (1 : Fin 3) = t.val / 3 ∧ win0_0.index t (2 : Fin 3) = 0
    ∧ win0_1.index t (0 : Fin 3) = t.val % 3 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val / 3 ∧ win0_3.index t (1 : Fin 2) = 0 :=
  (by decide +kernel : ∀ t : Fin grid0.N, _)

/-- Entry (0, p, j) of the feature block at point t is entry (t % 3, 2000·(t / 3) + p, j) of the
    feature array. -/
theorem blk0_0_at (c : Dev nD) (t : Fin cfg0.N) (p : Fin 2000) (j : Fin 128) (k : Fin 3) (r : Fin 30000)
    (hk : k.val = t.val % 3) (hr : r.val = 2000 * (t.val / 3) + p.val) :
    (blk0 V c 0 t : Vec F S1x2000x128 .bf16) (ix3 (0 : Fin 1) p j)
      = (V c main_v65 : S3x30000x128.Idx → Elt F .bf16) (ix3 k r j) := by
  obtain ⟨e0, e1, e2, -⟩ := index_maps0 t
  unfold blk0
  rw [View.read_apply]
  show V c main_v65 _ = V c main_v65 _
  congr 1
  funext a
  apply Fin.ext
  match a with
  | ⟨0, _⟩ => show win0_0.index t (0 : Fin 3) * 1 + 1 * 0 = k.val; rw [e0, hk]; omega
  | ⟨1, _⟩ => show win0_0.index t (1 : Fin 3) * 2000 + 1 * p.val = r.val; rw [e1, hr]; omega
  | ⟨2, _⟩ => show win0_0.index t (2 : Fin 3) * 128 + 1 * j.val = j.val; rw [e2]; omega

/-- Entry (0, j, q) of the weight block at point t is entry (t % 3, j, q) of the weight array. -/
theorem blk0_1_at (c : Dev nD) (t : Fin cfg0.N) (j : Fin 128) (q : Fin 256) (k : Fin 3) (hk : k.val = t.val % 3) :
    (blk0 V c 1 t : Vec F S1x128x256 .bf16) (ix3 (0 : Fin 1) j q)
      = (V c main_v66 : S3x128x256.Idx → Elt F .bf16) (ix3 k j q) := by
  obtain ⟨-, -, -, e0, e1, e2, -⟩ := index_maps0 t
  unfold blk0
  rw [View.read_apply]
  show V c main_v66 _ = V c main_v66 _
  congr 1
  funext a
  apply Fin.ext
  match a with
  | ⟨0, _⟩ => show win0_1.index t (0 : Fin 3) * 1 + 1 * 0 = k.val; rw [e0, hk]; omega
  | ⟨1, _⟩ => show win0_1.index t (1 : Fin 3) * 128 + 1 * j.val = j.val; rw [e1]; omega
  | ⟨2, _⟩ => show win0_1.index t (2 : Fin 3) * 256 + 1 * q.val = q.val; rw [e2]; omega

/-- Entry (0, q) of the bias block at any point is entry (0, q) of the bias row. -/
theorem blk0_2_at (c : Dev nD) (t : Fin cfg0.N) (q : Fin 256) :
    (blk0 V c 2 t : Vec F S1x256 .f32) (ix2 (0 : Fin 1) q)
      = (V c main_v67 : S1x256.Idx → Elt F .f32) (ix2 (0 : Fin 1) q) := by
  obtain ⟨-, -, -, -, -, -, e0, e1, -⟩ := index_maps0 t
  unfold blk0
  rw [View.read_apply]
  show V c main_v67 _ = V c main_v67 _
  congr 1
  funext a
  apply Fin.ext
  match a with
  | ⟨0, _⟩ => show win0_2.index t (0 : Fin 2) * 1 + 1 * 0 = 0; rw [e0]
  | ⟨1, _⟩ => show win0_2.index t (1 : Fin 2) * 256 + 1 * q.val = q.val; rw [e1]; omega

end Cert.KernelIdeal.Hand

end
-- ==== Proof.KI.Pay0.lean ====
import proofs.«147161_j55284819034171_1_alg».proof.Proof.Gen.KernelIdeal.Skeleton
import Idealize.ShloMosaic.Lib.ValueLayout
import Idealize.ShloMosaic.PureOps.Ideal.Laws

/-!
  The three values the first layer's body stores, read at one entry over the extended reals.

  The cleared accumulator is 0 everywhere. The accumulator after a step is what it held before plus
  one entry of a matrix product: row p of the feature tile against column q of the weight slab, summed
  over the 128 contracted positions. The stored output is the accumulator plus the bias of its column,
  cut off below at 0.
-/

noncomputable section

namespace Cert.KernelIdeal.Hand

open Cert.KernelIdeal Cert.KernelIdeal.Gen
open Idealize.ShloMosaic Idealize.ShloMosaic.ValueIdx
open scoped BigOperators

/-- The tile product's dimension numbers: rows of the tile, columns of the slab, one contracted axis
    of extent 128. -/
abbrev dot0 : DotDims S2000x128 S128x256 S2000x256 := dot_S2000x128_S128x256_S2000x256_1_0_0_1_n_n

/-- At output entry (p, q) and contracted position k the product reads the tile at (p, k) … -/
theorem lhsIdx_at0 (p : Fin 2000) (q : Fin 256) (k : Fin 128) :
    dot0.lhsIdx (ix2 p q) ((contrEquiv1 dot0 128 rfl rfl).symm k) = ix2 p k := by
  funext a
  refine Fin.ext ?_
  match a with
  | ⟨0, _⟩ =>
    show ((dot0.lhsIdx (ix2 p q) _) 0).val = p.val
    simp [DotDims.lhsIdx, dot0, dot_S2000x128_S128x256_S2000x256_1_0_0_1_n_n]
    rfl
  | ⟨1, _⟩ =>
    exact (dot0.lhsIdx_val_of_single (cl := 1) rfl (ix2 p q) _).trans (contrEquiv1_symm_val dot0 128 rfl rfl k)

/-- … and the slab at (k, q). -/
theorem rhsIdx_at0 (p : Fin 2000) (q : Fin 256) (k : Fin 128) :
    dot0.rhsIdx (ix2 p q) ((contrEquiv1 dot0 128 rfl rfl).symm k) = ix2 k q := by
  funext a
  refine Fin.ext ?_
  match a with
  | ⟨0, _⟩ =>
    exact (dot0.rhsIdx_val_of_single (cr := 0) rfl (ix2 p q) _).trans (contrEquiv1_symm_val dot0 128 rfl rfl k)
  | ⟨1, _⟩ =>
    show ((dot0.rhsIdx (ix2 p q) _) 1).val = q.val
    simp [DotDims.rhsIdx, dot0, dot_S2000x128_S128x256_S2000x256_1_0_0_1_n_n]
    rfl

/-- The cleared accumulator reads 0 at every entry. -/
theorem pay1_at0 (p : Fin 2000) (q : Fin 256) : (k0_pay1 (F := Ideal)) (ix2 p q) = 0 := by
  unfold k0_pay1
  refine (congrFun (shapeCast_self _ _) (ix2 p q)).trans ?_
  exact Ideal.ofBits_zero_f32

/-- One step of the accumulation at entry (p, q): the old entry plus the sum over the contracted
    position k of tile entry (p, k) times slab entry (k, q). -/
theorem pay2_at0 (v3 : Vec Ideal S2000x256 .f32) (v4 : Vec Ideal S1x2000x128 .bf16) (v6 : Vec Ideal S1x128x256 .bf16)
    (p : Fin 2000) (q : Fin 256) :
    k0_pay2 v3 v4 v6 (ix2 p q) = v3 (ix2 p q) + ∑ k : Fin 128, v4 (ix3 (0 : Fin 1) p k) * v6 (ix3 (0 : Fin 1) k q) := by
  unfold k0_pay2
  refine (congrFun (shapeCast_self _ _) (ix2 p q)).trans ?_
  refine congrArg (v3 (ix2 p q) + ·) ?_
  refine (Ideal.matmul_constant_zero_apply dot0 none _ _ (ix2 p q)).trans ?_
  refine (Equiv.sum_comp (contrEquiv1 dot0 128 rfl rfl).symm _).symm.trans ?_
  refine Finset.sum_congr rfl fun k _ => ?_
  refine congrArg₂ (· * ·) ?_ ?_
  · exact (congrArg (shapeCast S2000x128 v4 shapeCasts_S1x2000x128_S2000x128) (lhsIdx_at0 p q k)).trans
      (shapeCast_1ab_ab_apply v4 _ p k)
  · exact (congrArg (shapeCast S128x256 v6 shapeCasts_S1x128x256_S128x256) (rhsIdx_at0 p q k)).trans
      (shapeCast_1ab_ab_apply v6 _ k q)

/-- The stored output at entry (p, q): the accumulator's entry plus the bias of column q, cut off
    below at 0. The bias row is spread over all 2000 rows of the tile. -/
theorem pay3_at0 (v16 : Vec Ideal S2000x256 .f32) (v17 : Vec Ideal S1x256 .f32) (p : Fin 2000) (q : Fin 256) :
    k0_pay3 v16 v17 (ix2 p q) = max (v16 (ix2 p q) + v17 (ix2 (0 : Fin 1) q)) 0 := by
  unfold k0_pay3
  refine (maximumf_apply _ _ (ix2 p q)).trans ?_
  refine congrArg₂ max ?_ Ideal.ofBits_zero_f32
  refine congrArg (v16 (ix2 p q) + ·) ?_
  refine (broadcastTo_1b_ab_apply _ _ p q).trans ?_
  refine (shapeCast_a_1a_apply _ _ (0 : Fin 1) q).trans ?_
  exact shapeCast_1a_a_apply v17 _ q

end Cert.KernelIdeal.Hand

end
-- ==== Proof.KI.Value0.lean ====
import proofs.«147161_j55284819034171_1_alg».proof.Proof.KI.Blocks0
import proofs.«147161_j55284819034171_1_alg».proof.Proof.KI.Pay0
import proofs.«147161_j55284819034171_1_alg».proof.Proof.ChebSpec
import Idealize.ShloMosaic.Lib.Pipeline.Value

/-!
  What the first layer's region leaves in its output array, entry by entry over the extended reals.

  Row r of the output lies in tile i = r / 2000 at row p = r % 2000 of the tile. The tile's three
  points k = 0, 1, 2 clear the accumulator and add to it, one after the other, the three products
  of the tile's feature rows with the three weight slabs; the last point adds the bias and cuts
  off at 0, and only that point's block is written back. So entry (r, q) of the array ends at
  max (x₀·w₀ + x₁·w₁ + x₂·w₂ + b) 0 read at (r, q).
-/

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-- The feature array as three matrices of 30000 rows and 128 columns. -/
abbrev feat0 (c : Dev nD) : Fin 3 → Fin 30000 → Fin 128 → EReal :=
  fun k r j => (V c main_v65 : S3x30000x128.Idx → Elt Ideal .bf16) (ix3 k r j)
/-- The weight array as three matrices of 128 rows and 256 columns. -/
abbrev wts0 (c : Dev nD) : Fin 3 → Fin 128 → Fin 256 → EReal :=
  fun k j q => (V c main_v66 : S3x128x256.Idx → Elt Ideal .bf16) (ix3 k j q)
/-- The bias row. -/
abbrev bias0 (c : Dev nD) : Fin 256 → EReal :=
  fun q => (V c main_v67 : S1x256.Idx → Elt Ideal .f32) (ix2 (0 : Fin 1) q)

/-- Entry (p, q) of the product of a feature tile with a weight slab. -/
def prod0 (x : Vec Ideal S1x2000x128 .bf16) (w : Vec Ideal S1x128x256 .bf16) (p : Fin 2000) (q : Fin 256) : EReal :=
  ∑ j : Fin 128, x (ix3 (0 : Fin 1) p j) * w (ix3 (0 : Fin 1) j q)

/-- One step of the accumulation at entry (p, q), the product named. -/
theorem pay2_prod0 (a : Vec Ideal S2000x256 .f32) (x : Vec Ideal S1x2000x128 .bf16) (w : Vec Ideal S1x128x256 .bf16)
    (p : Fin 2000) (q : Fin 256) : k0_pay2 a x w (ix2 p q) = a (ix2 p q) + prod0 x w p q :=
  pay2_at0 a x w p q

/-- The product a point adds, at tile entry (p, q): row r = 2000·(t / 3) + p of feature matrix
    t % 3 against column q of weight matrix t % 3. -/
theorem term_at0 (c : Dev nD) (t : Fin cfg0.N) (p : Fin 2000) (q : Fin 256) (k : Fin 3) (r : Fin 30000)
    (hk : k.val = t.val % 3) (hr : r.val = 2000 * (t.val / 3) + p.val) :
    prod0 (blk0 V c 0 t) (blk0 V c 1 t) p q = Cheb.term (feat0 V c k) (wts0 V c k) r q := by
  unfold prod0 Cheb.term
  exact Finset.sum_congr rfl fun j _ =>
    congrArg₂ (· * ·) (blk0_0_at V c t p j k r hk hr) (blk0_1_at V c t j q k hk)

/-- The accumulator's contents depend on the point's number only. -/
theorem acc0_congr (c : Dev nD) {n n' : ℕ} (h : n = n') (hn : n < cfg0.N) (hn' : n' < cfg0.N) :
    acc0 V c n hn = acc0 V c n' hn' := by
  subst h; rfl

/-- At a point that is not a tile's first the accumulator's entry is the entry the point before
    left plus the point's product. -/
theorem acc0_succ_at (c : Dev nD) (s t : Fin cfg0.N) (hst : t.val = s.val + 1) (h : ¬ t.val % 3 = 0)
    (p : Fin 2000) (q : Fin 256) :
    acc0 V c t.val t.isLt (ix2 p q) = acc0 V c s.val s.isLt (ix2 p q) + prod0 (blk0 V c 0 t) (blk0 V c 1 t) p q := by
  have e1 := congrFun (acc0_step V c t h) (ix2 p q)
  have e2 := pay2_prod0 (acc0 V c (t.val - 1) (Nat.lt_of_le_of_lt (Nat.sub_le _ _) t.isLt)) (blk0 V c 0 t) (blk0 V c 1 t) p q
  have e3 : acc0 V c (t.val - 1) (Nat.lt_of_le_of_lt (Nat.sub_le _ _) t.isLt) = acc0 V c s.val s.isLt :=
    acc0_congr V c (by omega) _ _
  rw [e1, e2, e3]

/-- At a tile's first point the accumulator's entry is 0 plus the point's product. -/
theorem acc0_first_at (c : Dev nD) (t : Fin cfg0.N) (h : t.val % 3 = 0) (p : Fin 2000) (q : Fin 256) :
    acc0 V c t.val t.isLt (ix2 p q) = 0 + prod0 (blk0 V c 0 t) (blk0 V c 1 t) p q := by
  have e1 := congrFun (acc0_reset V c t h) (ix2 p q)
  have e2 := pay2_prod0 (k0_pay1 (F := Ideal)) (blk0 V c 0 t) (blk0 V c 1 t) p q
  rw [e1, e2, pay1_at0 p q]

/-- After a tile's last point the accumulator's entry (p, q) is the three products of row
    r = 2000·(t / 3) + p added to 0 in order. -/
theorem acc0_last_at (c : Dev nD) (t : Fin cfg0.N) (h2 : t.val % 3 = 2) (p : Fin 2000) (q : Fin 256) (r : Fin 30000)
    (hr : r.val = 2000 * (t.val / 3) + p.val) :
    acc0 V c t.val t.isLt (ix2 p q)
      = ((0 + Cheb.term (feat0 V c 0) (wts0 V c 0) r q) + Cheb.term (feat0 V c 1) (wts0 V c 1) r q)
          + Cheb.term (feat0 V c 2) (wts0 V c 2) r q := by
  have hN : t.val < cfg0.N := t.isLt
  obtain ⟨s1, hs1⟩ : ∃ s : Fin cfg0.N, s.val = t.val - 1 := ⟨⟨t.val - 1, by omega⟩, rfl⟩
  obtain ⟨s0, hs0⟩ : ∃ s : Fin cfg0.N, s.val = t.val - 2 := ⟨⟨t.val - 2, by omega⟩, rfl⟩
  have a2 := acc0_succ_at V c s1 t (by omega) (by omega) p q
  have a1 := acc0_succ_at V c s0 s1 (by omega) (by omega) p q
  have a0 := acc0_first_at V c s0 (by omega) p q
  have c2 := term_at0 V c t p q 2 r (by show 2 = t.val % 3; omega) hr
  have c1 := term_at0 V c s1 p q 1 r (by show 1 = s1.val % 3; omega) (by omega)
  have c0 := term_at0 V c s0 p q 0 r (by show 0 = s0.val % 3; omega) (by omega)
  rw [a2, a1, a0, c2, c1, c0]

/-- What a tile's last point stores into the output block, at entry (p, q): the layer at row
    r = 2000·(t / 3) + p and column q, cut off below at 0. -/
theorem out0_at (c : Dev nD) (t : Fin cfg0.N) (h2 : t.val % 3 = 2) (p : Fin 2000) (q : Fin 256) (r : Fin 30000)
    (hr : r.val = 2000 * (t.val / 3) + p.val) :
    out0 V c t (ix2 p q) = max (Cheb.lin (feat0 V c) (wts0 V c) (bias0 V c) r q) 0 := by
  unfold out0
  rw [pay3_at0 (acc0 V c t.val t.isLt) (blk0 V c 2 t) p q, acc0_last_at V c t h2 p q r hr, blk0_2_at V c t q]
  exact congrArg (max · 0) (Cheb.lin_eq_acc (feat0 V c) (wts0 V c) (bias0 V c) r q)

/-- The output array the region leaves, as a function of its entries' coordinates. -/
def layer0 (c : Dev nD) : S30000x256.Idx → EReal :=
  fun i => max (Cheb.lin (feat0 V c) (wts0 V c) (bias0 V c) ⟨(i 0).val, idx2_lt0 i⟩ ⟨(i 1).val, idx2_lt1 i⟩) 0

/-- What a tile's last point writes back is its block of that function. -/
theorem flushed0_eq (c : Dev nD) (t : Fin cfg0.N) (hf : (cfg0.win 3).flush t = true) :
    (dat0 V c).flushed 3 t = ((cfg0.win 3).blk t).view.read (Elt Ideal) (layer0 V c) := by
  have h2 : t.val % 3 = 2 := (flush0_3 t).mp hf
  have hN : t.val < 45 := lt_of_lt_of_eq t.isLt N_0
  obtain ⟨-, -, -, -, -, -, -, -, e0, e1⟩ := index_maps0 t
  show (cfg0.win 3).cut (grid0.coords t) ((dat0 V c).after 3 t) = _
  rw [after0_3]
  have key : ∀ j : S2000x256.Idx, out0 V c t j = layer0 V c (((cfg0.win 3).blk t).view.emb j) := by
    intro j
    obtain ⟨p, q, rfl⟩ : ∃ (p : Fin 2000) (q : Fin 256), j = ix2 p q := ⟨j 0, j 1, eq_ix2 j⟩
    have hemb : ((cfg0.win 3).blk t).view.emb (ix2 p q)
        = (ix2 (⟨2000 * (t.val / 3) + p.val, by omega⟩ : Fin 30000) q : S30000x256.Idx) := by
      funext a
      apply Fin.ext
      match a with
      | ⟨0, _⟩ => show win0_3.index t (0 : Fin 2) * 2000 + 1 * p.val = 2000 * (t.val / 3) + p.val; rw [e0]; omega
      | ⟨1, _⟩ => show win0_3.index t (1 : Fin 2) * 256 + 1 * q.val = q.val; rw [e1]; omega
    rw [hemb]
    exact out0_at V c t h2 p q _ rfl
  funext j
  exact key j

/-- An entry of the array is in point t's output block iff each coordinate is in the block's range. -/
theorem mem_blk0_3 (t : Fin cfg0.N) (i : S30000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v68).slice (win0_3.rect t)).set ↔ _
  rw [View.set_slice_whole, Rect.mem_set_unit]
  exact Iff.rfl

/-- The blocks written back cover the array: row r lies in the block of the last point of tile
    r / 2000. So the array ends holding the layer everywhere. -/
theorem region0_array (c : Dev nD) : (dat0 (F := Ideal) V c).arrAt 3 cfg0.N = layer0 V c :=
  (dat0 V c).arrAt_eq_of_cover 3 (layer0 V c) (flushed0_eq V c) fun i => by
    have hi0 : (i 0).val < 30000 := (i 0).isLt
    have hi1 : (i 1).val < 256 := (i 1).isLt
    obtain ⟨t, ht⟩ : ∃ t : Fin cfg0.N, t.val = 3 * ((i 0).val / 2000) + 2 :=
      ⟨⟨3 * ((i 0).val / 2000) + 2, by rw [show cfg0.N = 45 from N_0]; omega⟩, rfl⟩
    obtain ⟨-, -, -, -, -, -, -, -, e0, e1⟩ := index_maps0 t
    refine ⟨t, (flush0_3 t).mpr (by omega), ?_⟩
    rw [mem_blk0_3]
    intro a
    match a with
    | ⟨0, _⟩ =>
      show win0_3.index t (0 : Fin 2) * 2000 ≤ (i 0).val ∧ (i 0).val < win0_3.index t (0 : Fin 2) * 2000 + 2000
      rw [e0]; omega
    | ⟨1, _⟩ =>
      show win0_3.index t (1 : Fin 2) * 256 ≤ (i 1).val ∧ (i 1).val < win0_3.index t (1 : Fin 2) * 256 + 256
      rw [e1]; omega

/-- Entry (r, q) of the array the first layer's region leaves: the layer at (r, q), cut off below at 0. -/
theorem region0_value (c : Dev nD) (r : Fin 30000) (q : Fin 256) :
    ((dat0 (F := Ideal) V c).arrAt 3 cfg0.N : S30000x256.Idx → EReal) (ix2 r q)
      = max (Cert.Cheb.lin
          (fun t r k => (V c main_v65 : S3x30000x128.Idx → EReal) (ix3 t r k))
          (fun t k q => (V c main_v66 : S3x128x256.Idx → EReal) (ix3 t k q))
          (fun q => (V c main_v67 : S1x256.Idx → EReal) (ix2 (0 : Fin 1) q)) r q) 0 :=
  congrFun (region0_array V c) (ix2 r q)

end Cert.KernelIdeal.Hand

end
-- ==== Proof.KI.Blocks1.lean ====
import proofs.«147161_j55284819034171_1_alg».proof.Proof.KI.Body1
import Idealize.ShloMosaic.Lib.ValueIdx
import Idealize.ShloMosaic.Lib.Pipeline.Value

/-!
  The blocks the second layer's body reads, as pieces of the arrays the region finds.

  Point t of the 15 × 3 grid is tile i = t / 3 at order k = t % 3. Its feature block is rows
  2000·i … 2000·i + 1999 of slab k of the feature array, its weight block is slab k of the weight
  array whole, its bias block is the bias row whole, and its output block is rows
  2000·i … 2000·i + 1999 of the output array.
-/

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable {F : FTy → Type} [FloatOps F]
variable (V : (c : Dev nD) → (b : Ref sig .tc) → Buf (Elt F) ((c : Thread nD τ).loc b))

/-- The four index maps at point t, decided once over the 45 points: the feature window sits at
    (t % 3, t / 3, 0), the weight window at (t % 3, 0, 0), the bias window at (0, 0), the output
    window at (t / 3, 0). -/
theorem index_maps1 : ∀ t : Fin cfg1.N,
    win1_0.index t (0 : Fin 3) = t.val % 3 ∧ win1_0.index t (1 : Fin 3) = t.val / 3 ∧ win1_0.index t (2 : Fin 3) = 0
    ∧ win1_1.index t (0 : Fin 3) = t.val % 3 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = t.val / 3 ∧ win1_3.index t (1 : Fin 2) = 0 :=
  (by decide +kernel : ∀ t : Fin grid1.N, _)

/-- Entry (0, p, j) of the feature block at point t is entry (t % 3, 2000·(t / 3) + p, j) of the
    feature array. -/
theorem blk1_0_at (c : Dev nD) (t : Fin cfg1.N) (p : Fin 2000) (j : Fin 256) (k : Fin 3) (r : Fin 30000)
    (hk : k.val = t.val % 3) (hr : r.val = 2000 * (t.val / 3) + p.val) :
    (blk1 V c 0 t : Vec F S1x2000x256 .bf16) (ix3 (0 : Fin 1) p j)
      = (V c main_v102 : S3x30000x256.Idx → Elt F .bf16) (ix3 k r j) := by
  obtain ⟨e0, e1, e2, -⟩ := index_maps1 t
  unfold blk1
  rw [View.read_apply]
  show V c main_v102 _ = V c main_v102 _
  congr 1
  funext a
  apply Fin.ext
  match a with
  | ⟨0, _⟩ => show win1_0.index t (0 : Fin 3) * 1 + 1 * 0 = k.val; rw [e0, hk]; omega
  | ⟨1, _⟩ => show win1_0.index t (1 : Fin 3) * 2000 + 1 * p.val = r.val; rw [e1, hr]; omega
  | ⟨2, _⟩ => show win1_0.index t (2 : Fin 3) * 256 + 1 * j.val = j.val; rw [e2]; omega

/-- Entry (0, j, q) of the weight block at point t is entry (t % 3, j, q) of the weight array. -/
theorem blk1_1_at (c : Dev nD) (t : Fin cfg1.N) (j : Fin 256) (q : Fin 128) (k : Fin 3) (hk : k.val = t.val % 3) :
    (blk1 V c 1 t : Vec F S1x256x128 .bf16) (ix3 (0 : Fin 1) j q)
      = (V c main_v103 : S3x256x128.Idx → Elt F .bf16) (ix3 k j q) := by
  obtain ⟨-, -, -, e0, e1, e2, -⟩ := index_maps1 t
  unfold blk1
  rw [View.read_apply]
  show V c main_v103 _ = V c main_v103 _
  congr 1
  funext a
  apply Fin.ext
  match a with
  | ⟨0, _⟩ => show win1_1.index t (0 : Fin 3) * 1 + 1 * 0 = k.val; rw [e0, hk]; omega
  | ⟨1, _⟩ => show win1_1.index t (1 : Fin 3) * 256 + 1 * j.val = j.val; rw [e1]; omega
  | ⟨2, _⟩ => show win1_1.index t (2 : Fin 3) * 128 + 1 * q.val = q.val; rw [e2]; omega

/-- Entry (0, q) of the bias block at any point is entry (0, q) of the bias row. -/
theorem blk1_2_at (c : Dev nD) (t : Fin cfg1.N) (q : Fin 128) :
    (blk1 V c 2 t : Vec F S1x128 .f32) (ix2 (0 : Fin 1) q)
      = (V c main_v104 : S1x128.Idx → Elt F .f32) (ix2 (0 : Fin 1) q) := by
  obtain ⟨-, -, -, -, -, -, e0, e1, -⟩ := index_maps1 t
  unfold blk1
  rw [View.read_apply]
  show V c main_v104 _ = V c main_v104 _
  congr 1
  funext a
  apply Fin.ext
  match a with
  | ⟨0, _⟩ => show win1_2.index t (0 : Fin 2) * 1 + 1 * 0 = 0; rw [e0]
  | ⟨1, _⟩ => show win1_2.index t (1 : Fin 2) * 128 + 1 * q.val = q.val; rw [e1]; omega

end Cert.KernelIdeal.Hand

end
-- ==== Proof.KI.Pay1.lean ====
import proofs.«147161_j55284819034171_1_alg».proof.Proof.Gen.KernelIdeal.Skeleton
import Idealize.ShloMosaic.Lib.ValueLayout
import Idealize.ShloMosaic.PureOps.Ideal.Laws

/-!
  The three values the second layer's body stores, read at one entry over the extended reals.

  The cleared accumulator is 0 everywhere. The accumulator after a step is what it held before plus
  one entry of a matrix product: row p of the feature tile against column q of the weight slab, summed
  over the 256 contracted positions. The stored output is the accumulator plus the bias of its column.
-/

noncomputable section

namespace Cert.KernelIdeal.Hand

open Cert.KernelIdeal Cert.KernelIdeal.Gen
open Idealize.ShloMosaic Idealize.ShloMosaic.ValueIdx
open scoped BigOperators

/-- The tile product's dimension numbers: rows of the tile, columns of the slab, one contracted axis
    of extent 256. -/
abbrev dot1 : DotDims S2000x256 S256x128 S2000x128 := dot_S2000x256_S256x128_S2000x128_1_0_0_1_n_n

/-- At output entry (p, q) and contracted position k the product reads the tile at (p, k) … -/
theorem lhsIdx_at1 (p : Fin 2000) (q : Fin 128) (k : Fin 256) :
    dot1.lhsIdx (ix2 p q) ((contrEquiv1 dot1 256 rfl rfl).symm k) = ix2 p k := by
  funext a
  refine Fin.ext ?_
  match a with
  | ⟨0, _⟩ =>
    show ((dot1.lhsIdx (ix2 p q) _) 0).val = p.val
    simp [DotDims.lhsIdx, dot1, dot_S2000x256_S256x128_S2000x128_1_0_0_1_n_n]
    rfl
  | ⟨1, _⟩ =>
    exact (dot1.lhsIdx_val_of_single (cl := 1) rfl (ix2 p q) _).trans (contrEquiv1_symm_val dot1 256 rfl rfl k)

/-- … and the slab at (k, q). -/
theorem rhsIdx_at1 (p : Fin 2000) (q : Fin 128) (k : Fin 256) :
    dot1.rhsIdx (ix2 p q) ((contrEquiv1 dot1 256 rfl rfl).symm k) = ix2 k q := by
  funext a
  refine Fin.ext ?_
  match a with
  | ⟨0, _⟩ =>
    exact (dot1.rhsIdx_val_of_single (cr := 0) rfl (ix2 p q) _).trans (contrEquiv1_symm_val dot1 256 rfl rfl k)
  | ⟨1, _⟩ =>
    show ((dot1.rhsIdx (ix2 p q) _) 1).val = q.val
    simp [DotDims.rhsIdx, dot1, dot_S2000x256_S256x128_S2000x128_1_0_0_1_n_n]
    rfl

/-- The cleared accumulator reads 0 at every entry. -/
theorem pay1_at1 (p : Fin 2000) (q : Fin 128) : (k1_pay1 (F := Ideal)) (ix2 p q) = 0 := by
  unfold k1_pay1
  refine (congrFun (shapeCast_self _ _) (ix2 p q)).trans ?_
  exact Ideal.ofBits_zero_f32

/-- One step of the accumulation at entry (p, q): the old entry plus the sum over the contracted
    position k of tile entry (p, k) times slab entry (k, q). -/
theorem pay2_at1 (v3 : Vec Ideal S2000x128 .f32) (v4 : Vec Ideal S1x2000x256 .bf16) (v6 : Vec Ideal S1x256x128 .bf16)
    (p : Fin 2000) (q : Fin 128) :
    k1_pay2 v3 v4 v6 (ix2 p q) = v3 (ix2 p q) + ∑ k : Fin 256, v4 (ix3 (0 : Fin 1) p k) * v6 (ix3 (0 : Fin 1) k q) := by
  unfold k1_pay2
  refine (congrFun (shapeCast_self _ _) (ix2 p q)).trans ?_
  refine congrArg (v3 (ix2 p q) + ·) ?_
  refine (Ideal.matmul_constant_zero_apply dot1 none _ _ (ix2 p q)).trans ?_
  refine (Equiv.sum_comp (contrEquiv1 dot1 256 rfl rfl).symm _).symm.trans ?_
  refine Finset.sum_congr rfl fun k _ => ?_
  refine congrArg₂ (· * ·) ?_ ?_
  · exact (congrArg (shapeCast S2000x256 v4 shapeCasts_S1x2000x256_S2000x256) (lhsIdx_at1 p q k)).trans
      (shapeCast_1ab_ab_apply v4 _ p k)
  · exact (congrArg (shapeCast S256x128 v6 shapeCasts_S1x256x128_S256x128) (rhsIdx_at1 p q k)).trans
      (shapeCast_1ab_ab_apply v6 _ k q)

/-- The stored output at entry (p, q): the accumulator's entry plus the bias of column q. The bias row
    is spread over all 2000 rows of the tile. -/
theorem pay3_at1 (v16 : Vec Ideal S2000x128 .f32) (v17 : Vec Ideal S1x128 .f32) (p : Fin 2000) (q : Fin 128) :
    k1_pay3 v16 v17 (ix2 p q) = v16 (ix2 p q) + v17 (ix2 (0 : Fin 1) q) := by
  unfold k1_pay3
  refine congrArg (v16 (ix2 p q) + ·) ?_
  refine (broadcastTo_1b_ab_apply _ _ p q).trans ?_
  refine (shapeCast_a_1a_apply _ _ (0 : Fin 1) q).trans ?_
  exact shapeCast_1a_a_apply v17 _ q

end Cert.KernelIdeal.Hand

end
-- ==== Proof.KI.Value1.lean ====
import proofs.«147161_j55284819034171_1_alg».proof.Proof.KI.Blocks1
import proofs.«147161_j55284819034171_1_alg».proof.Proof.KI.Pay1
import proofs.«147161_j55284819034171_1_alg».proof.Proof.ChebSpec
import Idealize.ShloMosaic.Lib.Pipeline.Value

/-!
  What the second layer's region leaves in its output array, entry by entry over the extended reals.

  Row r of the output lies in tile i = r / 2000 at row p = r % 2000 of the tile. The tile's three
  points k = 0, 1, 2 clear the accumulator and add to it, one after the other, the three products
  of the tile's feature rows with the three weight slabs; the last point adds the bias, and only
  that point's block is written back. So entry (r, q) of the array ends at
  x₀·w₀ + x₁·w₁ + x₂·w₂ + b read at (r, q).
-/

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-- The feature array as three matrices of 30000 rows and 256 columns. -/
abbrev feat1 (c : Dev nD) : Fin 3 → Fin 30000 → Fin 256 → EReal :=
  fun k r j => (V c main_v102 : S3x30000x256.Idx → Elt Ideal .bf16) (ix3 k r j)
/-- The weight array as three matrices of 256 rows and 128 columns. -/
abbrev wts1 (c : Dev nD) : Fin 3 → Fin 256 → Fin 128 → EReal :=
  fun k j q => (V c main_v103 : S3x256x128.Idx → Elt Ideal .bf16) (ix3 k j q)
/-- The bias row. -/
abbrev bias1 (c : Dev nD) : Fin 128 → EReal :=
  fun q => (V c main_v104 : S1x128.Idx → Elt Ideal .f32) (ix2 (0 : Fin 1) q)

/-- Entry (p, q) of the product of a feature tile with a weight slab. -/
def prod1 (x : Vec Ideal S1x2000x256 .bf16) (w : Vec Ideal S1x256x128 .bf16) (p : Fin 2000) (q : Fin 128) : EReal :=
  ∑ j : Fin 256, x (ix3 (0 : Fin 1) p j) * w (ix3 (0 : Fin 1) j q)

/-- One step of the accumulation at entry (p, q), the product named. -/
theorem pay2_prod1 (a : Vec Ideal S2000x128 .f32) (x : Vec Ideal S1x2000x256 .bf16) (w : Vec Ideal S1x256x128 .bf16)
    (p : Fin 2000) (q : Fin 128) : k1_pay2 a x w (ix2 p q) = a (ix2 p q) + prod1 x w p q :=
  pay2_at1 a x w p q

/-- The product a point adds, at tile entry (p, q): row r = 2000·(t / 3) + p of feature matrix
    t % 3 against column q of weight matrix t % 3. -/
theorem term_at1 (c : Dev nD) (t : Fin cfg1.N) (p : Fin 2000) (q : Fin 128) (k : Fin 3) (r : Fin 30000)
    (hk : k.val = t.val % 3) (hr : r.val = 2000 * (t.val / 3) + p.val) :
    prod1 (blk1 V c 0 t) (blk1 V c 1 t) p q = Cheb.term (feat1 V c k) (wts1 V c k) r q := by
  unfold prod1 Cheb.term
  exact Finset.sum_congr rfl fun j _ =>
    congrArg₂ (· * ·) (blk1_0_at V c t p j k r hk hr) (blk1_1_at V c t j q k hk)

/-- The accumulator's contents depend on the point's number only. -/
theorem acc1_congr (c : Dev nD) {n n' : ℕ} (h : n = n') (hn : n < cfg1.N) (hn' : n' < cfg1.N) :
    acc1 V c n hn = acc1 V c n' hn' := by
  subst h; rfl

/-- At a point that is not a tile's first the accumulator's entry is the entry the point before
    left plus the point's product. -/
theorem acc1_succ_at (c : Dev nD) (s t : Fin cfg1.N) (hst : t.val = s.val + 1) (h : ¬ t.val % 3 = 0)
    (p : Fin 2000) (q : Fin 128) :
    acc1 V c t.val t.isLt (ix2 p q) = acc1 V c s.val s.isLt (ix2 p q) + prod1 (blk1 V c 0 t) (blk1 V c 1 t) p q := by
  have e1 := congrFun (acc1_step V c t h) (ix2 p q)
  have e2 := pay2_prod1 (acc1 V c (t.val - 1) (Nat.lt_of_le_of_lt (Nat.sub_le _ _) t.isLt)) (blk1 V c 0 t) (blk1 V c 1 t) p q
  have e3 : acc1 V c (t.val - 1) (Nat.lt_of_le_of_lt (Nat.sub_le _ _) t.isLt) = acc1 V c s.val s.isLt :=
    acc1_congr V c (by omega) _ _
  rw [e1, e2, e3]

/-- At a tile's first point the accumulator's entry is 0 plus the point's product. -/
theorem acc1_first_at (c : Dev nD) (t : Fin cfg1.N) (h : t.val % 3 = 0) (p : Fin 2000) (q : Fin 128) :
    acc1 V c t.val t.isLt (ix2 p q) = 0 + prod1 (blk1 V c 0 t) (blk1 V c 1 t) p q := by
  have e1 := congrFun (acc1_reset V c t h) (ix2 p q)
  have e2 := pay2_prod1 (k1_pay1 (F := Ideal)) (blk1 V c 0 t) (blk1 V c 1 t) p q
  rw [e1, e2, pay1_at1 p q]

/-- After a tile's last point the accumulator's entry (p, q) is the three products of row
    r = 2000·(t / 3) + p added to 0 in order. -/
theorem acc1_last_at (c : Dev nD) (t : Fin cfg1.N) (h2 : t.val % 3 = 2) (p : Fin 2000) (q : Fin 128) (r : Fin 30000)
    (hr : r.val = 2000 * (t.val / 3) + p.val) :
    acc1 V c t.val t.isLt (ix2 p q)
      = ((0 + Cheb.term (feat1 V c 0) (wts1 V c 0) r q) + Cheb.term (feat1 V c 1) (wts1 V c 1) r q)
          + Cheb.term (feat1 V c 2) (wts1 V c 2) r q := by
  have hN : t.val < cfg1.N := t.isLt
  obtain ⟨s1, hs1⟩ : ∃ s : Fin cfg1.N, s.val = t.val - 1 := ⟨⟨t.val - 1, by omega⟩, rfl⟩
  obtain ⟨s0, hs0⟩ : ∃ s : Fin cfg1.N, s.val = t.val - 2 := ⟨⟨t.val - 2, by omega⟩, rfl⟩
  have a2 := acc1_succ_at V c s1 t (by omega) (by omega) p q
  have a1 := acc1_succ_at V c s0 s1 (by omega) (by omega) p q
  have a0 := acc1_first_at V c s0 (by omega) p q
  have c2 := term_at1 V c t p q 2 r (by show 2 = t.val % 3; omega) hr
  have c1 := term_at1 V c s1 p q 1 r (by show 1 = s1.val % 3; omega) (by omega)
  have c0 := term_at1 V c s0 p q 0 r (by show 0 = s0.val % 3; omega) (by omega)
  rw [a2, a1, a0, c2, c1, c0]

/-- What a tile's last point stores into the output block, at entry (p, q): the layer at row
    r = 2000·(t / 3) + p and column q. -/
theorem out1_at (c : Dev nD) (t : Fin cfg1.N) (h2 : t.val % 3 = 2) (p : Fin 2000) (q : Fin 128) (r : Fin 30000)
    (hr : r.val = 2000 * (t.val / 3) + p.val) :
    out1 V c t (ix2 p q) = Cheb.lin (feat1 V c) (wts1 V c) (bias1 V c) r q := by
  unfold out1
  rw [pay3_at1 (acc1 V c t.val t.isLt) (blk1 V c 2 t) p q, acc1_last_at V c t h2 p q r hr, blk1_2_at V c t q]
  exact Cheb.lin_eq_acc (feat1 V c) (wts1 V c) (bias1 V c) r q

/-- The output array the region leaves, as a function of its entries' coordinates. -/
def layer1 (c : Dev nD) : S30000x128.Idx → EReal :=
  fun i => Cheb.lin (feat1 V c) (wts1 V c) (bias1 V c) ⟨(i 0).val, idx2_lt0 i⟩ ⟨(i 1).val, idx2_lt1 i⟩

/-- What a tile's last point writes back is its block of that function. -/
theorem flushed1_eq (c : Dev nD) (t : Fin cfg1.N) (hf : (cfg1.win 3).flush t = true) :
    (dat1 V c).flushed 3 t = ((cfg1.win 3).blk t).view.read (Elt Ideal) (layer1 V c) := by
  have h2 : t.val % 3 = 2 := (flush1_3 t).mp hf
  have hN : t.val < 45 := lt_of_lt_of_eq t.isLt N_1
  obtain ⟨-, -, -, -, -, -, -, -, e0, e1⟩ := index_maps1 t
  show (cfg1.win 3).cut (grid1.coords t) ((dat1 V c).after 3 t) = _
  rw [after1_3]
  have key : ∀ j : S2000x128.Idx, out1 V c t j = layer1 V c (((cfg1.win 3).blk t).view.emb j) := by
    intro j
    obtain ⟨p, q, rfl⟩ : ∃ (p : Fin 2000) (q : Fin 128), j = ix2 p q := ⟨j 0, j 1, eq_ix2 j⟩
    have hemb : ((cfg1.win 3).blk t).view.emb (ix2 p q)
        = (ix2 (⟨2000 * (t.val / 3) + p.val, by omega⟩ : Fin 30000) q : S30000x128.Idx) := by
      funext a
      apply Fin.ext
      match a with
      | ⟨0, _⟩ => show win1_3.index t (0 : Fin 2) * 2000 + 1 * p.val = 2000 * (t.val / 3) + p.val; rw [e0]; omega
      | ⟨1, _⟩ => show win1_3.index t (1 : Fin 2) * 128 + 1 * q.val = q.val; rw [e1]; omega
    rw [hemb]
    exact out1_at V c t h2 p q _ rfl
  funext j
  exact key j

/-- An entry of the array is in point t's output block iff each coordinate is in the block's range. -/
theorem mem_blk1_3 (t : Fin cfg1.N) (i : S30000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v105).slice (win1_3.rect t)).set ↔ _
  rw [View.set_slice_whole, Rect.mem_set_unit]
  exact Iff.rfl

/-- The blocks written back cover the array: row r lies in the block of the last point of tile
    r / 2000. So the array ends holding the layer everywhere. -/
theorem region1_array (c : Dev nD) : (dat1 (F := Ideal) V c).arrAt 3 cfg1.N = layer1 V c :=
  (dat1 V c).arrAt_eq_of_cover 3 (layer1 V c) (flushed1_eq V c) fun i => by
    have hi0 : (i 0).val < 30000 := (i 0).isLt
    have hi1 : (i 1).val < 128 := (i 1).isLt
    obtain ⟨t, ht⟩ : ∃ t : Fin cfg1.N, t.val = 3 * ((i 0).val / 2000) + 2 :=
      ⟨⟨3 * ((i 0).val / 2000) + 2, by rw [show cfg1.N = 45 from N_1]; omega⟩, rfl⟩
    obtain ⟨-, -, -, -, -, -, -, -, e0, e1⟩ := index_maps1 t
    refine ⟨t, (flush1_3 t).mpr (by omega), ?_⟩
    rw [mem_blk1_3]
    intro a
    match a with
    | ⟨0, _⟩ =>
      show win1_3.index t (0 : Fin 2) * 2000 ≤ (i 0).val ∧ (i 0).val < win1_3.index t (0 : Fin 2) * 2000 + 2000
      rw [e0]; omega
    | ⟨1, _⟩ =>
      show win1_3.index t (1 : Fin 2) * 128 ≤ (i 1).val ∧ (i 1).val < win1_3.index t (1 : Fin 2) * 128 + 128
      rw [e1]; omega

/-- Entry (r, q) of the array the second layer's region leaves: the layer at (r, q). -/
theorem region1_value (c : Dev nD) (r : Fin 30000) (q : Fin 128) :
    ((dat1 (F := Ideal) V c).arrAt 3 cfg1.N : S30000x128.Idx → EReal) (ix2 r q)
      = Cert.Cheb.lin
          (fun t r k => (V c main_v102 : S3x30000x256.Idx → EReal) (ix3 t r k))
          (fun t k q => (V c main_v103 : S3x256x128.Idx → EReal) (ix3 t k q))
          (fun q => (V c main_v104 : S1x128.Idx → EReal) (ix2 (0 : Fin 1) q)) r q :=
  congrFun (region1_array V c) (ix2 r q)

end Cert.KernelIdeal.Hand

end
-- ==== Proof.Bridge.lean ====
/-
  The two programs compute one function. Layer by layer: the first region's output array is the reference's first layer
  (both are the layer function of ChebSpec of the same three feature arrays, weights and bias — the kernel's running sum
  starts from 0, which is neutral —, cut off below at 0); hence the three arrays the second region reads are the
  reference's, and the second region's output is the reference's result.
-/
import proofs.«147161_j55284819034171_1_alg».proof.Defs
import proofs.«147161_j55284819034171_1_alg».proof.Proof.Gen.KernelIdeal
import proofs.«147161_j55284819034171_1_alg».proof.Proof.Gen.ReferenceIdeal
import proofs.«147161_j55284819034171_1_alg».proof.Proof.Gen.Pre_finite_inputs
import proofs.«147161_j55284819034171_1_alg».proof.Proof.StackIdx
import proofs.«147161_j55284819034171_1_alg».proof.Proof.RefValue
import proofs.«147161_j55284819034171_1_alg».proof.Proof.KI.Value0
import proofs.«147161_j55284819034171_1_alg».proof.Proof.KI.Value1

noncomputable section

namespace Cert.Proof.Bridge

open Idealize.ShloMosaic Idealize.ShloMosaic.TcCoe Idealize.SL.Sem Idealize.ShloMosaic.ValueIdx
open Cert.KernelIdeal Cert.KernelIdeal.Gen Cert.KernelIdeal.Hand Cert.KernelIdeal.HostK
open Cert.ReferenceIdeal.ReadP (val_main_v47 val_main_v67 val_main_v75 val_main_v91 val_main_v111 val_main_v118)
open Cert.ReferenceIdeal.RefValue (feat1 feat2)

variable (m : (ℓ : Loc nD τ sig) → Buf (Elt Ideal) ℓ)

/-- The first region leaves in its output array the reference's first layer. -/
theorem res0_eq (c : Dev nD) :
    res0 m c = val_main_v75 (F := Ideal) (a0 m c) (a1 m c) (a2 m c) (a3 m c) := by
  funext j
  obtain ⟨r, q, rfl⟩ : ∃ (r : Fin 30000) (q : Fin 256), j = ix2 r q := ⟨j 0, j 1, eq_ix2 j⟩
  rw [Cert.ReferenceIdeal.RefValue.layer1]
  have e65 : ∀ (t : Fin 3) (r : Fin 30000) (k : Fin 128),
      (Gen.V7 m c main_v65 : S3x30000x128.Idx → EReal) (ix3 t r k) = feat1 (a0 m c) (a1 m c) t (ix2 r k) := fun t r k => by
    rw [V7_v65]; exact stack128_apply (a0 m c) (val_main_v47 (F := Ideal) (a0 m c) (a1 m c)) (val_main_v67 (F := Ideal) (a0 m c) (a1 m c)) t r k
  have e66 : ∀ (t : Fin 3) (k : Fin 128) (q : Fin 256),
      (Gen.V7 m c main_v66 : S3x128x256.Idx → EReal) (ix3 t k q) = a2 m c (ix3 t k q) := fun t k q => by
    rw [V7_v66]; rfl
  have e67 : ∀ q : Fin 256, (Gen.V7 m c main_v67 : S1x256.Idx → EReal) (ix2 (0 : Fin 1) q) = a3 m c (ix1 q) := fun q => by
    rw [V7_v67]; exact bias256_apply (a3 m c) q
  refine (region0_value (fun c b => Gen.V7 m c b) c r q).trans ?_
  simp only [e65, e66, e67]

/-- The second region leaves in its output array the reference's result. -/
theorem res1_eq (c : Dev nD) :
    res1 m c = val_main_v118 (F := Ideal) (a0 m c) (a1 m c) (a2 m c) (a3 m c) (a4 m c) (a5 m c) := by
  have h68 : Gen.V8 m (outs0 m) c main_v68 = val_main_v75 (F := Ideal) (a0 m c) (a1 m c) (a2 m c) (a3 m c) :=
    (V8_v68 m c).trans (res0_eq m c)
  funext j
  obtain ⟨r, q, rfl⟩ : ∃ (r : Fin 30000) (q : Fin 128), j = ix2 r q := ⟨j 0, j 1, eq_ix2 j⟩
  rw [Cert.ReferenceIdeal.RefValue.layer2]
  have e102 : ∀ (t : Fin 3) (r : Fin 30000) (k : Fin 256),
      (Gen.V9 m (outs0 m) c main_v102 : S3x30000x256.Idx → EReal) (ix3 t r k)
        = feat2 (a0 m c) (a1 m c) (a2 m c) (a3 m c) t (ix2 r k) := fun t r k => by
    rw [V9_v102 m c h68]
    exact stack256_apply (val_main_v75 (F := Ideal) (a0 m c) (a1 m c) (a2 m c) (a3 m c))
      (val_main_v91 (F := Ideal) (a0 m c) (a1 m c) (a2 m c) (a3 m c)) (val_main_v111 (F := Ideal) (a0 m c) (a1 m c) (a2 m c) (a3 m c)) t r k
  have e103 : ∀ (t : Fin 3) (k : Fin 256) (q : Fin 128),
      (Gen.V9 m (outs0 m) c main_v103 : S3x256x128.Idx → EReal) (ix3 t k q) = a4 m c (ix3 t k q) := fun t k q => by
    rw [V9_v103]; rfl
  have e104 : ∀ q : Fin 128, (Gen.V9 m (outs0 m) c main_v104 : S1x128.Idx → EReal) (ix2 (0 : Fin 1) q) = a5 m c (ix1 q) := fun q => by
    rw [V9_v104]; exact bias128_apply (a5 m c) q
  refine (region1_value (fun c b => Gen.V9 m (outs0 m) c b) c r q).trans ?_
  simp only [e102, e103, e104]

/-- From memories that agree on the arguments both programs run to the end, the arguments unchanged, and end with the
    same result array. -/
theorem algebraic : Cert.algebraic_KernelIdeal_ReferenceIdeal := by
  intro m ρ m' ρ' _ hagree
  refine ⟨fun c => res1 m c, run_all m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v118_eq, (hagree c).1, (hagree c).2.1, (hagree c).2.2.1, (hagree c).2.2.2.1,
    (hagree c).2.2.2.2.1, (hagree c).2.2.2.2.2]
  exact (res1_eq m c).symm

end Cert.Proof.Bridge

end
-- ==== Proof.lean ====
/-
  The certificate's five claims for a two-layer Chebyshev graph network of order three on 30000 nodes and 480000 edges.

  Both programs normalise the edge list the same way (drop self-loops, out-degrees by a scatter-add, inverse square roots,
  the edge weight minus the product of the two endpoints' inverse square roots) and apply the same graph operator L (gather
  the source rows, scale by the edge weight, scatter-add into the destination rows); a layer maps features X to
  X·W₀ + (L X)·W₁ + (2 L (L X) − X)·W₂ + b, the first layer followed by the maximum with zero. The reference adds the three
  products left to right. The kernel stacks the three feature arrays, and for every tile of 2000 rows visits three grid
  points: the first clears an accumulator and adds the first product, the second adds the second, the third adds the third,
  adds the bias (and takes the maximum with zero in the first layer) and writes the tile back. On the extended reals the two
  agree entry by entry because 0 is neutral for the sum and a change of float format is the identity; no entry needs to
  be finite, so the precondition is never opened.

  * The kernel's frames (word level and idealized): each region's run from the tile accumulator's invariant (KI/Body0, KI/Body1
    and their word-level copies), the regions chained with the host stretches between them (KI/Run, K/Run).
  * The reference's frame: its run with the result dropped.
  * The idealization rewrote nothing, so its claim is trivial.
  * The values: each region's output array as the layer function of its three inputs (KI/Value0, KI/Value1); the host
    stretches of the kernel's program as the reference's own operations on equal arguments (HostK, HostK2, StackIdx); the
    reference's two layers read index by index (RefValue); the two results equal (Bridge).
-/
import proofs.«147161_j55284819034171_1_alg».proof.Defs
import proofs.«147161_j55284819034171_1_alg».proof.Proof.Gen.Kernel
import proofs.«147161_j55284819034171_1_alg».proof.Proof.Gen.KernelIdeal
import proofs.«147161_j55284819034171_1_alg».proof.Proof.Gen.ReferenceIdeal
import proofs.«147161_j55284819034171_1_alg».proof.Proof.Gen.Pre_finite_inputs
import proofs.«147161_j55284819034171_1_alg».proof.Proof.K.Run
import proofs.«147161_j55284819034171_1_alg».proof.Proof.KI.Run
import proofs.«147161_j55284819034171_1_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.ReferenceIdeal.ValueP.run (F := Ideal) m ρ),
  trivial,
  Cert.Proof.Bridge.algebraic⟩

end Cert.Proof

end
